-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v134)) (v1 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_v135) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S800000 : Shape := ⟨1, ![800000]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_
  bcast_S_S500000 : S_.BroadcastsInDim S500000 (![] : Fin 0 → Fin S500000.rank)
  reducesTo_S500000_S_d0 : S500000.ReducesTo [0] S_

variable [Facts]

def fn_part5 {F : FTy → Type} [FloatOps F] (main_v81 : IVec S_ 1) (main_v83 : IVec S500000 1) (main_c_33 : IVec S_ 1) : IVec S_ 1 :=
  let main_v84 : IVec S_ 1 := (fun x v => Host.reduce IntOp.andi x v reducesTo_S500000_S_d0 h_S_) main_v83 main_c_33
  let main_v85 : IVec S_ 1 := andi main_v81 main_v84
  main_v85

def fn_part4 {F : FTy → Type} [FloatOps F] (main_arg3 : IVec S800000 32) (main_arg5 : IVec S500000 32) (main_arg7 : IVec S500000 32) (main_arg20 : FVec F S128 .f32) (main_v63 : IVec S_ 1) (main_v67 : IVec S_ 1) : IVec S_ 1 :=
  let main_v68 : IVec S_ 1 := andi main_v63 main_v67
  let main_v69 : FVec F S128 .f32 := Host.absf main_arg20
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_c_28 : IVec S_ 32 := constantI S_ 32 0#32
  let main_v74 : IVec S800000 32 := broadcastInDim S800000 ![] bcast_S_S800000 main_c_28
  let main_v75 : IVec S800000 1 := cmpi .sge main_arg3 main_v74
  let main_c_29 : IVec S_ 1 := constantI S_ 1 1#1
  let main_v76 : IVec S_ 1 := (fun x v => Host.reduce IntOp.andi x v reducesTo_S800000_S_d0 h_S_) main_v75 main_c_29
  let main_v77 : IVec S_ 1 := andi main_v73 main_v76
  let main_c_30 : IVec S_ 32 := constantI S_ 32 0#32
  let main_v78 : IVec S500000 32 := broadcastInDim S500000 ![] bcast_S_S500000 main_c_30
  let main_v79 : IVec S500000 1 := cmpi .sge main_arg5 main_v78
  let main_c_31 : IVec S_ 1 := constantI S_ 1 1#1
  let main_v80 : IVec S_ 1 := (fun x v => Host.reduce IntOp.andi x v reducesTo_S500000_S_d0 h_S_) main_v79 main_c_31
  let main_v81 : IVec S_ 1 := andi main_v77 main_v80
  let main_c_32 : IVec S_ 32 := constantI S_ 32 0#32
  let main_v82 : IVec S500000 32 := broadcastInDim S500000 ![] bcast_S_S500000 main_c_32
  let main_v83 : IVec S500000 1 := cmpi .sge main_arg7 main_v82
  let main_c_33 : IVec S_ 1 := constantI S_ 1 1#1
  fn_part5 (F := F) main_v81 main_v83 main_c_33

def fn_part3 {F : FTy → Type} [FloatOps F] (main_arg3 : IVec S800000 32) (main_arg5 : IVec S500000 32) (main_arg7 : IVec S500000 32) (main_arg17 : FVec F S128 .f32) (main_arg18 : FVec F S128 .f32) (main_arg19 : FVec F S128 .f32) (main_arg20 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg5 main_arg7 main_arg20 main_v63 main_v67

def fn_part2 {F : FTy → Type} [FloatOps F] (main_arg3 : IVec S800000 32) (main_arg5 : IVec S500000 32) (main_arg7 : IVec S500000 32) (main_arg13 : FVec F S128x128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg3 main_arg5 main_arg7 main_arg17 main_arg18 main_arg19 main_arg20 main_v48 main_v49 main_v50

def fn_part1 {F : FTy → Type} [FloatOps F] (main_arg3 : IVec S800000 32) (main_arg5 : IVec S500000 32) (main_arg7 : IVec S500000 32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg5 main_arg7 main_arg13 main_arg14 main_arg15 main_arg16 main_arg17 main_arg18 main_arg19 main_arg20 main_v33

def fn {F : FTy → Type} [FloatOps F] (main_arg0 : FVec F S100000x128 .f32) (main_arg1 : FVec F S50000x128 .f32) (main_arg2 : IVec S800000 32) (main_arg3 : IVec S800000 32) (main_arg4 : IVec S500000 32) (main_arg5 : IVec S500000 32) (main_arg6 : IVec S500000 32) (main_arg7 : IVec S500000 32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_arg20 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg5 main_arg7 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S50000x128 : Shape := ⟨2, ![50000, 128]⟩
abbrev S800000 : Shape := ⟨1, ![800000]⟩
abbrev S500000 : Shape := ⟨1, ![500000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S1x128 : Shape := ⟨2, ![1, 128]⟩
abbrev S25x1x128 : Shape := ⟨3, ![25, 1, 128]⟩
abbrev S4000x128 : Shape := ⟨2, ![4000, 128]⟩
abbrev S4000x1 : Shape := ⟨2, ![4000, 1]⟩
abbrev S1x1x128 : Shape := ⟨3, ![1, 1, 128]⟩
abbrev S10x1x128 : Shape := ⟨3, ![10, 1, 128]⟩
abbrev S5000x128 : Shape := ⟨2, ![5000, 128]⟩
abbrev S5000x1 : Shape := ⟨2, ![5000, 1]⟩

abbrev nBuf : Space → Nat
  | .hbm => 206
  | .vmem => 47
  | .smem => 0
  | _ => 0

abbrev hbmTy0_0 (i : Nat) : BufTy := match i % 128 with
  | 0 => ⟨S100000x128, .f32⟩
  | 1 => ⟨S50000x128, .f32⟩
  | 2 => ⟨S800000, .i32⟩
  | 3 => ⟨S800000, .i32⟩
  | 4 => ⟨S500000, .i32⟩
  | 5 => ⟨S500000, .i32⟩
  | 6 => ⟨S500000, .i32⟩
  | 7 => ⟨S500000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S100000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S100000x128, .f32⟩
  | 41 => ⟨S_, .f32⟩
  | 42 => ⟨S100000, .f32⟩
  | 43 => ⟨S_, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S100000, .f32⟩
  | 54 => ⟨S_, .f32⟩
  | 55 => ⟨S100000, .f32⟩
  | 56 => ⟨S100000, .f32⟩
  | 57 => ⟨S_, .f32⟩
  | 58 => ⟨S100000, .f32⟩
  | 59 => ⟨S100000, .f32⟩
  | 60 => ⟨S100000x1, .f32⟩
  | 61 => ⟨S_, .i32⟩
  | 62 => ⟨S500000, .i32⟩
  | 63 => ⟨S500000, .i1⟩
  | 64 => ⟨S_, .i32⟩
  | 65 => ⟨S500000, .i32⟩
  | 66 => ⟨S500000, .i32⟩
  | 67 => ⟨S500000, .i32⟩
  | 68 => ⟨S500000x1, .i32⟩
  | 69 => ⟨S500000x128, .f32⟩
  | 70 => ⟨S_, .f32⟩
  | 71 => ⟨S100000x128, .f32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S100000x128, .f32⟩
  | 81 => ⟨S_, .f32⟩
  | 82 => ⟨S100000, .f32⟩
  | 83 => ⟨S_, .f32⟩
  | 84 => ⟨S500000, .f32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S100000, .f32⟩
  | 94 => ⟨S_, .f32⟩
  | 95 => ⟨S100000, .f32⟩
  | 96 => ⟨S100000, .f32⟩
  | 97 => ⟨S_, .f32⟩
  | 98 => ⟨S100000, .f32⟩
  | 99 => ⟨S100000, .f32⟩
  | 100 => ⟨S100000x1, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S_, .f32⟩
  | 111 => ⟨S50000x128, .f32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S50000x128, .f32⟩
  | 121 => ⟨S_, .f32⟩
  | 122 => ⟨S50000, .f32⟩
  | 123 => ⟨S_, .f32⟩
  | 124 => ⟨S500000, .f32⟩
  | 125 => ⟨S_, .i32⟩
  | 126 => ⟨S500000, .i32⟩
  | 127 => ⟨S500000, .i1⟩
  | _ => ⟨S100000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S50000, .f32⟩
  | 6 => ⟨S_, .f32⟩
  | 7 => ⟨S50000, .f32⟩
  | 8 => ⟨S50000, .f32⟩
  | 9 => ⟨S_, .f32⟩
  | 10 => ⟨S50000, .f32⟩
  | 11 => ⟨S50000, .f32⟩
  | 12 => ⟨S50000x1, .f32⟩
  | 13 => ⟨S128x128, .f32⟩
  | 14 => ⟨S128x128, .f32⟩
  | 15 => ⟨S128x128, .f32⟩
  | 16 => ⟨S128x128, .f32⟩
  | 17 => ⟨S128, .f32⟩
  | 18 => ⟨S1x128, .f32⟩
  | 19 => ⟨S128x128, .f32⟩
  | 20 => ⟨S128x128, .f32⟩
  | 21 => ⟨S1x128, .f32⟩
  | 22 => ⟨S100000x128, .f32⟩
  | 23 => ⟨S25x1x128, .f32⟩
  | 24 => ⟨S25x1x128, .f32⟩
  | 25 => ⟨S50000x128, .f32⟩
  | 26 => ⟨S10x1x128, .f32⟩
  | 27 => ⟨S10x1x128, .f32⟩
  | 28 => ⟨S_, .f32⟩
  | 29 => ⟨S1x128, .f32⟩
  | 30 => ⟨S_, .f32⟩
  | 31 => ⟨S1x128, .f32⟩
  | 32 => ⟨S_, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S_, .f32⟩
  | 53 => ⟨S1x128, .f32⟩
  | 54 => ⟨S_, .f32⟩
  | 55 => ⟨S1x128, .f32⟩
  | 56 => ⟨S_, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S100000x128, .f32⟩
  | 77 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S4000x1, .f32⟩
  | .local _ .vmem, ⟨7, _⟩ => ⟨S4000x1, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S4000x128, .f32⟩
  | .local _ .vmem, ⟨36, _⟩ => ⟨S4000x128, .f32⟩
  | .local _ .vmem, ⟨37, _⟩ => ⟨S1x128, .f32⟩
  | .local _ .vmem, ⟨38, _⟩ => ⟨S1x128, .f32⟩
  | .local _ .vmem, ⟨39, _⟩ => ⟨S4000x128, .f32⟩
  | .local _ .vmem, ⟨40, _⟩ => ⟨S4000x128, .f32⟩
  | .local _ .vmem, ⟨41, _⟩ => ⟨S5000x128, .f32⟩
  | .local _ .vmem, ⟨42, _⟩ => ⟨S5000x128, .f32⟩
  | .local _ .vmem, ⟨43, _⟩ => ⟨S1x128, .f32⟩
  | .local _ .vmem, ⟨44, _⟩ => ⟨S1x128, .f32⟩
  | .local _ .vmem, ⟨45, _⟩ => ⟨S5000x128, .f32⟩
  | .local _ .vmem, ⟨46, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_3 : Ref sig .tc := ⟨.hbm, 41, rfl⟩
abbrev main_v15 : Ref sig .tc := ⟨.hbm, 42, rfl⟩
abbrev main_cst_4 : Ref sig .tc := ⟨.hbm, 43, rfl⟩
abbrev main_v16 : Ref sig .tc := ⟨.hbm, 44, rfl⟩
abbrev main_c_5 : Ref sig .tc := ⟨.hbm, 45, rfl⟩
abbrev main_v17 : Ref sig .tc := ⟨.hbm, 46, rfl⟩
abbrev main_v18 : Ref sig .tc := ⟨.hbm, 47, rfl⟩
abbrev main_c_6 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_7 : Ref sig .tc := ⟨.hbm, 54, rfl⟩
abbrev main_v24 : Ref sig .tc := ⟨.hbm, 55, rfl⟩
abbrev main_v25 : Ref sig .tc := ⟨.hbm, 56, rfl⟩
abbrev main_cst_8 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_9 : Ref sig .tc := ⟨.hbm, 61, rfl⟩
abbrev main_v29 : Ref sig .tc := ⟨.hbm, 62, rfl⟩
abbrev main_v30 : Ref sig .tc := ⟨.hbm, 63, rfl⟩
abbrev main_c_10 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_11 : Ref sig .tc := ⟨.hbm, 70, rfl⟩
abbrev main_v36 : Ref sig .tc := ⟨.hbm, 71, rfl⟩
abbrev main_c_12 : Ref sig .tc := ⟨.hbm, 72, rfl⟩
abbrev main_v37 : Ref sig .tc := ⟨.hbm, 73, rfl⟩
abbrev main_v38 : Ref sig .tc := ⟨.hbm, 74, rfl⟩
abbrev main_c_13 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_14 : Ref sig .tc := ⟨.hbm, 81, rfl⟩
abbrev main_v44 : Ref sig .tc := ⟨.hbm, 82, rfl⟩
abbrev main_cst_15 : Ref sig .tc := ⟨.hbm, 83, rfl⟩
abbrev main_v45 : Ref sig .tc := ⟨.hbm, 84, rfl⟩
abbrev main_c_16 : Ref sig .tc := ⟨.hbm, 85, rfl⟩
abbrev main_v46 : Ref sig .tc := ⟨.hbm, 86, rfl⟩
abbrev main_v47 : Ref sig .tc := ⟨.hbm, 87, rfl⟩
abbrev main_c_17 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_18 : Ref sig .tc := ⟨.hbm, 94, rfl⟩
abbrev main_v53 : Ref sig .tc := ⟨.hbm, 95, rfl⟩
abbrev main_v54 : Ref sig .tc := ⟨.hbm, 96, rfl⟩
abbrev main_cst_19 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_c_20 : Ref sig .tc := ⟨.hbm, 101, rfl⟩
abbrev main_v58 : Ref sig .tc := ⟨.hbm, 102, rfl⟩
abbrev main_v59 : Ref sig .tc := ⟨.hbm, 103, rfl⟩
abbrev main_c_21 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_22 : Ref sig .tc := ⟨.hbm, 110, rfl⟩
abbrev main_v65 : Ref sig .tc := ⟨.hbm, 111, rfl⟩
abbrev main_c_23 : Ref sig .tc := ⟨.hbm, 112, rfl⟩
abbrev main_v66 : Ref sig .tc := ⟨.hbm, 113, rfl⟩
abbrev main_v67 : Ref sig .tc := ⟨.hbm, 114, rfl⟩
abbrev main_c_24 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_25 : Ref sig .tc := ⟨.hbm, 121, rfl⟩
abbrev main_v73 : Ref sig .tc := ⟨.hbm, 122, rfl⟩
abbrev main_cst_26 : Ref sig .tc := ⟨.hbm, 123, rfl⟩
abbrev main_v74 : Ref sig .tc := ⟨.hbm, 124, rfl⟩
abbrev main_c_27 : Ref sig .tc := ⟨.hbm, 125, rfl⟩
abbrev main_v75 : Ref sig .tc := ⟨.hbm, 126, rfl⟩
abbrev main_v76 : Ref sig .tc := ⟨.hbm, 127, rfl⟩
abbrev main_c_28 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_29 : Ref sig .tc := ⟨.hbm, 134, rfl⟩
abbrev main_v82 : Ref sig .tc := ⟨.hbm, 135, rfl⟩
abbrev main_v83 : Ref sig .tc := ⟨.hbm, 136, rfl⟩
abbrev main_cst_30 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96_0 : Ref sig .tc := ⟨.hbm, 150, rfl⟩
abbrev main_v96_1 : Ref sig .tc := ⟨.hbm, 151, rfl⟩
abbrev main_v96_2 : Ref sig .tc := ⟨.hbm, 152, rfl⟩
abbrev main_v97_0 : Ref sig .tc := ⟨.hbm, 153, rfl⟩
abbrev main_v97_1 : Ref sig .tc := ⟨.hbm, 154, rfl⟩
abbrev main_v97_2 : Ref sig .tc := ⟨.hbm, 155, rfl⟩
abbrev main_cst_31 : Ref sig .tc := ⟨.hbm, 156, rfl⟩
abbrev main_v98 : Ref sig .tc := ⟨.hbm, 157, rfl⟩
abbrev main_cst_32 : Ref sig .tc := ⟨.hbm, 158, rfl⟩
abbrev main_v99 : Ref sig .tc := ⟨.hbm, 159, rfl⟩
abbrev main_cst_33 : Ref sig .tc := ⟨.hbm, 160, rfl⟩
abbrev main_v100 : Ref sig .tc := ⟨.hbm, 161, rfl⟩
abbrev main_v101 : Ref sig .tc := ⟨.hbm, 162, rfl⟩
abbrev main_cst_34 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_cst_35 : Ref sig .tc := ⟨.hbm, 168, rfl⟩
abbrev main_v106 : Ref sig .tc := ⟨.hbm, 169, rfl⟩
abbrev main_v107 : Ref sig .tc := ⟨.hbm, 170, rfl⟩
abbrev main_cst_36 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_cst_37 : Ref sig .tc := ⟨.hbm, 180, rfl⟩
abbrev main_v116 : Ref sig .tc := ⟨.hbm, 181, rfl⟩
abbrev main_cst_38 : Ref sig .tc := ⟨.hbm, 182, rfl⟩
abbrev main_v117 : Ref sig .tc := ⟨.hbm, 183, rfl⟩
abbrev main_cst_39 : Ref sig .tc := ⟨.hbm, 184, rfl⟩
abbrev main_v118 : Ref sig .tc := ⟨.hbm, 185, rfl⟩
abbrev main_v119 : Ref sig .tc := ⟨.hbm, 186, rfl⟩
abbrev main_cst_40 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_cst_41 : Ref sig .tc := ⟨.hbm, 192, rfl⟩
abbrev main_v124 : Ref sig .tc := ⟨.hbm, 193, rfl⟩
abbrev main_v125 : Ref sig .tc := ⟨.hbm, 194, rfl⟩
abbrev main_cst_42 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg3_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg3_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem6_1 : DmaSem sig := 30
abbrev cc1_sem7_0 : DmaSem sig := 31
abbrev cc1_sem7_1 : DmaSem sig := 32
abbrev cc1_sem8_0 : DmaSem sig := 33
abbrev cc1_sem8_1 : DmaSem sig := 34
abbrev cc2_sem0_0 : DmaSem sig := 35
abbrev cc2_sem0_1 : DmaSem sig := 36
abbrev cc2_sem1_0 : DmaSem sig := 37
abbrev cc2_sem2_0 : DmaSem sig := 38
abbrev cc2_sem3_0 : DmaSem sig := 39
abbrev cc2_sem3_1 : DmaSem sig := 40
abbrev cc3_sem0_0 : DmaSem sig := 41
abbrev cc3_sem0_1 : DmaSem sig := 42
abbrev cc3_sem1_0 : DmaSem sig := 43
abbrev cc3_sem2_0 : DmaSem sig := 44
abbrev cc3_sem3_0 : DmaSem sig := 45
abbrev cc3_sem3_1 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  reduces_S5000x128_S128 : S5000x128.Reduces [0] S128
  reducesTo_S25x1x128_S1x128_d0 : S25x1x128.ReducesTo [0] S1x128
  h_S_ : 0 < S_.numel
  bcast_S_S1x128 : S_.BroadcastsInDim S1x128 (![] : Fin 0 → Fin S1x128.rank)
  reducesTo_S10x1x128_S1x128_d0 : S10x1x128.ReducesTo [0] S1x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S4000x128_S128x128_S4000x128_1_0_0_1_n_n_wf : DotDims.WF S4000x128 S128x128 S4000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S25x1x128.size a
  hwx0_10 : ∀ i : grid0.Coords, EltTy.bits .f32 = 32 ∨ (Rect.block (s := S25x1x128) S1x1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x128.size a ≤ S25x1x128.size a
  hwx0_11 : ∀ i : grid0.Coords, EltTy.bits .f32 = 32 ∨ (Rect.block (s := S25x1x128) S1x1x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S10x1x128.size a
  hwx1_7 : ∀ i : grid1.Coords, EltTy.bits .f32 = 32 ∨ (Rect.block (s := S10x1x128) S1x1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x128.size a ≤ S10x1x128.size a
  hwx1_8 : ∀ i : grid1.Coords, EltTy.bits .f32 = 32 ∨ (Rect.block (s := S10x1x128) S1x1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S4000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v87) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v88) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v90) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v92) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v96_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v96_1) S1x1x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v96_2) S1x1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v72) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v86) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v93) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v94) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v97_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v97_1) S1x1x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v97_2) S1x1x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v96_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v112) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v115) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v134) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v97_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v130) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v133) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v135) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S800000 : Shape := ⟨1, ![800000]⟩
abbrev S500000 : Shape := ⟨1, ![500000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩

abbrev nBuf : Space → Nat
  | .hbm => 187
  | .vmem => 0
  | .smem => 0
  | _ => 0

abbrev hbmTy0_0 (i : Nat) : BufTy := match i % 128 with
  | 0 => ⟨S100000x128, .f32⟩
  | 1 => ⟨S50000x128, .f32⟩
  | 2 => ⟨S800000, .i32⟩
  | 3 => ⟨S800000, .i32⟩
  | 4 => ⟨S500000, .i32⟩
  | 5 => ⟨S500000, .i32⟩
  | 6 => ⟨S500000, .i32⟩
  | 7 => ⟨S500000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S100000x128, .f32⟩
  | 32 => ⟨S800000x1, .i32⟩
  | 33 => ⟨S100000x128, .f32⟩
  | 34 => ⟨S_, .f32⟩
  | 35 => ⟨S800000, .f32⟩
  | 36 => ⟨S_, .f32⟩
  | 37 => ⟨S100000, .f32⟩
  | 38 => ⟨S800000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S128x128, .f32⟩
  | 47 => ⟨S100000x128, .f32⟩
  | 48 => ⟨S1x128, .f32⟩
  | 49 => ⟨S100000x128, .f32⟩
  | 50 => ⟨S100000x128, .f32⟩
  | 51 => ⟨S128x128, .f32⟩
  | 52 => ⟨S100000x128, .f32⟩
  | 53 => ⟨S100000x128, .f32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x128, .f32⟩
  | 63 => ⟨S_, .f32⟩
  | 64 => ⟨S100000x128, .f32⟩
  | 65 => ⟨S500000x1, .i32⟩
  | 66 => ⟨S100000x128, .f32⟩
  | 67 => ⟨S_, .f32⟩
  | 68 => ⟨S500000, .f32⟩
  | 69 => ⟨S_, .f32⟩
  | 70 => ⟨S100000, .f32⟩
  | 71 => ⟨S500000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S128x128, .f32⟩
  | 80 => ⟨S100000x128, .f32⟩
  | 81 => ⟨S1x128, .f32⟩
  | 82 => ⟨S100000x128, .f32⟩
  | 83 => ⟨S100000x128, .f32⟩
  | 84 => ⟨S128x128, .f32⟩
  | 85 => ⟨S100000x128, .f32⟩
  | 86 => ⟨S100000x128, .f32⟩
  | 87 => ⟨S100000x128, .f32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000x128, .f32⟩
  | 97 => ⟨S_, .f32⟩
  | 98 => ⟨S50000x128, .f32⟩
  | 99 => ⟨S500000x1, .i32⟩
  | 100 => ⟨S50000x128, .f32⟩
  | 101 => ⟨S_, .f32⟩
  | 102 => ⟨S500000, .f32⟩
  | 103 => ⟨S_, .f32⟩
  | 104 => ⟨S50000, .f32⟩
  | 105 => ⟨S500000x1, .i32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S128x128, .f32⟩
  | 114 => ⟨S50000x128, .f32⟩
  | 115 => ⟨S1x128, .f32⟩
  | 116 => ⟨S50000x128, .f32⟩
  | 117 => ⟨S50000x128, .f32⟩
  | 118 => ⟨S128x128, .f32⟩
  | 119 => ⟨S50000x128, .f32⟩
  | 120 => ⟨S50000x128, .f32⟩
  | 121 => ⟨S_, .f32⟩
  | 122 => ⟨S100000x128, .f32⟩
  | 123 => ⟨S100000x128, .f32⟩
  | 124 => ⟨S_, .f32⟩
  | 125 => ⟨S128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S100000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S128, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S50000x128, .f32⟩
  | 28 => ⟨S50000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_4 : Ref sig .tc := ⟨.hbm, 54, rfl⟩
abbrev main_v27 : Ref sig .tc := ⟨.hbm, 55, rfl⟩
abbrev main_v28 : Ref sig .tc := ⟨.hbm, 56, rfl⟩
abbrev main_c_5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_cst_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_10 : Ref sig .tc := ⟨.hbm, 88, rfl⟩
abbrev main_v55 : Ref sig .tc := ⟨.hbm, 89, rfl⟩
abbrev main_v56 : Ref sig .tc := ⟨.hbm, 90, rfl⟩
abbrev main_c_11 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_12 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_13 : Ref sig .tc := ⟨.hbm, 101, rfl⟩
abbrev main_v65 : Ref sig .tc := ⟨.hbm, 102, rfl⟩
abbrev main_cst_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_15 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call0_cst : Ref sig .tc := ⟨.hbm, 121, rfl⟩
abbrev main_call0_v0 : Ref sig .tc := ⟨.hbm, 122, rfl⟩
abbrev main_v82 : Ref sig .tc := ⟨.hbm, 123, rfl⟩
abbrev main_cst_16 : Ref sig .tc := ⟨.hbm, 124, rfl⟩
abbrev main_v83 : Ref sig .tc := ⟨.hbm, 125, rfl⟩
abbrev main_cst_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_18 : Ref sig .tc := ⟨.hbm, 133, rfl⟩
abbrev main_v90 : Ref sig .tc := ⟨.hbm, 134, rfl⟩
abbrev main_cst_19 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_20 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_call1_cst : Ref sig .tc := ⟨.hbm, 154, rfl⟩
abbrev main_call1_v0 : Ref sig .tc := ⟨.hbm, 155, rfl⟩
abbrev main_v108 : Ref sig .tc := ⟨.hbm, 156, rfl⟩
abbrev main_cst_21 : Ref sig .tc := ⟨.hbm, 157, rfl⟩
abbrev main_v109 : Ref sig .tc := ⟨.hbm, 158, rfl⟩
abbrev main_cst_22 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_23 : Ref sig .tc := ⟨.hbm, 166, rfl⟩
abbrev main_v116 : Ref sig .tc := ⟨.hbm, 167, rfl⟩
abbrev main_cst_24 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_25 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  reducesTo_S100000x128_S128_d0 : S100000x128.ReducesTo [0] S128
  h_S_ : 0 < S_.numel
  bcast_S_S128 : S_.BroadcastsInDim S128 (![] : Fin 0 → Fin S128.rank)
  reducesTo_S50000x128_S128_d0 : S50000x128.ReducesTo [0] S128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its two results kept.

  The program is four kernel regions among two stretches of host operations. Its run is followed boundary by boundary:
  the buffers' contents after the first host stretch, after each region (the region's arrays at what its write-backs
  leave, every other buffer as it was), after the second host stretch, and after the last two regions. Every weakly fair
  execution terminates, and in its final memory every buffer that outlives the regions holds the contents of the last
  boundary; in particular the two result buffers do, and the argument buffers hold what they held at launch. The launch,
  the chaining of the segments and the reading of the final state are the frame certificate's own; only the conclusion
  drawn from the final reading is wider here (it keeps the results).
-/
import proofs.«116012_j76166950027377_2_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the launch theorem are found by unifying its conclusion with this one, which takes
-- unfolding plain definitions in a metavariable's type
set_option backward.isDefEq.respectTransparency.types false in
/-- Every weakly fair execution terminates; each result buffer ends at the last boundary's contents and each argument
    buffer as launched. -/
theorem run_results : θ_run defs (onTc (τ := τ) (main (F := F))) ⟨m, fun _ => 0, ρ⟩ (fun r => ∀ c : Dev nD,
      r.2.mem ((c.tc : Thread nD τ).loc main_v134) = W6 m ρ c (Proc.devRef .tc main_v134)
      ∧ r.2.mem ((c.tc : Thread nD τ).loc main_v135) = W6 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v134 (by decide)), h c _ (mem_uc main_v135 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c)⟩)

end Cert.Sage.KernelRun

end
-- ==== Proof.KArgs.lean ====
/-
  Names for the kernel program's twenty-one argument arrays on one core, and for the three float words that the
  normalisations use (the two node counts and the epsilon).
-/
import proofs.«116012_j76166950027377_2_alg».proof.Proof.Gen.KernelIdeal.Frame
import Idealize.ShloMosaic.PureOps.Ideal

noncomputable section

namespace Cert.Sage.KArgs

open Cert.KernelIdeal Idealize.ShloMosaic Idealize.ShloMosaic.TcCoe Idealize.SL.Sem

variable (m : (ℓ : Loc nD τ sig) → Buf (Elt Ideal) ℓ) (c : Dev nD)

/-- The program's arguments on one core. -/
abbrev xP : FVec Ideal S100000x128 .f32 := m ((c : Thread nD τ).loc main_arg0)
abbrev xA : FVec Ideal S50000x128 .f32 := m ((c : Thread nD τ).loc main_arg1)
abbrev cs : IVec S800000 32 := m ((c : Thread nD τ).loc main_arg2)
abbrev cd : IVec S800000 32 := m ((c : Thread nD τ).loc main_arg3)
abbrev ws : IVec S500000 32 := m ((c : Thread nD τ).loc main_arg4)
abbrev wd : IVec S500000 32 := m ((c : Thread nD τ).loc main_arg5)
abbrev bs : IVec S500000 32 := m ((c : Thread nD τ).loc main_arg6)
abbrev bd : IVec S500000 32 := m ((c : Thread nD τ).loc main_arg7)
abbrev WlC : FVec Ideal S128x128 .f32 := m ((c : Thread nD τ).loc main_arg8)
abbrev blC : FVec Ideal S128 .f32 := m ((c : Thread nD τ).loc main_arg9)
abbrev WrC : FVec Ideal S128x128 .f32 := m ((c : Thread nD τ).loc main_arg10)
abbrev WlW : FVec Ideal S128x128 .f32 := m ((c : Thread nD τ).loc main_arg11)
abbrev blW : FVec Ideal S128 .f32 := m ((c : Thread nD τ).loc main_arg12)
abbrev WrW : FVec Ideal S128x128 .f32 := m ((c : Thread nD τ).loc main_arg13)
abbrev WlB : FVec Ideal S128x128 .f32 := m ((c : Thread nD τ).loc main_arg14)
abbrev blB : FVec Ideal S128 .f32 := m ((c : Thread nD τ).loc main_arg15)
abbrev WrB : FVec Ideal S128x128 .f32 := m ((c : Thread nD τ).loc main_arg16)
abbrev gP : FVec Ideal S128 .f32 := m ((c : Thread nD τ).loc main_arg17)
abbrev bP : FVec Ideal S128 .f32 := m ((c : Thread nD τ).loc main_arg18)
abbrev gA : FVec Ideal S128 .f32 := m ((c : Thread nD τ).loc main_arg19)
abbrev bA : FVec Ideal S128 .f32 := m ((c : Thread nD τ).loc main_arg20)

/-- The word of 1e5, the paper nodes' count. -/
abbrev Nf5 : EReal := Ideal.ofBits .f32 0x47C35000#32
/-- The word of 5e4, the author nodes' count. -/
abbrev Nf4 : EReal := Ideal.ofBits .f32 0x47435000#32
/-- The epsilon's word. -/
abbrev eps : EReal := Ideal.ofBits .f32 0x3727C5AC#32

end Cert.Sage.KArgs

end
-- ==== Proof.HostAgg.lean ====
/-
  The host operations before the first kernel region, read as values.

  From the node features and the three edge lists the program prepares, for each relation, the sum of the source rows
  over the edges that end at each destination node (a gather of the source rows followed by an accumulating scatter
  into zeros), the in-degree (the same scatter of ones), and the reciprocal of the in-degree cut off below at 1, as a
  column; it transposes the matrices that multiply the neighbour means, adds and transposes the two matrices that
  multiply a paper node's own features, and adds the two biases of the paper nodes. Every node number passes through
  `select (idx < 0) (idx + count) idx` before it is used. This module names those values (`sumCites` …); the modules that import it show that the
  buffers the first two regions read hold them.
-/
import proofs.«116012_j76166950027377_2_alg».proof.Proof.Gen.KernelIdeal.Frame
import Idealize.ShloMosaic.Lib.StableHlo.Run
import Idealize.ShloMosaic.PureOps.Ideal

set_option maxRecDepth 16384

noncomputable section

namespace Cert.Sage.HostAgg

open Cert.KernelIdeal Cert.KernelIdeal.Gen Idealize.ShloMosaic Idealize.ShloMosaic.TcCoe Idealize.SL.Sem Idealize.ShloMosaic.StableHlo

/-! ## The values -/

/-- Node numbers with the negative ones shifted up by `N`, as a column (800000 edges). -/
def wrapCol8 (N : BitVec 32) (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 N))) idx)

/-- The same for 500000 edges. -/
def wrapCol5 (N : BitVec 32) (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 N))) idx)

/-- Paper cites paper: per destination paper, the sum of the citing papers' rows. -/
def sumCites (x : FVec Ideal S100000x128 .f32) (src dst : IVec S800000 32) : FVec Ideal S100000x128 .f32 :=
  Host.scatterAdd scatter_S100000x128_S800000x1_S800000x128_1_0_0_1 (broadcastInDim S100000x128 ![] bcast_S_S100000x128 (constant (F := Ideal) S_ .f32 0x00000000#32))
    (wrapCol8 100000#32 dst)
    (Host.gather gather_S100000x128_S800000x1_S800000x128_1_0_n_n_0_1_1128 x (wrapCol8 100000#32 src))

/-- Its in-degrees. -/
def cntCites (dst : IVec S800000 32) : FVec Ideal S100000 .f32 :=
  Host.scatterAdd scatter_S100000_S800000x1_S800000_n_0_0_1 (broadcastInDim S100000 ![] bcast_S_S100000 (constant (F := Ideal) S_ .f32 0x00000000#32))
    (wrapCol8 100000#32 dst) (broadcastInDim S800000 ![] bcast_S_S800000 (constant (F := Ideal) S_ .f32 0x3F800000#32))

/-- Author writes paper: per destination paper, the sum of the writing authors' rows. -/
def sumWrites (x : FVec Ideal S50000x128 .f32) (src dst : IVec S500000 32) : FVec Ideal S100000x128 .f32 :=
  Host.scatterAdd scatter_S100000x128_S500000x1_S500000x128_1_0_0_1 (broadcastInDim S100000x128 ![] bcast_S_S100000x128 (constant (F := Ideal) S_ .f32 0x00000000#32))
    (wrapCol5 100000#32 dst)
    (Host.gather gather_S50000x128_S500000x1_S500000x128_1_0_n_n_0_1_1128 x (wrapCol5 50000#32 src))

def cntWrites (dst : IVec S500000 32) : FVec Ideal S100000 .f32 :=
  Host.scatterAdd scatter_S100000_S500000x1_S500000_n_0_0_1 (broadcastInDim S100000 ![] bcast_S_S100000 (constant (F := Ideal) S_ .f32 0x00000000#32))
    (wrapCol5 100000#32 dst) (broadcastInDim S500000 ![] bcast_S_S500000 (constant (F := Ideal) S_ .f32 0x3F800000#32))

/-- Paper written by author: per destination author, the sum of the papers' rows. -/
def sumWb (x : FVec Ideal S100000x128 .f32) (src dst : IVec S500000 32) : FVec Ideal S50000x128 .f32 :=
  Host.scatterAdd scatter_S50000x128_S500000x1_S500000x128_1_0_0_1 (broadcastInDim S50000x128 ![] bcast_S_S50000x128 (constant (F := Ideal) S_ .f32 0x00000000#32))
    (wrapCol5 50000#32 dst)
    (Host.gather gather_S100000x128_S500000x1_S500000x128_1_0_n_n_0_1_1128 x (wrapCol5 100000#32 src))

def cntWb (dst : IVec S500000 32) : FVec Ideal S50000 .f32 :=
  Host.scatterAdd scatter_S50000_S500000x1_S500000_n_0_0_1 (broadcastInDim S50000 ![] bcast_S_S50000 (constant (F := Ideal) S_ .f32 0x00000000#32))
    (wrapCol5 50000#32 dst) (broadcastInDim S500000 ![] bcast_S_S500000 (constant (F := Ideal) S_ .f32 0x3F800000#32))

/-- The reciprocal of an in-degree cut off below at 1, as a column (paper nodes). -/
def invColP (cnt : FVec Ideal S100000 .f32) : FVec Ideal S100000x1 .f32 :=
  broadcastInDim S100000x1 ![0] bcast_S100000_S100000x1_0
    (Host.divf (broadcastInDim S100000 ![] bcast_S_S100000 (constant (F := Ideal) S_ .f32 0x3F800000#32)) (maximumf cnt (broadcastInDim S100000 ![] bcast_S_S100000 (constant (F := Ideal) S_ .f32 0x3F800000#32))))

/-- The same for the author nodes. -/
def invColA (cnt : FVec Ideal S50000 .f32) : FVec Ideal S50000x1 .f32 :=
  broadcastInDim S50000x1 ![0] bcast_S50000_S50000x1_0
    (Host.divf (broadcastInDim S50000 ![] bcast_S_S50000 (constant (F := Ideal) S_ .f32 0x3F800000#32)) (maximumf cnt (broadcastInDim S50000 ![] bcast_S_S50000 (constant (F := Ideal) S_ .f32 0x3F800000#32))))

end Cert.Sage.HostAgg

end
-- ==== Proof.Spec.lean ====
/-
  The mathematics of one heterogeneous mean-aggregation layer followed by ReLU and a batch normalisation over the
  nodes, written over the extended reals as functions of coordinates (a node `n` and a feature `d` of 128).

  A node's update adds, for every relation that ends at its type, the mean of its in-neighbours' features through one
  128 x 128 matrix, its own features through another, and a bias. The neighbours' sum `S n k` and the divisor
  `c n` (the in-degree, at least 1) are taken as given here. Two arrangements of the same update are written down:
  the one that multiplies the sum by the reciprocal of the divisor and adds the two root matrices and the two biases
  before they are used (`actPaper`, `actAuthor`), and the one that divides the sum by the divisor and keeps every
  relation's terms apart (`actPaperSplit`, `actAuthorSplit`).

  The normalisation takes, per feature, the mean `mu` and the variance of the `N` activations of that feature and
  returns `gamma * (r - mu) / sqrt (var + eps) + beta`. Again two arrangements: the variance as the mean of the squares
  minus the square of the mean, cut off below at 0, the whole folded into one scale and one shift per feature
  (`normFolded`); and the variance as the mean of the squared deviations (`normCentred`).
-/
import Idealize.ShloMosaic.PureOps.Ideal

noncomputable section

namespace Cert.Sage

open Idealize.ShloMosaic

variable {N : ℕ}

/-! ## The update and its ReLU -/

/-- Two relations end at this node type. `A`, `B` carry the two neighbour means, `C` the node's own features
    (already the sum of the two root matrices), `b` the summed bias; `ic`, `iw` are the reciprocals of the divisors.
    A matrix is indexed (input feature, output feature). -/
def actPaper (Sc : Fin N → Fin 128 → EReal) (ic : Fin N → EReal) (Sw : Fin N → Fin 128 → EReal) (iw : Fin N → EReal)
    (x : Fin N → Fin 128 → EReal) (A B C : Fin 128 → Fin 128 → EReal) (b : Fin 128 → EReal)
    (n : Fin N) (d : Fin 128) : EReal :=
  max ((((∑ k, (Sc n k * ic n) * A k d) + ∑ k, (Sw n k * iw n) * B k d) + ∑ k, x n k * C k d) + b d) 0

/-- One relation ends at this node type. -/
def actAuthor (S : Fin N → Fin 128 → EReal) (i : Fin N → EReal) (x : Fin N → Fin 128 → EReal)
    (A C : Fin 128 → Fin 128 → EReal) (b : Fin 128 → EReal) (n : Fin N) (d : Fin 128) : EReal :=
  max (((∑ k, (S n k * i n) * A k d) + ∑ k, x n k * C k d) + b d) 0

/-- The same update with each relation's terms kept apart and the sums divided by the divisors `cc`, `cw`. -/
def actPaperSplit (Sc : Fin N → Fin 128 → EReal) (cc : Fin N → EReal) (Sw : Fin N → Fin 128 → EReal) (cw : Fin N → EReal)
    (x : Fin N → Fin 128 → EReal) (A : Fin 128 → Fin 128 → EReal) (bc : Fin 128 → EReal) (Cc : Fin 128 → Fin 128 → EReal)
    (B : Fin 128 → Fin 128 → EReal) (bw : Fin 128 → EReal) (Cw : Fin 128 → Fin 128 → EReal)
    (n : Fin N) (d : Fin 128) : EReal :=
  max ((((∑ k, Ideal.div (Sc n k) (cc n) * A k d) + bc d) + ∑ k, x n k * Cc k d)
     + (((∑ k, Ideal.div (Sw n k) (cw n) * B k d) + bw d) + ∑ k, x n k * Cw k d)) 0

def actAuthorSplit (S : Fin N → Fin 128 → EReal) (c : Fin N → EReal) (x : Fin N → Fin 128 → EReal)
    (A : Fin 128 → Fin 128 → EReal) (b : Fin 128 → EReal) (C : Fin 128 → Fin 128 → EReal)
    (n : Fin N) (d : Fin 128) : EReal :=
  max (((∑ k, Ideal.div (S n k) (c n) * A k d) + b d) + ∑ k, x n k * C k d) 0

/-! ## The normalisation -/

/-- The scale per feature from the feature's sum `sP` and sum of squares `sQ` over the nodes, `Nf` the node count. -/
def scaleOf (Nf eps : EReal) (sP sQ g : Fin 128 → EReal) (d : Fin 128) : EReal :=
  g d * Ideal.rsqrt (max (Ideal.div (sQ d) Nf - Ideal.div (sP d) Nf * Ideal.div (sP d) Nf) 0 + eps)

/-- The shift per feature. -/
def shiftOf (Nf eps : EReal) (sP sQ g be : Fin 128 → EReal) (d : Fin 128) : EReal :=
  be d - Ideal.div (sP d) Nf * scaleOf Nf eps sP sQ g d

/-- The normalisation folded into one multiply and one add per entry. -/
def normFolded (Nf eps : EReal) (r : Fin N → Fin 128 → EReal) (g be : Fin 128 → EReal) (n : Fin N) (d : Fin 128) : EReal :=
  r n d * scaleOf Nf eps (fun d => ∑ n, r n d) (fun d => ∑ n, r n d * r n d) g d
    + shiftOf Nf eps (fun d => ∑ n, r n d) (fun d => ∑ n, r n d * r n d) g be d

/-- The feature's mean. -/
def meanOf (Nf : EReal) (r : Fin N → Fin 128 → EReal) (d : Fin 128) : EReal := Ideal.div (∑ n, r n d) Nf

/-- The normalisation with the variance as the mean of the squared deviations. -/
def normCentred (Nf eps : EReal) (r : Fin N → Fin 128 → EReal) (g be : Fin 128 → EReal) (n : Fin N) (d : Fin 128) : EReal :=
  (g d * (r n d - meanOf Nf r d))
      * Ideal.rsqrt (Ideal.div (∑ n, (r n d - meanOf Nf r d) * (r n d - meanOf Nf r d)) Nf + eps)
    + be d

end Cert.Sage

end
-- ==== Proof.SpecLaws.lean ====
/-
  The two laws that join the two arrangements of the layer (Spec.lean), over the extended reals.

  An extended real is called real here when it is the image of a real number. Sums, products, differences, maxima and
  quotients by a nonzero real of real entries are real, so once the inputs are real every intermediate value of the layer
  is, and the arithmetic below is the arithmetic of the real numbers.

  • The update. Multiplying a sum by the reciprocal `1 / c` of a nonzero divisor is dividing it by `c`, for every
    extended real; a real feature times the sum of two real matrix entries is the sum of the two products; the rest is
    the commutativity and associativity of addition.
  • The normalisation. With `mu` the mean of real activations `r` over `N > 0` nodes, the mean of `(r - mu)^2` is the
    mean of `r^2` minus `mu^2` and is not negative, so cutting it off below at 0 changes nothing; then
    `r * (g * s) + (b - mu * (g * s)) = (g * (r - mu)) * s + b`.
-/
import proofs.«116012_j76166950027377_2_alg».proof.Proof.Spec
import Mathlib.Data.EReal.Operations
import Mathlib.Data.EReal.Inv
import Mathlib.Analysis.SpecialFunctions.Pow.Real
import Mathlib.Tactic

noncomputable section

namespace Cert.Sage

open Idealize.ShloMosaic

/-! ## Real entries -/

/-- The extended real is a real number. -/
def IsReal (x : EReal) : Prop := ∃ r : ℝ, x = (r : EReal)

theorem isReal_iff {x : EReal} : IsReal x ↔ x ≠ ⊤ ∧ x ≠ ⊥ := by
  constructor
  · rintro ⟨r, rfl⟩; exact ⟨EReal.coe_ne_top r, EReal.coe_ne_bot r⟩
  · intro h; lift x to ℝ using h; exact ⟨x, rfl⟩

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩

theorem coe_max (a b : ℝ) : max (a : EReal) (b : EReal) = ((max a b : ℝ) : EReal) :=
  (EReal.coe_strictMono.monotone.map_max).symm

theorem IsReal.max {x y : EReal} (hx : IsReal x) (hy : IsReal y) : IsReal (max x y) := by
  obtain ⟨a, rfl⟩ := hx; obtain ⟨b, rfl⟩ := hy; exact ⟨Max.max a b, coe_max a b⟩

/-- A finite sum of images of reals is the image of the sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A quotient by a nonzero real is the product with its reciprocal. -/
theorem div_coe_coe (a c : ℝ) (hc : c ≠ 0) : Ideal.div (a : EReal) (c : EReal) = ((a * (1 / c) : ℝ) : EReal) := by
  rw [Ideal.div_coe hc, EReal.coe_mul]

theorem IsReal.div {x y : EReal} (hx : IsReal x) (hy : IsReal y) (h0 : y ≠ 0) : IsReal (Ideal.div x y) := by
  obtain ⟨a, rfl⟩ := hx; obtain ⟨b, rfl⟩ := hy
  exact ⟨a * (1 / b), div_coe_coe a b (by exact_mod_cast h0)⟩

/-! ## The update -/

/-- For every extended real `s` and nonzero `c`: `s * (1 / c) = s / c`. -/
theorem mul_one_div (s c : EReal) (hc : c ≠ 0) : s * Ideal.div 1 c = Ideal.div s c := by
  rw [Ideal.div, if_neg hc, Ideal.div, if_neg hc, one_mul]

/-- A real times a sum of two reals. -/
theorem real_mul_add {x a b : EReal} (hx : IsReal x) (ha : IsReal a) (hb : IsReal b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

variable {N : ℕ}

/-- The two arrangements of the two-relation update agree when the node's own features and the two root matrices are
    real and the divisors are not zero. -/
theorem actPaper_eq_split (Sc : Fin N → Fin 128 → EReal) (cc : Fin N → EReal) (Sw : Fin N → Fin 128 → EReal) (cw : Fin N → EReal)
    (x : Fin N → Fin 128 → EReal) (A : Fin 128 → Fin 128 → EReal) (bc : Fin 128 → EReal) (Cc : Fin 128 → Fin 128 → EReal)
    (B : Fin 128 → Fin 128 → EReal) (bw : Fin 128 → EReal) (Cw : Fin 128 → Fin 128 → EReal)
    (hcc : ∀ n, cc n ≠ 0) (hcw : ∀ n, cw n ≠ 0) (hx : ∀ n k, IsReal (x n k)) (hCc : ∀ k d, IsReal (Cc k d))
    (hCw : ∀ k d, IsReal (Cw k d)) (n : Fin N) (d : Fin 128) :
    actPaper Sc (fun n => Ideal.div 1 (cc n)) Sw (fun n => Ideal.div 1 (cw n)) x A B (fun k d => Cc k d + Cw k d)
        (fun d => bc d + bw d) n d
      = actPaperSplit Sc cc Sw cw x A bc Cc B bw Cw n d := by
  unfold actPaper actPaperSplit
  refine congrArg (fun t => max t 0) ?_
  have h1 : ∀ k, (Sc n k * Ideal.div 1 (cc n)) * A k d = Ideal.div (Sc n k) (cc n) * A k d := fun k => by
    rw [mul_one_div _ _ (hcc n)]
  have h2 : ∀ k, (Sw n k * Ideal.div 1 (cw n)) * B k d = Ideal.div (Sw n k) (cw n) * B k d := fun k => by
    rw [mul_one_div _ _ (hcw n)]
  have h3 : ∑ k, x n k * (Cc k d + Cw k d) = (∑ k, x n k * Cc k d) + ∑ k, x n k * Cw k d := by
    rw [← Finset.sum_add_distrib]
    exact Finset.sum_congr rfl fun k _ => real_mul_add (hx n k) (hCc k d) (hCw k d)
  simp only [h1, h2, h3]
  abel

theorem actAuthor_eq_split (S : Fin N → Fin 128 → EReal) (c : Fin N → EReal) (x : Fin N → Fin 128 → EReal)
    (A : Fin 128 → Fin 128 → EReal) (b : Fin 128 → EReal) (C : Fin 128 → Fin 128 → EReal)
    (hc : ∀ n, c n ≠ 0) (n : Fin N) (d : Fin 128) :
    actAuthor S (fun n => Ideal.div 1 (c n)) x A C b n d = actAuthorSplit S c x A b C n d := by
  unfold actAuthor actAuthorSplit
  refine congrArg (fun t => max t 0) ?_
  have h1 : ∀ k, (S n k * Ideal.div 1 (c n)) * A k d = Ideal.div (S n k) (c n) * A k d := fun k => by
    rw [mul_one_div _ _ (hc n)]
  simp only [h1]
  abel

/-- With real inputs and nonzero divisors every activation is real. -/
theorem actPaperSplit_real (Sc : Fin N → Fin 128 → EReal) (cc : Fin N → EReal) (Sw : Fin N → Fin 128 → EReal) (cw : Fin N → EReal)
    (x : Fin N → Fin 128 → EReal) (A : Fin 128 → Fin 128 → EReal) (bc : Fin 128 → EReal) (Cc : Fin 128 → Fin 128 → EReal)
    (B : Fin 128 → Fin 128 → EReal) (bw : Fin 128 → EReal) (Cw : Fin 128 → Fin 128 → EReal)
    (hSc : ∀ n k, IsReal (Sc n k)) (hcc : ∀ n, IsReal (cc n) ∧ cc n ≠ 0) (hSw : ∀ n k, IsReal (Sw n k))
    (hcw : ∀ n, IsReal (cw n) ∧ cw n ≠ 0) (hx : ∀ n k, IsReal (x n k)) (hA : ∀ k d, IsReal (A k d)) (hbc : ∀ d, IsReal (bc d))
    (hCc : ∀ k d, IsReal (Cc k d)) (hB : ∀ k d, IsReal (B k d)) (hbw : ∀ d, IsReal (bw d)) (hCw : ∀ k d, IsReal (Cw k d))
    (n : Fin N) (d : Fin 128) : IsReal (actPaperSplit Sc cc Sw cw x A bc Cc B bw Cw n d) := by
  unfold actPaperSplit
  refine IsReal.max (IsReal.add (IsReal.add (IsReal.add ?_ (hbc d)) ?_) (IsReal.add (IsReal.add ?_ (hbw d)) ?_)) isReal_zero
  · exact isReal_sum _ _ fun k _ => ((hSc n k).div (hcc n).1 (hcc n).2).mul (hA k d)
  · exact isReal_sum _ _ fun k _ => (hx n k).mul (hCc k d)
  · exact isReal_sum _ _ fun k _ => ((hSw n k).div (hcw n).1 (hcw n).2).mul (hB k d)
  · exact isReal_sum _ _ fun k _ => (hx n k).mul (hCw k d)

theorem actAuthorSplit_real (S : Fin N → Fin 128 → EReal) (c : Fin N → EReal) (x : Fin N → Fin 128 → EReal)
    (A : Fin 128 → Fin 128 → EReal) (b : Fin 128 → EReal) (C : Fin 128 → Fin 128 → EReal)
    (hS : ∀ n k, IsReal (S n k)) (hc : ∀ n, IsReal (c n) ∧ c n ≠ 0) (hx : ∀ n k, IsReal (x n k))
    (hA : ∀ k d, IsReal (A k d)) (hb : ∀ d, IsReal (b d)) (hC : ∀ k d, IsReal (C k d))
    (n : Fin N) (d : Fin 128) : IsReal (actAuthorSplit S c x A b C n d) := by
  unfold actAuthorSplit
  refine IsReal.max (IsReal.add (IsReal.add ?_ (hb d)) ?_) isReal_zero
  · exact isReal_sum _ _ fun k _ => ((hS n k).div (hc n).1 (hc n).2).mul (hA k d)
  · exact isReal_sum _ _ fun k _ => (hx n k).mul (hC k d)

/-! ## The normalisation -/

/-- The reciprocal square root of a positive real. -/
theorem rsqrt_pos (v : ℝ) (hv : 0 < v) : Ideal.rsqrt (v : EReal) = (((Real.sqrt v)⁻¹ : ℝ) : EReal) := by
  rw [Ideal.rsqrt_coe, if_neg (not_lt.2 hv.le), if_neg hv.ne']

/-- Over the reals: the mean of the squared deviations from the mean is the mean of the squares minus the squared mean. -/
theorem var_identity (ρ : Fin N → ℝ) (Nr : ℝ) (hN : (N : ℝ) = Nr) (hpos : 0 < Nr) :
    (∑ n, (ρ n - (∑ n, ρ n) * (1 / Nr)) * (ρ n - (∑ n, ρ n) * (1 / Nr))) * (1 / Nr)
      = (∑ n, ρ n * ρ n) * (1 / Nr) - ((∑ n, ρ n) * (1 / Nr)) * ((∑ n, ρ n) * (1 / Nr)) := by
  set S := ∑ n, ρ n with hS
  set μ := S * (1 / Nr) with hμ
  have e : ∑ n, (ρ n - μ) * (ρ n - μ) = (∑ n, ρ n * ρ n) - 2 * μ * S + Nr * (μ * μ) := by
    have : ∀ n, (ρ n - μ) * (ρ n - μ) = ρ n * ρ n - 2 * μ * ρ n + μ * μ := fun n => by ring
    simp only [this, Finset.sum_add_distrib, Finset.sum_sub_distrib, ← Finset.mul_sum, Finset.sum_const, Finset.card_univ,
      Fintype.card_fin, nsmul_eq_mul, hN, ← hS]
    ring
  rw [e, hμ]
  field_simp
  ring

/-- The two arrangements of the normalisation agree on real activations, scales and shifts, for a positive real `eps`
    and the node count `Nf` the image of `N > 0`. -/
theorem normFolded_eq_centred (Nr e : ℝ) (hN : (N : ℝ) = Nr) (hpos : 0 < Nr) (he : 0 < e)
    (r : Fin N → Fin 128 → EReal) (g be : Fin 128 → EReal) (hr : ∀ n d, IsReal (r n d)) (hg : ∀ d, IsReal (g d))
    (hb : ∀ d, IsReal (be d)) (n : Fin N) (d : Fin 128) :
    normFolded (Nr : EReal) (e : EReal) r g be n d = normCentred (Nr : EReal) (e : EReal) r g be n d := by
  choose ρ hρ using hr
  choose γ hγ using hg
  choose β hβ using hb
  have hNr : Nr ≠ 0 := hpos.ne'
  -- the sums, the mean and the two variances as images of reals
  have sP : ∑ n, r n d = ((∑ n, ρ n d : ℝ) : EReal) := by simp only [hρ]; exact coe_sum _ _
  have sQ : ∑ n, r n d * r n d = ((∑ n, ρ n d * ρ n d : ℝ) : EReal) := by
    simp only [hρ, ← EReal.coe_mul]; exact coe_sum _ _
  set S : ℝ := ∑ n, ρ n d with hS
  set Q : ℝ := ∑ n, ρ n d * ρ n d with hQ
  set μ : ℝ := S * (1 / Nr) with hμ
  have mean_eq : meanOf (Nr : EReal) r d = (μ : EReal) := by
    unfold meanOf; rw [sP, div_coe_coe _ _ hNr]
  have dev : ∑ n, (r n d - meanOf (Nr : EReal) r d) * (r n d - meanOf (Nr : EReal) r d)
      = ((∑ n, (ρ n d - μ) * (ρ n d - μ) : ℝ) : EReal) := by
    simp only [mean_eq, hρ, ← EReal.coe_sub, ← EReal.coe_mul]; exact coe_sum _ _
  have hvar : (∑ n, (ρ n d - μ) * (ρ n d - μ)) * (1 / Nr) = Q * (1 / Nr) - μ * μ :=
    var_identity (fun n => ρ n d) Nr hN hpos
  have hvar0 : 0 ≤ Q * (1 / Nr) - μ * μ := by
    rw [← hvar]
    exact mul_nonneg (Finset.sum_nonneg fun n _ => mul_self_nonneg _) (by positivity)
  set v : ℝ := Q * (1 / Nr) - μ * μ with hv
  have hve : 0 < v + e := by linarith
  -- the folded scale
  have scale_eq : scaleOf (Nr : EReal) (e : EReal) (fun d => ∑ n, r n d) (fun d => ∑ n, r n d * r n d) g d
      = ((γ d * (Real.sqrt (v + e))⁻¹ : ℝ) : EReal) := by
    unfold scaleOf
    dsimp only
    rw [sP, sQ, div_coe_coe _ _ hNr, div_coe_coe _ _ hNr, ← EReal.coe_mul, ← EReal.coe_sub, ← EReal.coe_zero, coe_max,
      max_eq_left hvar0, ← EReal.coe_add, rsqrt_pos _ hve, hγ, ← EReal.coe_mul]
  have shift_eq : shiftOf (Nr : EReal) (e : EReal) (fun d => ∑ n, r n d) (fun d => ∑ n, r n d * r n d) g be d
      = ((β d - μ * (γ d * (Real.sqrt (v + e))⁻¹) : ℝ) : EReal) := by
    unfold shiftOf
    rw [scale_eq]
    dsimp only
    rw [sP, div_coe_coe _ _ hNr, hβ, ← EReal.coe_mul, ← EReal.coe_sub]
  unfold normFolded normCentred
  rw [scale_eq, shift_eq, dev, mean_eq, div_coe_coe _ _ hNr, hvar, ← EReal.coe_add, rsqrt_pos _ hve, hρ, hγ, hβ]
  simp only [← EReal.coe_sub, ← EReal.coe_mul, ← EReal.coe_add]
  exact congrArg _ (by ring)

end Cert.Sage

end
-- ==== Proof.AggFacts.lean ====
/-
  Facts about the neighbour aggregation that hold for every shape.

  • Node numbers. A program that accepts negative node numbers shifts them up by the node count before it uses them:
    `select (idx < 0) (idx + N) idx`. On numbers that are not negative the comparison is false at every entry and the
    selection returns `idx` itself.
  • Real entries. A gather reads, at every result index, one entry of its operand, so a gather of real entries is real.
    An accumulating scatter returns, at every index, the operand's entry plus a finite sum of update entries, so it is real
    when both are. An in-degree cut off below at 1 is at least 1: real when the in-degree is, and never zero.
-/
import proofs.«116012_j76166950027377_2_alg».proof.Proof.SpecLaws
import Idealize.ShloMosaic.PureOps
import Idealize.ShloMosaic.PureOps.Ideal
import Idealize.ShloMosaic.Lib.ValueIdx

noncomputable section

namespace Cert.Sage

open Idealize.ShloMosaic Idealize.ShloMosaic.ValueIdx

/-- Shifting the negative entries of a vector of node numbers none of which is negative returns the vector. -/
theorem select_wrap_eq {s : Shape} (idx zero shift : IVec s 32) (hz : ∀ e, zero e = 0#32)
    (h : ∀ e, IntOp.cmpi .slt (idx e) 0#32 = 0#1) :
    select (cmpi .slt idx zero) (addi idx shift) idx = idx := by
  funext e
  rw [select_apply]
  have hc : (cmpi .slt idx zero) e = 0#1 := by
    show IntOp.cmpi .slt (idx e) (zero e) = 0#1
    rw [hz e]; exact h e
  rw [hc, select_zero]

/-- A gather of real entries is real. -/
theorem gather_real {s si t : Shape} {w : Nat} (d : GatherDims s si t) (x : s.Idx → EReal) (idx : IVec si w)
    (hx : ∀ i, IsReal (x i)) (j : t.Idx) : IsReal (Host.gather d x idx j) := hx _

/-- An accumulating scatter of real updates into real entries is real. -/
theorem scatterAdd_real {s si u : Shape} {w : Nat} {φ : FTy} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (isReal_sum _ _ fun j _ => hu j)

/-- A real cut off below at 1 is real and not zero. -/
theorem max_one_real_ne_zero {c : EReal} (hc : IsReal c) : IsReal (max c 1) ∧ max c 1 ≠ 0 :=
  ⟨hc.max isReal_one, (lt_of_lt_of_le zero_lt_one (le_max_right c 1)).ne'⟩

end Cert.Sage

end
-- ==== Proof.Consts.lean ====
/-
  The float constants the two programs spell, as the extended reals their words denote: 0, 1, the node counts
  100000 and 50000 (both exact in the format), and the variance's epsilon, a positive real.
-/
import Idealize.ShloMosaic.PureOps.Ideal

noncomputable section

namespace Cert.Sage.Consts

open Idealize.ShloMosaic

/-- The word of 1.0 denotes 1. -/
theorem ofBits_one : Ideal.ofBits .f32 0x3F800000#32 = 1 := by
  simp [Ideal.ofBits, Ideal.ieee, -EReal.coe_mul]; norm_num

/-- The word of 1e5 denotes the real 100000. -/
theorem ofBits_1e5 : Ideal.ofBits .f32 0x47C35000#32 = ((100000 : ℝ) : EReal) := by
  simp [Ideal.ofBits, Ideal.ieee, -EReal.coe_mul]; norm_num

/-- The word of 5e4 denotes the real 50000. -/
theorem ofBits_5e4 : Ideal.ofBits .f32 0x47435000#32 = ((50000 : ℝ) : EReal) := by
  simp [Ideal.ofBits, Ideal.ieee, -EReal.coe_mul]; norm_num

/-- The epsilon's word denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

end Cert.Sage.Consts

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.HostAggAt.lean ====
/-
  The first host stretch's values at an index, and which of them are real.

  The reciprocal in-degree column reads, at (n, 0), `1 / max (cnt n) 1`; a transposed matrix reads, at (k, d), the matrix
  at (d, k); the bias row reads, at (0, d), the bias (for the paper nodes the sum of the two biases) at d. The neighbour
  sums of real features are real (a gather followed by an accumulating scatter into zeros), an in-degree is real (an
  accumulating scatter of ones into zeros), and cut off below at 1 it is not zero.
-/
import proofs.«116012_j76166950027377_2_alg».proof.Proof.HostAgg
import proofs.«116012_j76166950027377_2_alg».proof.Proof.AggFacts
import proofs.«116012_j76166950027377_2_alg».proof.Proof.Consts
import proofs.«116012_j76166950027377_2_alg».proof.Proof.LibRowCast
import Idealize.ShloMosaic.Lib.ValueLayout
import Idealize.ShloMosaic.PureOps.Ideal.Laws
import Idealize.ShloMosaic.Lib.Pipeline.Value

noncomputable section

namespace Cert.Sage.HostAgg

open Cert.KernelIdeal Cert.KernelIdeal.Facts₀ Cert.KernelIdeal.Facts Idealize.ShloMosaic Idealize.ShloMosaic.ValueIdx

/-- The word of 1.0. -/
abbrev one : EReal := Ideal.ofBits .f32 0x3F800000#32

theorem one_eq : one = 1 := Cert.Sage.Consts.ofBits_one

/-! ## At an index -/

theorem invColP_apply (cnt : FVec Ideal S100000 .f32) (n : Fin 100000) :
    invColP cnt (ix2 n (0 : Fin 1)) = Ideal.div one (max (cnt (ix1 n)) one) := by
  unfold invColP
  rw [broadcastInDim_apply _ _ _ (ix2 n (0 : Fin 1)) (ix1 n) (fun a => match a with | ⟨0, _⟩ => rfl)]
  rfl

theorem invColA_apply (cnt : FVec Ideal S50000 .f32) (n : Fin 50000) :
    invColA cnt (ix2 n (0 : Fin 1)) = Ideal.div one (max (cnt (ix1 n)) one) := by
  unfold invColA
  rw [broadcastInDim_apply _ _ _ (ix2 n (0 : Fin 1)) (ix1 n) (fun a => match a with | ⟨0, _⟩ => rfl)]
  rfl

theorem transpose_apply128 (W : FVec Ideal S128x128 .f32) (k d : Fin 128) :
    transpose S128x128 [1, 0] W transposes_S128x128_S128x128_1_0 (ix2 k d) = W (ix2 d k) :=
  transpose_ix2_apply W transposes_S128x128_S128x128_1_0 k d

theorem biasRow_apply (b : FVec Ideal S128 .f32) (d : Fin 128) :
    shapeCast S1x128 b shapeCasts_S128_S1x128 (ix2 (0 : Fin 1) d) = b (ix1 d) :=
  Cert.RowCast.shapeCast_row_apply b shapeCasts_S128_S1x128 (0 : Fin 1) d

/-! ## Real entries -/

theorem zeros_real {s : Shape} (hb : S_.BroadcastsInDim s (![] : Fin 0 → Fin s.rank)) (i : s.Idx) :
    IsReal (broadcastInDim s ![] hb (constant (F := Ideal) S_ .f32 0x00000000#32) i) := by
  show IsReal (Ideal.ofBits .f32 0x00000000#32)
  rw [Ideal.ofBits_zero_f32]; exact isReal_zero

theorem ones_real {s : Shape} (hb : S_.BroadcastsInDim s (![] : Fin 0 → Fin s.rank)) (i : s.Idx) :
    IsReal (broadcastInDim s ![] hb (constant (F := Ideal) S_ .f32 0x3F800000#32) i) := by
  show IsReal (Ideal.ofBits .f32 0x3F800000#32)
  rw [Cert.Sage.Consts.ofBits_one]; exact isReal_one

theorem sumCites_real (x : FVec Ideal S100000x128 .f32) (src dst : IVec S800000 32) (hx : ∀ i, IsReal (x i)) (i) :
    IsReal (sumCites x src dst i) :=
  scatterAdd_real _ _ _ _ (zeros_real _) (fun j => gather_real _ x _ hx j) i

theorem sumWrites_real (x : FVec Ideal S50000x128 .f32) (src dst : IVec S500000 32) (hx : ∀ i, IsReal (x i)) (i) :
    IsReal (sumWrites x src dst i) :=
  scatterAdd_real _ _ _ _ (zeros_real _) (fun j => gather_real _ x _ hx j) i

theorem sumWb_real (x : FVec Ideal S100000x128 .f32) (src dst : IVec S500000 32) (hx : ∀ i, IsReal (x i)) (i) :
    IsReal (sumWb x src dst i) :=
  scatterAdd_real _ _ _ _ (zeros_real _) (fun j => gather_real _ x _ hx j) i

theorem cntCites_real (dst : IVec S800000 32) (i) : IsReal (cntCites dst i) :=
  scatterAdd_real _ _ _ _ (zeros_real _) (ones_real _) i

theorem cntWrites_real (dst : IVec S500000 32) (i) : IsReal (cntWrites dst i) :=
  scatterAdd_real _ _ _ _ (zeros_real _) (ones_real _) i

theorem cntWb_real (dst : IVec S500000 32) (i) : IsReal (cntWb dst i) :=
  scatterAdd_real _ _ _ _ (zeros_real _) (ones_real _) i

/-- An in-degree cut off below at the word of 1.0 is real and not zero. -/
theorem max_one_ok {c : EReal} (hc : IsReal c) : IsReal (max c one) ∧ max c one ≠ 0 := by
  rw [one_eq]; exact max_one_real_ne_zero hc

end Cert.Sage.HostAgg

end
-- ==== Proof.KernelActs.lean ====
/-
  The two activation arrays of the kernel program as functions of the argument arrays, and their realness.

  `actP` is the paper nodes' array: the two-relation update (cites and writes) in the arrangement that multiplies the
  neighbour sums by reciprocal in-degrees, with the first host stretch's values for the sums, the in-degrees, the
  transposed matrices and the summed bias. `actA` is the author nodes' array (one relation, written-by). With real
  features, matrices and biases every entry of both is real.
-/
import proofs.«116012_j76166950027377_2_alg».proof.Proof.HostAggAt

noncomputable section

namespace Cert.Sage.KernelActs

open Cert.KernelIdeal Cert.KernelIdeal.Facts₀ Cert.KernelIdeal.Facts Idealize.ShloMosaic Idealize.ShloMosaic.ValueIdx Cert.Sage.HostAgg

/-- The paper nodes' activations. -/
def actP (xP : FVec Ideal S100000x128 .f32) (xA : FVec Ideal S50000x128 .f32) (cs cd : IVec S800000 32) (ws wd : IVec S500000 32)
    (WlC : FVec Ideal S128x128 .f32) (blC : FVec Ideal S128 .f32) (WrC WlW : FVec Ideal S128x128 .f32) (blW : FVec Ideal S128 .f32)
    (WrW : FVec Ideal S128x128 .f32) : Fin 100000 → Fin 128 → EReal :=
  actPaper (fun n k => sumCites xP cs cd (ix2 n k)) (fun n => Ideal.div one (max (cntCites cd (ix1 n)) one))
    (fun n k => sumWrites xA ws wd (ix2 n k)) (fun n => Ideal.div one (max (cntWrites wd (ix1 n)) one))
    (fun n k => xP (ix2 n k)) (fun k d => WlC (ix2 d k)) (fun k d => WlW (ix2 d k))
    (fun k d => WrC (ix2 d k) + WrW (ix2 d k)) (fun d => blC (ix1 d) + blW (ix1 d))

/-- The author nodes' activations. -/
def actA (xP : FVec Ideal S100000x128 .f32) (xA : FVec Ideal S50000x128 .f32) (bs bd : IVec S500000 32)
    (WlB : FVec Ideal S128x128 .f32) (blB : FVec Ideal S128 .f32) (WrB : FVec Ideal S128x128 .f32) : Fin 50000 → Fin 128 → EReal :=
  actAuthor (fun n k => sumWb xP bs bd (ix2 n k)) (fun n => Ideal.div one (max (cntWb bd (ix1 n)) one))
    (fun n k => xA (ix2 n k)) (fun k d => WlB (ix2 d k)) (fun k d => WrB (ix2 d k)) (fun d => blB (ix1 d))

/-- The paper nodes' update in the arrangement that divides and keeps the relations apart, over the same values. -/
def actPSplit (xP : FVec Ideal S100000x128 .f32) (xA : FVec Ideal S50000x128 .f32) (cs cd : IVec S800000 32) (ws wd : IVec S500000 32)
    (WlC : FVec Ideal S128x128 .f32) (blC : FVec Ideal S128 .f32) (WrC WlW : FVec Ideal S128x128 .f32) (blW : FVec Ideal S128 .f32)
    (WrW : FVec Ideal S128x128 .f32) : Fin 100000 → Fin 128 → EReal :=
  actPaperSplit (fun n k => sumCites xP cs cd (ix2 n k)) (fun n => max (cntCites cd (ix1 n)) one)
    (fun n k => sumWrites xA ws wd (ix2 n k)) (fun n => max (cntWrites wd (ix1 n)) one)
    (fun n k => xP (ix2 n k)) (fun k d => WlC (ix2 d k)) (fun d => blC (ix1 d)) (fun k d => WrC (ix2 d k))
    (fun k d => WlW (ix2 d k)) (fun d => blW (ix1 d)) (fun k d => WrW (ix2 d k))

def actASplit (xP : FVec Ideal S100000x128 .f32) (xA : FVec Ideal S50000x128 .f32) (bs bd : IVec S500000 32)
    (WlB : FVec Ideal S128x128 .f32) (blB : FVec Ideal S128 .f32) (WrB : FVec Ideal S128x128 .f32) : Fin 50000 → Fin 128 → EReal :=
  actAuthorSplit (fun n k => sumWb xP bs bd (ix2 n k)) (fun n => max (cntWb bd (ix1 n)) one)
    (fun n k => xA (ix2 n k)) (fun k d => WlB (ix2 d k)) (fun d => blB (ix1 d)) (fun k d => WrB (ix2 d k))

section
variable (xP : FVec Ideal S100000x128 .f32) (xA : FVec Ideal S50000x128 .f32) (cs cd : IVec S800000 32) (ws wd bs bd : IVec S500000 32)
  (WlC : FVec Ideal S128x128 .f32) (blC : FVec Ideal S128 .f32) (WrC WlW : FVec Ideal S128x128 .f32) (blW : FVec Ideal S128 .f32)
  (WrW WlB : FVec Ideal S128x128 .f32) (blB : FVec Ideal S128 .f32) (WrB : FVec Ideal S128x128 .f32)

/-- The two arrangements agree when the papers' features and the two root matrices are real. -/
theorem actP_eq_split (hxP : ∀ i, IsReal (xP i)) (hWrC : ∀ i, IsReal (WrC i)) (hWrW : ∀ i, IsReal (WrW i)) (n : Fin 100000) (d : Fin 128) :
    actP xP xA cs cd ws wd WlC blC WrC WlW blW WrW n d = actPSplit xP xA cs cd ws wd WlC blC WrC WlW blW WrW n d := by
  unfold actP actPSplit
  have h := actPaper_eq_split (fun n k => sumCites xP cs cd (ix2 n k)) (fun n => max (cntCites cd (ix1 n)) one)
    (fun n k => sumWrites xA ws wd (ix2 n k)) (fun n => max (cntWrites wd (ix1 n)) one)
    (fun n k => xP (ix2 n k)) (fun k d => WlC (ix2 d k)) (fun d => blC (ix1 d)) (fun k d => WrC (ix2 d k))
    (fun k d => WlW (ix2 d k)) (fun d => blW (ix1 d)) (fun k d => WrW (ix2 d k))
    (fun n => (max_one_ok (cntCites_real cd _)).2) (fun n => (max_one_ok (cntWrites_real wd _)).2)
    (fun n k => hxP _) (fun k d => hWrC _) (fun k d => hWrW _) n d
  rw [← h]
  simp only [one_eq]

theorem actA_eq_split (n : Fin 50000) (d : Fin 128) :
    actA xP xA bs bd WlB blB WrB n d = actASplit xP xA bs bd WlB blB WrB n d := by
  unfold actA actASplit
  have h := actAuthor_eq_split (fun n k => sumWb xP bs bd (ix2 n k)) (fun n => max (cntWb bd (ix1 n)) one)
    (fun n k => xA (ix2 n k)) (fun k d => WlB (ix2 d k)) (fun d => blB (ix1 d)) (fun k d => WrB (ix2 d k))
    (fun n => (max_one_ok (cntWb_real bd _)).2) n d
  rw [← h]
  simp only [one_eq]

/-- With real inputs every paper activation is real. -/
theorem actPSplit_real (hxP : ∀ i, IsReal (xP i)) (hxA : ∀ i, IsReal (xA i)) (hWlC : ∀ i, IsReal (WlC i)) (hblC : ∀ i, IsReal (blC i))
    (hWrC : ∀ i, IsReal (WrC i)) (hWlW : ∀ i, IsReal (WlW i)) (hblW : ∀ i, IsReal (blW i)) (hWrW : ∀ i, IsReal (WrW i))
    (n : Fin 100000) (d : Fin 128) : IsReal (actPSplit xP xA cs cd ws wd WlC blC WrC WlW blW WrW n d) :=
  actPaperSplit_real _ _ _ _ _ _ _ _ _ _ _ (fun n k => sumCites_real xP cs cd hxP _) (fun n => max_one_ok (cntCites_real cd _))
    (fun n k => sumWrites_real xA ws wd hxA _) (fun n => max_one_ok (cntWrites_real wd _)) (fun n k => hxP _) (fun k d => hWlC _)
    (fun d => hblC _) (fun k d => hWrC _) (fun k d => hWlW _) (fun d => hblW _) (fun k d => hWrW _) n d

theorem actASplit_real (hxP : ∀ i, IsReal (xP i)) (hxA : ∀ i, IsReal (xA i)) (hWlB : ∀ i, IsReal (WlB i)) (hblB : ∀ i, IsReal (blB i))
    (hWrB : ∀ i, IsReal (WrB i)) (n : Fin 50000) (d : Fin 128) : IsReal (actASplit xP xA bs bd WlB blB WrB n d) :=
  actAuthorSplit_real _ _ _ _ _ _ (fun n k => sumWb_real xP bs bd hxP _) (fun n => max_one_ok (cntWb_real bd _)) (fun n k => hxA _)
    (fun k d => hWlB _) (fun d => hblB _) (fun k d => hWrB _) n d

end

end Cert.Sage.KernelActs

end
-- ==== Proof.SpecCongr.lean ====
/-
  The update depends on its arguments entry by entry: two lists of arguments that agree at every entry give the same
  activation.
-/
import proofs.«116012_j76166950027377_2_alg».proof.Proof.Spec

noncomputable section

namespace Cert.Sage

variable {N : ℕ}

theorem actPaper_congr {Sc Sc' : Fin N → Fin 128 → EReal} {ic ic' : Fin N → EReal} {Sw Sw' : Fin N → Fin 128 → EReal}
    {iw iw' : Fin N → EReal} {x x' : Fin N → Fin 128 → EReal} {A A' B B' C C' : Fin 128 → Fin 128 → EReal} {b b' : Fin 128 → EReal}
    (hSc : ∀ n k, Sc n k = Sc' n k) (hic : ∀ n, ic n = ic' n) (hSw : ∀ n k, Sw n k = Sw' n k) (hiw : ∀ n, iw n = iw' n)
    (hx : ∀ n k, x n k = x' n k) (hA : ∀ k d, A k d = A' k d) (hB : ∀ k d, B k d = B' k d) (hC : ∀ k d, C k d = C' k d)
    (hb : ∀ d, b d = b' d) (n : Fin N) (d : Fin 128) :
    actPaper Sc ic Sw iw x A B C b n d = actPaper Sc' ic' Sw' iw' x' A' B' C' b' n d := by
  have e1 : Sc = Sc' := funext fun n => funext fun k => hSc n k
  have e2 : ic = ic' := funext hic
  have e3 : Sw = Sw' := funext fun n => funext fun k => hSw n k
  have e4 : iw = iw' := funext hiw
  have e5 : x = x' := funext fun n => funext fun k => hx n k
  have e6 : A = A' := funext fun k => funext fun d => hA k d
  have e7 : B = B' := funext fun k => funext fun d => hB k d
  have e8 : C = C' := funext fun k => funext fun d => hC k d
  have e9 : b = b' := funext hb
  rw [e1, e2, e3, e4, e5, e6, e7, e8, e9]

theorem actAuthor_congr {S S' : Fin N → Fin 128 → EReal} {i i' : Fin N → EReal} {x x' : Fin N → Fin 128 → EReal}
    {A A' C C' : Fin 128 → Fin 128 → EReal} {b b' : Fin 128 → EReal}
    (hS : ∀ n k, S n k = S' n k) (hi : ∀ n, i n = i' n) (hx : ∀ n k, x n k = x' n k) (hA : ∀ k d, A k d = A' k d)
    (hC : ∀ k d, C k d = C' k d) (hb : ∀ d, b d = b' d) (n : Fin N) (d : Fin 128) :
    actAuthor S i x A C b n d = actAuthor S' i' x' A' C' b' n d := by
  have e1 : S = S' := funext fun n => funext fun k => hS n k
  have e2 : i = i' := funext hi
  have e3 : x = x' := funext fun n => funext fun k => hx n k
  have e4 : A = A' := funext fun k => funext fun d => hA k d
  have e5 : C = C' := funext fun k => funext fun d => hC k d
  have e6 : b = b' := funext hb
  rw [e1, e2, e3, e4, e5, e6]

end Cert.Sage

end
-- ==== Proof.HostReadsPaper.lean ====
/-
  After the first host stretch the four aggregation buffers of the paper nodes hold the neighbour sums and the
  reciprocal in-degree columns of the two relations that end at a paper.
-/
import proofs.«116012_j76166950027377_2_alg».proof.Proof.HostAgg

set_option maxRecDepth 16384

noncomputable section

namespace Cert.Sage.HostAgg

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local macro "read_stretch" : tactic =>
  `(tactic| (show StableHlo.after hostOps0 (W0 m ρ c) (Proc.devRef .tc _) = _
             dsimp only [hostOps0]
             after_results_simp
             rfl))

theorem v14_eq : (V1 m ρ c main_v14 : S100000x128.Idx → EReal)
    = sumCites (m ((c : Thread nD τ).loc main_arg0)) (m ((c : Thread nD τ).loc main_arg2)) (m ((c : Thread nD τ).loc main_arg3)) := by
  read_stretch

theorem v28_eq : (V1 m ρ c main_v28 : S100000x1.Idx → EReal) = invColP (cntCites (m ((c : Thread nD τ).loc main_arg3))) := by
  read_stretch

theorem v43_eq : (V1 m ρ c main_v43 : S100000x128.Idx → EReal)
    = sumWrites (m ((c : Thread nD τ).loc main_arg1)) (m ((c : Thread nD τ).loc main_arg4)) (m ((c : Thread nD τ).loc main_arg5)) := by
  read_stretch

theorem v57_eq : (V1 m ρ c main_v57 : S100000x1.Idx → EReal) = invColP (cntWrites (m ((c : Thread nD τ).loc main_arg5))) := by
  read_stretch

end Cert.Sage.HostAgg

end
-- ==== Proof.HostReadsWeights.lean ====
/-
  After the first host stretch the weight buffers hold the transposed matrices (for the paper nodes' own features the
  transposed sum of the two root matrices) and the bias buffers the bias rows (for the paper nodes the sum of two).
-/
import proofs.«116012_j76166950027377_2_alg».proof.Proof.HostAgg

set_option maxRecDepth 16384

noncomputable section

namespace Cert.Sage.HostAgg

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local macro "read_stretch" : tactic =>
  `(tactic| (show StableHlo.after hostOps0 (W0 m ρ c) (Proc.devRef .tc _) = _
             dsimp only [hostOps0]
             after_results_simp
             try rfl))

theorem v87_eq : (V1 m ρ c main_v87 : S128x128.Idx → EReal)
    = transpose S128x128 [1, 0] (m ((c : Thread nD τ).loc main_arg8)) transposes_S128x128_S128x128_1_0 := by
  read_stretch

theorem v88_eq : (V1 m ρ c main_v88 : S128x128.Idx → EReal)
    = transpose S128x128 [1, 0] (m ((c : Thread nD τ).loc main_arg11)) transposes_S128x128_S128x128_1_0 := by
  read_stretch

theorem v90_eq : (V1 m ρ c main_v90 : S128x128.Idx → EReal)
    = transpose S128x128 [1, 0] (addf (F := Ideal) (s := S128x128) (φ := .f32) (m ((c : Thread nD τ).loc main_arg10)) (m ((c : Thread nD τ).loc main_arg13)))
        transposes_S128x128_S128x128_1_0 := by
  read_stretch

theorem v92_eq : (V1 m ρ c main_v92 : S1x128.Idx → EReal)
    = shapeCast S1x128 (addf (F := Ideal) (s := S128) (φ := .f32) (m ((c : Thread nD τ).loc main_arg9)) (m ((c : Thread nD τ).loc main_arg12))) shapeCasts_S128_S1x128 := by
  read_stretch

theorem v93_eq : (V1 m ρ c main_v93 : S128x128.Idx → EReal)
    = transpose S128x128 [1, 0] (m ((c : Thread nD τ).loc main_arg14)) transposes_S128x128_S128x128_1_0 := by
  read_stretch

theorem v94_eq : (V1 m ρ c main_v94 : S128x128.Idx → EReal)
    = transpose S128x128 [1, 0] (m ((c : Thread nD τ).loc main_arg16)) transposes_S128x128_S128x128_1_0 := by
  read_stretch

theorem v95_eq : (V1 m ρ c main_v95 : S1x128.Idx → EReal)
    = shapeCast S1x128 (m ((c : Thread nD τ).loc main_arg15)) shapeCasts_S128_S1x128 := by
  read_stretch

end Cert.Sage.HostAgg

end
-- ==== Proof.HostReadsArgs.lean ====
/-
  The first host stretch writes none of the program's arguments: after it the node features and the normalisations'
  scale and shift vectors are as launched.
-/
import proofs.«116012_j76166950027377_2_alg».proof.Proof.HostAgg

set_option maxRecDepth 16384

noncomputable section

namespace Cert.Sage.HostAgg

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local macro "kept_arg" : tactic =>
  `(tactic| (refine (StableHlo.after_of_forall_not_mem _ _ (List.forall_iff_forall_mem.mp (by
               simp only [hostOps0, List.flatten_cons, List.flatten_nil, List.append_nil, List.cons_append,
                 List.nil_append, List.Forall, StableHlo.nullary_writes, StableHlo.unary_writes, StableHlo.binary_writes,
                 StableHlo.ternary_writes, StableHlo.quaternary_writes, StableHlo.reshape_writes, StableHlo.binaryIndexed_writes,
                 Finset.mem_singleton]
               repeat' apply And.intro
               all_goals exact StableHlo.devRef_ne_of_ne (by decide)))).trans ?_
             rfl))

theorem arg0_eq : (V1 m ρ c main_arg0 : S100000x128.Idx → EReal) = m ((c : Thread nD τ).loc main_arg0) := by
  show StableHlo.after hostOps0 (W0 m ρ c) (Proc.devRef .tc main_arg0) = _
  kept_arg

theorem arg1_eq : (V1 m ρ c main_arg1 : S50000x128.Idx → EReal) = m ((c : Thread nD τ).loc main_arg1) := by
  show StableHlo.after hostOps0 (W0 m ρ c) (Proc.devRef .tc main_arg1) = _
  kept_arg

theorem arg17_eq : (V1 m ρ c main_arg17 : S128.Idx → EReal) = m ((c : Thread nD τ).loc main_arg17) := by
  show StableHlo.after hostOps0 (W0 m ρ c) (Proc.devRef .tc main_arg17) = _
  kept_arg

theorem arg18_eq : (V1 m ρ c main_arg18 : S128.Idx → EReal) = m ((c : Thread nD τ).loc main_arg18) := by
  show StableHlo.after hostOps0 (W0 m ρ c) (Proc.devRef .tc main_arg18) = _
  kept_arg

theorem arg19_eq : (V1 m ρ c main_arg19 : S128.Idx → EReal) = m ((c : Thread nD τ).loc main_arg19) := by
  show StableHlo.after hostOps0 (W0 m ρ c) (Proc.devRef .tc main_arg19) = _
  kept_arg

theorem arg20_eq : (V1 m ρ c main_arg20 : S128.Idx → EReal) = m ((c : Thread nD τ).loc main_arg20) := by
  show StableHlo.after hostOps0 (W0 m ρ c) (Proc.devRef .tc main_arg20) = _
  kept_arg

end Cert.Sage.HostAgg

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibColSum.lean ====
/-
  The sum of a column of a rank-2 array, read at the column.

  A kernel's vector reduction by addition of an [a, b] array along its FIRST axis keeps one value per column. Over
  the extended reals addition is exact, so the value at column j is the plain sum over the column's a entries,
  ∑ k, src (k, j), whatever order the hardware adds them in. The index that a column's result j and a coordinate k
  on the reduced axis name together is (k, j).
-/
import Idealize.ShloMosaic.Lib.ValueIdx
import Idealize.ShloMosaic.Lib.Pipeline.Value
import Idealize.ShloMosaic.PureOps.Ideal.Laws
import Idealize.ShloMosaic.PureOps.Reduce

noncomputable section

namespace Cert.ColSum

open Idealize.ShloMosaic Idealize.ShloMosaic.ValueIdx

/-- Column j of the reduced array with coordinate k put back on the reduced (first) axis is the index (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A kernel's sum of an [a, b] array along its first axis, at the extended reals, read at column j: the sum of the
    column's a entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact congrArg (fun f => Finset.sum (Finset.univ : Finset (Fin a)) f)
    (funext fun k => congrArg src (lift_col h j k))

end Cert.ColSum

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.PaperRegionPayload.lean ====
/-
  One tile of the paper-node update, entry by entry.

  A tile is 4000 consecutive nodes. Its activation block is, at node p of the tile and feature q,
      max (∑ k, (Sc p k · ic p) · A k q  +  ∑ k, (Sw p k · iw p) · B k q  +  ∑ k, x p k · C k q  +  b q) 0,
  the update of Spec.lean (actPaper) over the tile's 4000 rows: each neighbour sum is scaled by its row's
  reciprocal divisor (a column of height 4000 repeated across the 128 features), the three products contract the
  128 input features, the bias row is repeated down the 4000 rows, and the ReLU is the maximum with 0. Changes
  of float format are the identity on the extended reals, and a product accumulated from zero is the plain sum.

  The tile's two reductions are the column sums of that block and of its entrywise square: at feature q the sum
  over the tile's 4000 rows, kept as a [1, 1, 128] array whose only free coordinate is q.
-/
import proofs.«116012_j76166950027377_2_alg».proof.Proof.Gen.KernelIdeal.Skeleton
import proofs.«116012_j76166950027377_2_alg».proof.Proof.Spec
import proofs.«116012_j76166950027377_2_alg».proof.Proof.LibDotRows
import proofs.«116012_j76166950027377_2_alg».proof.Proof.LibColSum
import proofs.«116012_j76166950027377_2_alg».proof.Proof.LibRowBroadcast
import Idealize.ShloMosaic.Lib.Pipeline.Value
import Idealize.ShloMosaic.Lib.ValueIdx
import Idealize.ShloMosaic.PureOps.Ideal.Laws

noncomputable section

namespace Cert.Sage.PaperRegion

open Idealize.ShloMosaic Idealize.ShloMosaic.ValueIdx Cert.KernelIdeal Cert.KernelIdeal.Gen Cert.Hand

/-- A column [a, 1] repeated along the second axis to [a, b] reads, at (r, j), the column's entry r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- A [4000, 128] by [128, 128] product accumulated from zero, at (p, q): the sum over the 128 contracted
    features of left (p, k) times right (k, q). -/
theorem matmul_rows (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  dot_rows dot_S4000x128_S128x128_S4000x128_1_0_0_1_n_n S4000x128 S128x128 128

/-- The tile's activation block at (p, q) is the update of the tile's own rows. -/
theorem pay3_apply (v0 : Vec Ideal S4000x128 .f32) (v2 : Vec Ideal S4000x1 .f32) (v6 : Vec Ideal S4000x128 .f32)
    (v8 : Vec Ideal S4000x1 .f32) (v14 : Vec Ideal S4000x128 .f32) (v16 v19 v22 : Vec Ideal S128x128 .f32)
    (v30 : Vec Ideal S1x128 .f32) (p : Fin 4000) (q : Fin 128) :
    Gen.k0_pay3 (F := Ideal) v0 v2 v6 v8 v14 v16 v19 v22 v30 (ix2 p q)
      = Cert.Sage.actPaper (N := 4000) (fun n k => v0 (ix2 n k)) (fun n => v2 (ix2 n (0 : Fin 1)))
          (fun n k => v6 (ix2 n k)) (fun n => v8 (ix2 n (0 : Fin 1))) (fun n k => v14 (ix2 n k))
          (fun k d => v16 (ix2 k d)) (fun k d => v19 (ix2 k d)) (fun k d => v22 (ix2 k d))
          (fun d => v30 (ix2 (0 : Fin 1) d)) p q := by
  unfold Gen.k0_pay3 Cert.Sage.actPaper
  dsimp only
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (Cert.RowBroadcast.broadcastTo_1b_ab_apply _ _ p q)
  refine (addf_apply _ _ (ix2 p q)).trans ?_
  refine congrArg₂ (· + ·) ?_ ((matmul_rows _ _ p q).trans rfl)
  refine (addf_apply _ _ (ix2 p q)).trans ?_
  refine congrArg₂ (· + ·) ?_ ?_
  · refine (matmul_rows _ _ p q).trans (Finset.sum_congr rfl fun k _ => ?_)
    exact congrArg (· * v16 (ix2 k q)) (congrArg (v0 (ix2 p k) * ·) (broadcastTo_a1_ab_apply _ _ p k))
  · refine (matmul_rows _ _ p q).trans (Finset.sum_congr rfl fun k _ => ?_)
    exact congrArg (· * v19 (ix2 k q)) (congrArg (v6 (ix2 p k) * ·) (broadcastTo_a1_ab_apply _ _ p k))

/-- The tile's column sums at feature q: the sum of the block's column q over the tile's 4000 rows. -/
theorem pay1_apply (v35 : FVec Ideal S4000x128 .f32) (q : Fin 128) :
    Gen.k0_pay1 (F := Ideal) v35 (ix3 (0 : Fin 1) (0 : Fin 1) q) = ∑ r : Fin 4000, v35 (ix2 r q) := by
  unfold Gen.k0_pay1
  dsimp only
  refine (shapeCast_apply _ shapeCasts_S1x128_S1x1x128 (ix3 (0 : Fin 1) (0 : Fin 1) q) (ix2 (0 : Fin 1) q) ?_).trans ?_
  · rw [Shape.rowMajor_val_two, Shape.rowMajor_val_three]; rfl
  refine (shapeCast_apply _ shapeCasts_S128_S1x128 (ix2 (0 : Fin 1) q) (ix1 q) ?_).trans ?_
  · rw [Shape.rowMajor_val_one, Shape.rowMajor_val_two]; exact (Nat.zero_add _).symm.trans (congrArg (· + q.val) (Nat.zero_mul _).symm)
  exact Cert.ColSum.multiReduction_add_col v35 _ _ _ _ q

/-- The tile's column sums of squares at feature q. -/
theorem pay2_apply (v35 : FVec Ideal S4000x128 .f32) (q : Fin 128) :
    Gen.k0_pay2 (F := Ideal) v35 (ix3 (0 : Fin 1) (0 : Fin 1) q) = ∑ r : Fin 4000, v35 (ix2 r q) * v35 (ix2 r q) := by
  unfold Gen.k0_pay2
  dsimp only
  refine (shapeCast_apply _ shapeCasts_S1x128_S1x1x128 (ix3 (0 : Fin 1) (0 : Fin 1) q) (ix2 (0 : Fin 1) q) ?_).trans ?_
  · rw [Shape.rowMajor_val_two, Shape.rowMajor_val_three]; rfl
  refine (shapeCast_apply _ shapeCasts_S128_S1x128 (ix2 (0 : Fin 1) q) (ix1 q) ?_).trans ?_
  · rw [Shape.rowMajor_val_one, Shape.rowMajor_val_two]; exact (Nat.zero_add _).symm.trans (congrArg (· + q.val) (Nat.zero_mul _).symm)
  exact Cert.ColSum.multiReduction_add_col (mulf v35 v35) _ _ _ _ q

end Cert.Sage.PaperRegion

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.PaperRegionBlocks.lean ====
/-
  The paper-node region's operands, tile by tile.

  The region walks 25 tiles of 4000 consecutive nodes. At tile t it reads rows 4000 t … 4000 t + 3999 of the two
  neighbour sums, of their reciprocal divisors and of the node features, and the three 128 x 128 matrices and the
  bias row whole. So node n = 4000 t + p is row p of tile t (tile), a block read at row p is the array read at
  node n (blk0 … blk4), and the matrices and the bias are read where they stand (blk5 … blk8).

  Since the update of node n uses row n alone of every row-indexed operand, the update of a tile's own rows at
  row p is the update of the whole arrays at node 4000 t + p (act_tile), and that is what the tile's activation
  block holds at row p (blkAct_apply).
-/
import proofs.«116012_j76166950027377_2_alg».proof.Proof.Gen.KernelIdeal.Frame
import proofs.«116012_j76166950027377_2_alg».proof.Proof.PaperRegionPayload
import proofs.«116012_j76166950027377_2_alg».proof.Proof.LibSumSplit
import Idealize.ShloMosaic.Lib.Pipeline.Value
import Idealize.ShloMosaic.Lib.ValueIdx

noncomputable section

namespace Cert.Sage.PaperRegion

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## The nine operands as the region finds them, as functions of an index -/

/-- The neighbour sums of the first relation. -/
abbrev a0 : S100000x128.Idx → EReal := V c (Pipeline.arrRef spec0 0)
/-- The reciprocal divisors of the first relation, one per node. -/
abbrev a1 : S100000x1.Idx → EReal := V c (Pipeline.arrRef spec0 1)
/-- The neighbour sums of the second relation. -/
abbrev a2 : S100000x128.Idx → EReal := V c (Pipeline.arrRef spec0 2)
/-- The reciprocal divisors of the second relation. -/
abbrev a3 : S100000x1.Idx → EReal := V c (Pipeline.arrRef spec0 3)
/-- The nodes' own features. -/
abbrev a4 : S100000x128.Idx → EReal := V c (Pipeline.arrRef spec0 4)
/-- The first relation's matrix. -/
abbrev a5 : S128x128.Idx → EReal := V c (Pipeline.arrRef spec0 5)
/-- The second relation's matrix. -/
abbrev a6 : S128x128.Idx → EReal := V c (Pipeline.arrRef spec0 6)
/-- The root matrix. -/
abbrev a7 : S128x128.Idx → EReal := V c (Pipeline.arrRef spec0 7)
/-- The bias row. -/
abbrev a8 : S1x128.Idx → EReal := V c (Pipeline.arrRef spec0 8)

/-- The update of the whole arrays at node n and feature d. -/
abbrev act : Fin 100000 → Fin 128 → EReal :=
  Cert.Sage.actPaper (fun n k => a0 V c (ix2 n k)) (fun n => a1 V c (ix2 n (0 : Fin 1))) (fun n k => a2 V c (ix2 n k))
    (fun n => a3 V c (ix2 n (0 : Fin 1))) (fun n k => a4 V c (ix2 n k)) (fun k d => a5 V c (ix2 k d))
    (fun k d => a6 V c (ix2 k d)) (fun k d => a7 V c (ix2 k d)) (fun d => a8 V c (ix2 (0 : Fin 1) d))

/-- Row r of tile t, as a node. -/
abbrev tile (t : Fin cfg0.N) (r : Fin 4000) : Fin 100000 :=
  Cert.PointDist.tileIdx (by norm_num : 25 * 4000 = 100000) (Fin.cast Gen.N_0 t) r

/-- Tile t's sum over its 4000 rows of the update at feature d. -/
abbrev tileSum (t : Fin 25) (d : Fin 128) : EReal :=
  ∑ r : Fin 4000, act V c (Cert.PointDist.tileIdx (by norm_num : 25 * 4000 = 100000) t r) d

/-- Tile t's sum over its 4000 rows of the squared update at feature d. -/
abbrev tileSumSq (t : Fin 25) (d : Fin 128) : EReal :=
  ∑ r : Fin 4000, act V c (Cert.PointDist.tileIdx (by norm_num : 25 * 4000 = 100000) t r) d
    * act V c (Cert.PointDist.tileIdx (by norm_num : 25 * 4000 = 100000) t r) d

/-! ## Which block each window holds at tile t (decided over the 25 tiles) -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)

/-! ## A block read at a row is the array read at the tile's node -/

theorem blk0 (t : Fin cfg0.N) (r : Fin 4000) (k : Fin 128) :
    (Gen.iblk0 V c 0 t : Vec Ideal S4000x128 .f32) (ix2 r k) = a0 V c (ix2 (tile t r) k) := by
  obtain ⟨e0, e1⟩ := idx0 t
  unfold Gen.iblk0
  show a0 V c (((cfg0.win 0).blk t).view.emb (ix2 r k)) = _
  refine congrArg (a0 V c) (funext fun a => Fin.ext ?_)
  match a with
  | ⟨0, _⟩ => show win0_0.index t (0 : Fin 2) * 4000 + 1 * r.val = t.val * 4000 + r.val; rw [e0]; omega
  | ⟨1, _⟩ => show win0_0.index t (1 : Fin 2) * 128 + 1 * k.val = k.val; rw [e1]; omega

theorem blk1 (t : Fin cfg0.N) (r : Fin 4000) :
    (Gen.iblk0 V c 1 t : Vec Ideal S4000x1 .f32) (ix2 r (0 : Fin 1)) = a1 V c (ix2 (tile t r) (0 : Fin 1)) := by
  obtain ⟨e0, e1⟩ := idx1 t
  unfold Gen.iblk0
  show a1 V c (((cfg0.win 1).blk t).view.emb (ix2 r (0 : Fin 1))) = _
  refine congrArg (a1 V c) (funext fun a => Fin.ext ?_)
  match a with
  | ⟨0, _⟩ => show win0_1.index t (0 : Fin 2) * 4000 + 1 * r.val = t.val * 4000 + r.val; rw [e0]; omega
  | ⟨1, _⟩ => show win0_1.index t (1 : Fin 2) * 1 + 1 * 0 = 0; rw [e1]

theorem blk2 (t : Fin cfg0.N) (r : Fin 4000) (k : Fin 128) :
    (Gen.iblk0 V c 2 t : Vec Ideal S4000x128 .f32) (ix2 r k) = a2 V c (ix2 (tile t r) k) := by
  obtain ⟨e0, e1⟩ := idx2 t
  unfold Gen.iblk0
  show a2 V c (((cfg0.win 2).blk t).view.emb (ix2 r k)) = _
  refine congrArg (a2 V c) (funext fun a => Fin.ext ?_)
  match a with
  | ⟨0, _⟩ => show win0_2.index t (0 : Fin 2) * 4000 + 1 * r.val = t.val * 4000 + r.val; rw [e0]; omega
  | ⟨1, _⟩ => show win0_2.index t (1 : Fin 2) * 128 + 1 * k.val = k.val; rw [e1]; omega

theorem blk3 (t : Fin cfg0.N) (r : Fin 4000) :
    (Gen.iblk0 V c 3 t : Vec Ideal S4000x1 .f32) (ix2 r (0 : Fin 1)) = a3 V c (ix2 (tile t r) (0 : Fin 1)) := by
  obtain ⟨e0, e1⟩ := idx3 t
  unfold Gen.iblk0
  show a3 V c (((cfg0.win 3).blk t).view.emb (ix2 r (0 : Fin 1))) = _
  refine congrArg (a3 V c) (funext fun a => Fin.ext ?_)
  match a with
  | ⟨0, _⟩ => show win0_3.index t (0 : Fin 2) * 4000 + 1 * r.val = t.val * 4000 + r.val; rw [e0]; omega
  | ⟨1, _⟩ => show win0_3.index t (1 : Fin 2) * 1 + 1 * 0 = 0; rw [e1]

theorem blk4 (t : Fin cfg0.N) (r : Fin 4000) (k : Fin 128) :
    (Gen.iblk0 V c 4 t : Vec Ideal S4000x128 .f32) (ix2 r k) = a4 V c (ix2 (tile t r) k) := by
  obtain ⟨e0, e1⟩ := idx4 t
  unfold Gen.iblk0
  show a4 V c (((cfg0.win 4).blk t).view.emb (ix2 r k)) = _
  refine congrArg (a4 V c) (funext fun a => Fin.ext ?_)
  match a with
  | ⟨0, _⟩ => show win0_4.index t (0 : Fin 2) * 4000 + 1 * r.val = t.val * 4000 + r.val; rw [e0]; omega
  | ⟨1, _⟩ => show win0_4.index t (1 : Fin 2) * 128 + 1 * k.val = k.val; rw [e1]; omega

theorem blk5 (t : Fin cfg0.N) (k d : Fin 128) :
    (Gen.iblk0 V c 5 t : Vec Ideal S128x128 .f32) (ix2 k d) = a5 V c (ix2 k d) := by
  obtain ⟨e0, e1⟩ := idx5 t
  unfold Gen.iblk0
  show a5 V c (((cfg0.win 5).blk t).view.emb (ix2 k d)) = _
  refine congrArg (a5 V c) (funext fun a => Fin.ext ?_)
  match a with
  | ⟨0, _⟩ => show win0_5.index t (0 : Fin 2) * 128 + 1 * k.val = k.val; rw [e0]; omega
  | ⟨1, _⟩ => show win0_5.index t (1 : Fin 2) * 128 + 1 * d.val = d.val; rw [e1]; omega

theorem blk6 (t : Fin cfg0.N) (k d : Fin 128) :
    (Gen.iblk0 V c 6 t : Vec Ideal S128x128 .f32) (ix2 k d) = a6 V c (ix2 k d) := by
  obtain ⟨e0, e1⟩ := idx6 t
  unfold Gen.iblk0
  show a6 V c (((cfg0.win 6).blk t).view.emb (ix2 k d)) = _
  refine congrArg (a6 V c) (funext fun a => Fin.ext ?_)
  match a with
  | ⟨0, _⟩ => show win0_6.index t (0 : Fin 2) * 128 + 1 * k.val = k.val; rw [e0]; omega
  | ⟨1, _⟩ => show win0_6.index t (1 : Fin 2) * 128 + 1 * d.val = d.val; rw [e1]; omega

theorem blk7 (t : Fin cfg0.N) (k d : Fin 128) :
    (Gen.iblk0 V c 7 t : Vec Ideal S128x128 .f32) (ix2 k d) = a7 V c (ix2 k d) := by
  obtain ⟨e0, e1⟩ := idx7 t
  unfold Gen.iblk0
  show a7 V c (((cfg0.win 7).blk t).view.emb (ix2 k d)) = _
  refine congrArg (a7 V c) (funext fun a => Fin.ext ?_)
  match a with
  | ⟨0, _⟩ => show win0_7.index t (0 : Fin 2) * 128 + 1 * k.val = k.val; rw [e0]; omega
  | ⟨1, _⟩ => show win0_7.index t (1 : Fin 2) * 128 + 1 * d.val = d.val; rw [e1]; omega

theorem blk8 (t : Fin cfg0.N) (d : Fin 128) :
    (Gen.iblk0 V c 8 t : Vec Ideal S1x128 .f32) (ix2 (0 : Fin 1) d) = a8 V c (ix2 (0 : Fin 1) d) := by
  obtain ⟨e0, e1⟩ := idx8 t
  unfold Gen.iblk0
  show a8 V c (((cfg0.win 8).blk t).view.emb (ix2 (0 : Fin 1) d)) = _
  refine congrArg (a8 V c) (funext fun a => Fin.ext ?_)
  match a with
  | ⟨0, _⟩ => show win0_8.index t (0 : Fin 2) * 1 + 1 * 0 = 0; rw [e0]
  | ⟨1, _⟩ => show win0_8.index t (1 : Fin 2) * 128 + 1 * d.val = d.val; rw [e1]; omega

/-! ## The update of a tile's rows is the update of the arrays at the tile's nodes -/

/-- Tile t's activation block. -/
abbrev blkAct (t : Fin cfg0.N) : FVec Ideal S4000x128 .f32 :=
  Gen.k0_pay3 (F := Ideal) (Gen.iblk0 V c 0 t) (Gen.iblk0 V c 1 t) (Gen.iblk0 V c 2 t) (Gen.iblk0 V c 3 t) (Gen.iblk0 V c 4 t)
    (Gen.iblk0 V c 5 t) (Gen.iblk0 V c 6 t) (Gen.iblk0 V c 7 t) (Gen.iblk0 V c 8 t)

/-- Row n alone of each row-indexed operand enters the update of node n, so the update of tile t's own rows at
    row r is the update of the arrays at node 4000 t + r. -/
theorem act_tile (t : Fin cfg0.N) (r : Fin 4000) (q : Fin 128) :
    Cert.Sage.actPaper (N := 4000)
        (fun n k => (Gen.iblk0 V c 0 t : Vec Ideal S4000x128 .f32) (ix2 n k))
        (fun n => (Gen.iblk0 V c 1 t : Vec Ideal S4000x1 .f32) (ix2 n (0 : Fin 1)))
        (fun n k => (Gen.iblk0 V c 2 t : Vec Ideal S4000x128 .f32) (ix2 n k))
        (fun n => (Gen.iblk0 V c 3 t : Vec Ideal S4000x1 .f32) (ix2 n (0 : Fin 1)))
        (fun n k => (Gen.iblk0 V c 4 t : Vec Ideal S4000x128 .f32) (ix2 n k))
        (fun k d => (Gen.iblk0 V c 5 t : Vec Ideal S128x128 .f32) (ix2 k d))
        (fun k d => (Gen.iblk0 V c 6 t : Vec Ideal S128x128 .f32) (ix2 k d))
        (fun k d => (Gen.iblk0 V c 7 t : Vec Ideal S128x128 .f32) (ix2 k d))
        (fun d => (Gen.iblk0 V c 8 t : Vec Ideal S1x128 .f32) (ix2 (0 : Fin 1) d)) r q
      = act V c (tile t r) q := by
  unfold Cert.Sage.actPaper
  refine congrArg₂ max (congrArg₂ (· + ·) (congrArg₂ (· + ·) (congrArg₂ (· + ·) ?_ ?_) ?_) (blk8 V c t q)) rfl
  · exact Finset.sum_congr rfl fun k _ =>
      congrArg₂ (· * ·) (congrArg₂ (· * ·) (blk0 V c t r k) (blk1 V c t r)) (blk5 V c t k q)
  · exact Finset.sum_congr rfl fun k _ =>
      congrArg₂ (· * ·) (congrArg₂ (· * ·) (blk2 V c t r k) (blk3 V c t r)) (blk6 V c t k q)
  · exact Finset.sum_congr rfl fun k _ => congrArg₂ (· * ·) (blk4 V c t r k) (blk7 V c t k q)

/-- Tile t's activation block at row p is the update at node 4000 t + p. -/
theorem blkAct_apply (t : Fin cfg0.N) (p : Fin 4000) (q : Fin 128) : blkAct V c t (ix2 p q) = act V c (tile t p) q :=
  (pay3_apply (Gen.iblk0 V c 0 t) (Gen.iblk0 V c 1 t) (Gen.iblk0 V c 2 t) (Gen.iblk0 V c 3 t) (Gen.iblk0 V c 4 t)
    (Gen.iblk0 V c 5 t) (Gen.iblk0 V c 6 t) (Gen.iblk0 V c 7 t) (Gen.iblk0 V c 8 t) p q).trans (act_tile V c t p q)

end Cert.Sage.PaperRegion

end
-- ==== Proof.PaperRegion.lean ====
/-
  The paper-node region as values.

  Tile t writes back three things: rows 4000 t … 4000 t + 3999 of the activations, and entry t of the two
  per-tile reductions. The 25 activation blocks are disjoint and fill the 100000 rows, so the activations end as
  the update at every node (act_eq); tile t alone writes entry t of each reduction, the sum over its 4000 rows of
  the activations (sum_eq) and of their squares (sumsq_eq). A node n lies in the block of tile n / 4000.
-/
import proofs.«116012_j76166950027377_2_alg».proof.Proof.PaperRegionBlocks

noncomputable section

namespace Cert.Sage.PaperRegion

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## What each tile writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- The activations as one function of the index. -/
abbrev G9 : S100000x128.Idx → EReal := fun i => act V c (i 0) (i 1)
/-- The per-tile sums as one function of the index. -/
abbrev G10 : S25x1x128.Idx → EReal := fun i => tileSum V c (i 0) (i 2)
/-- The per-tile sums of squares as one function of the index. -/
abbrev G11 : S25x1x128.Idx → EReal := fun i => tileSumSq V c (i 0) (i 2)

/-- Tile t writes rows 4000 t … 4000 t + 3999 of the activations. -/
theorem flushed9_eq (t : Fin cfg0.N) :
    (Gen.dat0 V c).flushed 9 t = ((cfg0.win 9).blk t).view.read (Elt Ideal) (G9 V c) := by
  show (cfg0.win 9).cut (grid0.coords t) ((Gen.dat0 V c).after 9 t) = _
  rw [Gen.after0_9]
  unfold Gen.out0_9
  rw [View.canon_unit_zero hz2]
  simp only [View.ld_unit_zero (S := S4000x128) hz2, View.ld_unit_zero (S := S4000x1) hz2,
    View.ld_unit_zero (S := S128x128) hz2, View.ld_unit_zero (S := S1x128) hz2]
  funext j
  obtain ⟨p, q, rfl⟩ : ∃ (p : Fin 4000) (q : Fin 128), j = ix2 p q := ⟨j 0, j 1, eq_ix2 j⟩
  show blkAct V c t (ix2 p q) = G9 V c (((cfg0.win 9).blk t).view.emb (ix2 p q))
  refine (blkAct_apply V c t p q).trans ?_
  obtain ⟨e0, e1⟩ := idx9 t
  refine congrArg₂ (act V c) (Fin.ext ?_) (Fin.ext ?_)
  · show t.val * 4000 + p.val = win0_9.index t (0 : Fin 2) * 4000 + 1 * p.val; rw [e0]; omega
  · show q.val = win0_9.index t (1 : Fin 2) * 128 + 1 * q.val; rw [e1]; omega

/-- Tile t writes entry t of the per-tile sums. -/
theorem flushed10_eq (t : Fin cfg0.N) :
    (Gen.dat0 V c).flushed 10 t = ((cfg0.win 10).blk t).view.read (Elt Ideal) (G10 V c) := by
  show (cfg0.win 10).cut (grid0.coords t) ((Gen.dat0 V c).after 10 t) = _
  rw [Gen.after0_10]
  unfold Gen.out0_10
  rw [View.canon_unit_zero hz3]
  simp only [View.ld_unit_zero (S := S4000x128) hz2, View.ld_unit_zero (S := S4000x1) hz2,
    View.ld_unit_zero (S := S128x128) hz2, View.ld_unit_zero (S := S1x128) hz2]
  funext j
  obtain ⟨u, w, q, rfl⟩ : ∃ (u w : Fin 1) (q : Fin 128), j = ix3 u w q := ⟨j 0, j 1, j 2, eq_ix3 j⟩
  obtain rfl : u = 0 := Subsingleton.elim _ _
  obtain rfl : w = 0 := Subsingleton.elim _ _
  show Gen.k0_pay1 (F := Ideal) (blkAct V c t) (ix3 (0 : Fin 1) (0 : Fin 1) q)
      = G10 V c (((cfg0.win 10).blk t).view.emb (ix3 (0 : Fin 1) (0 : Fin 1) q))
  refine (pay1_apply (blkAct V c t) q).trans ?_
  refine (Finset.sum_congr rfl fun r _ => blkAct_apply V c t r q).trans ?_
  obtain ⟨e0, e1, e2⟩ := idx10 t
  refine congrArg₂ (tileSum V c) (Fin.ext ?_) (Fin.ext ?_)
  · show t.val = win0_10.index t (0 : Fin 3) * 1 + 1 * 0; rw [e0]; omega
  · show q.val = win0_10.index t (2 : Fin 3) * 128 + 1 * q.val; rw [e2]; omega

/-- Tile t writes entry t of the per-tile sums of squares. -/
theorem flushed11_eq (t : Fin cfg0.N) :
    (Gen.dat0 V c).flushed 11 t = ((cfg0.win 11).blk t).view.read (Elt Ideal) (G11 V c) := by
  show (cfg0.win 11).cut (grid0.coords t) ((Gen.dat0 V c).after 11 t) = _
  rw [Gen.after0_11]
  unfold Gen.out0_11
  rw [View.canon_unit_zero hz3]
  simp only [View.ld_unit_zero (S := S4000x128) hz2, View.ld_unit_zero (S := S4000x1) hz2,
    View.ld_unit_zero (S := S128x128) hz2, View.ld_unit_zero (S := S1x128) hz2]
  funext j
  obtain ⟨u, w, q, rfl⟩ : ∃ (u w : Fin 1) (q : Fin 128), j = ix3 u w q := ⟨j 0, j 1, j 2, eq_ix3 j⟩
  obtain rfl : u = 0 := Subsingleton.elim _ _
  obtain rfl : w = 0 := Subsingleton.elim _ _
  show Gen.k0_pay2 (F := Ideal) (blkAct V c t) (ix3 (0 : Fin 1) (0 : Fin 1) q)
      = G11 V c (((cfg0.win 11).blk t).view.emb (ix3 (0 : Fin 1) (0 : Fin 1) q))
  refine (pay2_apply (blkAct V c t) q).trans ?_
  refine (Finset.sum_congr rfl fun r _ =>
    congrArg₂ (· * ·) (blkAct_apply V c t r q) (blkAct_apply V c t r q)).trans ?_
  obtain ⟨e0, e1, e2⟩ := idx11 t
  refine congrArg₂ (tileSumSq V c) (Fin.ext ?_) (Fin.ext ?_)
  · show t.val = win0_11.index t (0 : Fin 3) * 1 + 1 * 0; rw [e0]; omega
  · show q.val = win0_11.index t (2 : Fin 3) * 128 + 1 * q.val; rw [e2]; omega

/-! ## The blocks fill the arrays -/

theorem mem_blk9 (t : Fin cfg0.N) (i : S100000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v96_0).slice (win0_9.rect t)).set ↔ _
  rw [View.set_slice_whole, Rect.mem_set_unit]
  exact Iff.rfl

theorem mem_blk10 (t : Fin cfg0.N) (i : S25x1x128.Idx) :
    i ∈ ((cfg0.win 10).blk t).view.set ↔ ∀ a : Fin 3, win0_10.index t a * S1x1x128.size a ≤ (i a).val
      ∧ (i a).val < win0_10.index t a * S1x1x128.size a + S1x1x128.size a := by
  show i ∈ ((View.whole main_v96_1).slice (win0_10.rect t)).set ↔ _
  rw [View.set_slice_whole, Rect.mem_set_unit]
  exact Iff.rfl

theorem mem_blk11 (t : Fin cfg0.N) (i : S25x1x128.Idx) :
    i ∈ ((cfg0.win 11).blk t).view.set ↔ ∀ a : Fin 3, win0_11.index t a * S1x1x128.size a ≤ (i a).val
      ∧ (i a).val < win0_11.index t a * S1x1x128.size a + S1x1x128.size a := by
  show i ∈ ((View.whole main_v96_2).slice (win0_11.rect t)).set ↔ _
  rw [View.set_slice_whole, Rect.mem_set_unit]
  exact Iff.rfl

/-- Node n lies in the block of tile n / 4000. -/
theorem cover9 (i : S100000x128.Idx) :
    ∃ t : Fin cfg0.N, (cfg0.win 9).flush t = true ∧ i ∈ ((cfg0.win 9).blk t).view.set := by
  have hN : cfg0.N = 25 := Gen.N_0
  have hi0 : (i 0).val < 100000 := (i 0).isLt
  have hi1 : (i 1).val < 128 := (i 1).isLt
  obtain ⟨t, ht⟩ : ∃ t : Fin cfg0.N, t.val = (i 0).val / 4000 := ⟨⟨(i 0).val / 4000, by rw [hN]; omega⟩, rfl⟩
  obtain ⟨e0, e1⟩ := idx9 t
  refine ⟨t, Gen.flush0_9 t, (mem_blk9 t i).2 fun a => ?_⟩
  match a with
  | ⟨0, _⟩ =>
    show win0_9.index t (0 : Fin 2) * 4000 ≤ (i 0).val ∧ (i 0).val < win0_9.index t (0 : Fin 2) * 4000 + 4000
    rw [e0, ht]; omega
  | ⟨1, _⟩ =>
    show win0_9.index t (1 : Fin 2) * 128 ≤ (i 1).val ∧ (i 1).val < win0_9.index t (1 : Fin 2) * 128 + 128
    rw [e1]; omega

/-- Entry t of the per-tile sums lies in tile t's block. -/
theorem cover10 (i : S25x1x128.Idx) :
    ∃ t : Fin cfg0.N, (cfg0.win 10).flush t = true ∧ i ∈ ((cfg0.win 10).blk t).view.set := by
  have hN : cfg0.N = 25 := Gen.N_0
  have hi0 : (i 0).val < 25 := (i 0).isLt
  have hi1 : (i 1).val < 1 := (i 1).isLt
  have hi2 : (i 2).val < 128 := (i 2).isLt
  obtain ⟨t, ht⟩ : ∃ t : Fin cfg0.N, t.val = (i 0).val := ⟨⟨(i 0).val, by rw [hN]; exact hi0⟩, rfl⟩
  obtain ⟨e0, e1, e2⟩ := idx10 t
  refine ⟨t, Gen.flush0_10 t, (mem_blk10 t i).2 fun a => ?_⟩
  match a with
  | ⟨0, _⟩ =>
    show win0_10.index t (0 : Fin 3) * 1 ≤ (i 0).val ∧ (i 0).val < win0_10.index t (0 : Fin 3) * 1 + 1
    rw [e0, ht]; omega
  | ⟨1, _⟩ =>
    show win0_10.index t (1 : Fin 3) * 1 ≤ (i 1).val ∧ (i 1).val < win0_10.index t (1 : Fin 3) * 1 + 1
    rw [e1]; omega
  | ⟨2, _⟩ =>
    show win0_10.index t (2 : Fin 3) * 128 ≤ (i 2).val ∧ (i 2).val < win0_10.index t (2 : Fin 3) * 128 + 128
    rw [e2]; omega

/-- Entry t of the per-tile sums of squares lies in tile t's block. -/
theorem cover11 (i : S25x1x128.Idx) :
    ∃ t : Fin cfg0.N, (cfg0.win 11).flush t = true ∧ i ∈ ((cfg0.win 11).blk t).view.set := by
  have hN : cfg0.N = 25 := Gen.N_0
  have hi0 : (i 0).val < 25 := (i 0).isLt
  have hi1 : (i 1).val < 1 := (i 1).isLt
  have hi2 : (i 2).val < 128 := (i 2).isLt
  obtain ⟨t, ht⟩ : ∃ t : Fin cfg0.N, t.val = (i 0).val := ⟨⟨(i 0).val, by rw [hN]; exact hi0⟩, rfl⟩
  obtain ⟨e0, e1, e2⟩ := idx11 t
  refine ⟨t, Gen.flush0_11 t, (mem_blk11 t i).2 fun a => ?_⟩
  match a with
  | ⟨0, _⟩ =>
    show win0_11.index t (0 : Fin 3) * 1 ≤ (i 0).val ∧ (i 0).val < win0_11.index t (0 : Fin 3) * 1 + 1
    rw [e0, ht]; omega
  | ⟨1, _⟩ =>
    show win0_11.index t (1 : Fin 3) * 1 ≤ (i 1).val ∧ (i 1).val < win0_11.index t (1 : Fin 3) * 1 + 1
    rw [e1]; omega
  | ⟨2, _⟩ =>
    show win0_11.index t (2 : Fin 3) * 128 ≤ (i 2).val ∧ (i 2).val < win0_11.index t (2 : Fin 3) * 128 + 128
    rw [e2]; omega

/-! ## The three arrays after the region -/

theorem final9 : (Gen.dat0 V c).arrAt 9 cfg0.N = G9 V c :=
  (Gen.dat0 V c).arrAt_eq_of_cover 9 (G9 V c) (fun t _ => flushed9_eq V c t) (cover9)

theorem final10 : (Gen.dat0 V c).arrAt 10 cfg0.N = G10 V c :=
  (Gen.dat0 V c).arrAt_eq_of_cover 10 (G10 V c) (fun t _ => flushed10_eq V c t) (cover10)

theorem final11 : (Gen.dat0 V c).arrAt 11 cfg0.N = G11 V c :=
  (Gen.dat0 V c).arrAt_eq_of_cover 11 (G11 V c) (fun t _ => flushed11_eq V c t) (cover11)

/-- The activations end as the update at every node. -/
theorem act_eq (n : Fin 100000) (d : Fin 128) :
    ((Gen.dat0 (F := Ideal) V c).arrAt 9 cfg0.N : S100000x128.Idx → EReal) (ix2 n d) = act V c n d :=
  congrFun (final9 V c) (ix2 n d)

/-- Entry t of the per-tile sums ends as the sum of the update over tile t's 4000 nodes. -/
theorem sum_eq (t : Fin 25) (d : Fin 128) :
    ((Gen.dat0 (F := Ideal) V c).arrAt 10 cfg0.N : S25x1x128.Idx → EReal) (ix3 t (0 : Fin 1) d)
      = ∑ i : Fin 4000, act V c (Cert.PointDist.tileIdx (by norm_num : 25 * 4000 = 100000) t i) d :=
  congrFun (final10 V c) (ix3 t (0 : Fin 1) d)

/-- Entry t of the per-tile sums of squares ends as the sum of the squared update over tile t's 4000 nodes. -/
theorem sumsq_eq (t : Fin 25) (d : Fin 128) :
    ((Gen.dat0 (F := Ideal) V c).arrAt 11 cfg0.N : S25x1x128.Idx → EReal) (ix3 t (0 : Fin 1) d)
      = ∑ i : Fin 4000, act V c (Cert.PointDist.tileIdx (by norm_num : 25 * 4000 = 100000) t i) d
          * act V c (Cert.PointDist.tileIdx (by norm_num : 25 * 4000 = 100000) t i) d :=
  congrFun (final11 V c) (ix3 t (0 : Fin 1) d)

end Cert.Sage.PaperRegion

end
-- ==== Proof.NormBase.lean ====
/-
  The shape of a folded normalisation: one multiply and one add per entry.

  An array r of N rows and 128 features, a scale row and a shift row (each of one row and 128 features) give the
  array whose entry (n, d) is r (n, d) * scale (0, d) + shift (0, d): every row of r is scaled and shifted feature
  by feature with the same two rows. The formula is written as one function of the three arrays so that a
  region's blocks can be recognised as its restrictions.
-/
import Idealize.ShloMosaic.PureOps.Ideal
import Idealize.ShloMosaic.Lib.ValueIdx

noncomputable section

namespace Cert.Sage.NormRegions

open Idealize.ShloMosaic Idealize.ShloMosaic.ValueIdx

/-- The offset of an access to a whole two-axis buffer is zero on both axes. -/
theorem hz : (![0, 0] : Fin 2 → Nat) = fun _ => 0 := funext fun a => by fin_cases a <;> rfl

/-- Entry i of r times the scale of i's feature plus the shift of i's feature. -/
abbrev scaled {N : ℕ} (r : (⟨2, ![N, 128]⟩ : Shape).Idx → EReal) (sc sh : (⟨2, ![1, 128]⟩ : Shape).Idx → EReal) :
    (⟨2, ![N, 128]⟩ : Shape).Idx → EReal :=
  fun i => r i * sc (ix2 (0 : Fin 1) (⟨(i 1).val, idx2_lt1 i⟩ : Fin 128))
    + sh (ix2 (0 : Fin 1) (⟨(i 1).val, idx2_lt1 i⟩ : Fin 128))

end Cert.Sage.NormRegions

end
-- ==== Proof.NormRegionPaper.lean ====
/-
  The first normalising region read as a value.

  The region reads an array r of 100000 rows and 128 features in 25 blocks of 4000 rows, and two rows of 128
  features, a scale and a shift, whole at every grid point. Point t computes, on block t of r, entry times the
  scale of the entry's feature plus the shift of the entry's feature, and writes the result as block t of the
  output. Block t holds rows 4000 t … 4000 t + 3999, so row n lies in block n / 4000: the 25 blocks cover the output,
  and it ends holding out (n, d) = r (n, d) * scale (0, d) + shift (0, d), whatever the three arrays held when the
  region was entered.
-/
import proofs.«116012_j76166950027377_2_alg».proof.Proof.Gen.KernelIdeal.Frame
import proofs.«116012_j76166950027377_2_alg».proof.Proof.LibRowBroadcast
import proofs.«116012_j76166950027377_2_alg».proof.Proof.NormBase
import Idealize.ShloMosaic.Lib.Pipeline.Value
import Idealize.ShloMosaic.Lib.ValueIdx

set_option maxRecDepth 16384

noncomputable section

namespace Cert.Sage.NormRegions

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- One block's result at (p, q): the block's entry times the scale row's entry q plus the shift row's. -/
theorem pay2_apply (x0 : FVec Ideal S4000x128 .f32) (x1 x2 : FVec Ideal S1x128 .f32) (p : Fin 4000) (q : Fin 128) :
    k2_pay1 x0 x1 x2 (ix2 p q) = x0 (ix2 p q) * x1 (ix2 (0 : Fin 1) q) + x2 (ix2 (0 : Fin 1) q) := by
  unfold k2_pay1
  rw [addf_apply, mulf_apply, shapeCast_self, shapeCast_self, shapeCast_self,
    Cert.RowBroadcast.broadcastTo_1b_ab_apply, Cert.RowBroadcast.broadcastTo_1b_ab_apply]

/-- The block maps over the grid: point t takes block row t of r and of the result, and the one block of each row. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block t of r at (p, q) is r at row 4000 t + p, feature q. -/
theorem blk2_r (t : Fin cfg2.N) (p : Fin 4000) (q : Fin 128) (n : Fin 100000) (hn : n.val = 4000 * t.val + p.val) :
    (iblk2 V c 0 t : FVec Ideal S4000x128 .f32) (ix2 p q)
      = (V c (Pipeline.arrRef spec2 0) : S100000x128.Idx → EReal) (ix2 n q) := by
  obtain ⟨e0, e1, -⟩ := idx_facts2 t
  unfold iblk2
  rw [View.read_apply]
  refine congrArg (V c (Pipeline.arrRef spec2 0) : S100000x128.Idx → EReal) ?_
  funext a; apply Fin.ext
  match a with
  | ⟨0, _⟩ => show win2_0.index t (0 : Fin 2) * 4000 + 1 * p.val = n.val; rw [e0, hn]; omega
  | ⟨1, _⟩ => show win2_0.index t (1 : Fin 2) * 128 + 1 * q.val = q.val; rw [e1]; omega

/-- The scale row's one block is the whole row. -/
theorem blk2_scale (t : Fin cfg2.N) (q : Fin 128) :
    (iblk2 V c 1 t : FVec Ideal S1x128 .f32) (ix2 (0 : Fin 1) q)
      = (V c (Pipeline.arrRef spec2 1) : S1x128.Idx → EReal) (ix2 (0 : Fin 1) q) := by
  obtain ⟨-, -, e2, e3, -⟩ := idx_facts2 t
  unfold iblk2
  rw [View.read_apply]
  refine congrArg (V c (Pipeline.arrRef spec2 1) : S1x128.Idx → EReal) ?_
  funext a; apply Fin.ext
  match a with
  | ⟨0, _⟩ => show win2_1.index t (0 : Fin 2) * 1 + 1 * 0 = 0; rw [e2]
  | ⟨1, _⟩ => show win2_1.index t (1 : Fin 2) * 128 + 1 * q.val = q.val; rw [e3]; omega

/-- The shift row's one block is the whole row. -/
theorem blk2_shift (t : Fin cfg2.N) (q : Fin 128) :
    (iblk2 V c 2 t : FVec Ideal S1x128 .f32) (ix2 (0 : Fin 1) q)
      = (V c (Pipeline.arrRef spec2 2) : S1x128.Idx → EReal) (ix2 (0 : Fin 1) q) := by
  obtain ⟨-, -, -, -, e4, e5, -⟩ := idx_facts2 t
  unfold iblk2
  rw [View.read_apply]
  refine congrArg (V c (Pipeline.arrRef spec2 2) : S1x128.Idx → EReal) ?_
  funext a; apply Fin.ext
  match a with
  | ⟨0, _⟩ => show win2_2.index t (0 : Fin 2) * 1 + 1 * 0 = 0; rw [e4]
  | ⟨1, _⟩ => show win2_2.index t (1 : Fin 2) * 128 + 1 * q.val = q.val; rw [e5]; omega

/-- What point t writes back is block t of the formula over the three arrays as the region finds them. -/
theorem flushed2_eq (t : Fin cfg2.N) :
    (dat2 (F := Ideal) V c).flushed 3 t = ((cfg2.win 3).blk t).view.read (Elt Ideal)
      (scaled (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S4000x128) hz, View.ld_unit_zero (S := S1x128) hz]
  obtain ⟨-, -, -, -, -, -, e6, e7⟩ := idx_facts2 t
  have hN : cfg2.N = 25 := N_2
  funext j
  obtain ⟨p, q, rfl⟩ : ∃ (p : Fin 4000) (q : Fin 128), j = ix2 p q := ⟨j 0, j 1, eq_ix2 j⟩
  have hlt : 4000 * t.val + p.val < 100000 := by have := t.isLt; have := p.isLt; omega
  refine (pay2_apply _ _ _ p q).trans ?_
  rw [blk2_r V c t p q ⟨4000 * t.val + p.val, hlt⟩ rfl, blk2_scale V c t q, blk2_shift V c t q]
  have hemb : ((cfg2.win 3).blk t).view.emb (ix2 p q) = (ix2 (⟨4000 * t.val + p.val, hlt⟩ : Fin 100000) q : S100000x128.Idx) := by
    funext a; apply Fin.ext
    match a with
    | ⟨0, _⟩ => show win2_3.index t (0 : Fin 2) * 4000 + 1 * p.val = 4000 * t.val + p.val; rw [e6]; omega
    | ⟨1, _⟩ => show win2_3.index t (1 : Fin 2) * 128 + 1 * q.val = q.val; rw [e7]; omega
  show _ = scaled (V c (Pipeline.arrRef spec2 0)) (V c (Pipeline.arrRef spec2 1)) (V c (Pipeline.arrRef spec2 2))
    (((cfg2.win 3).blk t).view.emb (ix2 p q))
  rw [hemb]

/-- An index of the result is in point t's block iff each coordinate is in the block's range on its axis. -/
theorem mem_blk2 (t : Fin cfg2.N) (i : S100000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v134).slice (win2_3.rect t)).set ↔ _
  rw [View.set_slice_whole, Rect.mem_set_unit]
  exact Iff.rfl

/-- Row n is in block n / 4000: the blocks cover the result. -/
theorem cover2 (i : S100000x128.Idx) :
    ∃ t : Fin cfg2.N, (cfg2.win 3).flush t = true ∧ i ∈ ((cfg2.win 3).blk t).view.set := by
  have hN : cfg2.N = 25 := N_2
  have hi0 : (i 0).val < 100000 := (i 0).isLt
  have hi1 : (i 1).val < 128 := (i 1).isLt
  refine ⟨⟨(i 0).val / 4000, by rw [hN]; omega⟩, flush2_3 _, ?_⟩
  rw [mem_blk2]
  obtain ⟨-, -, -, -, -, -, e6, e7⟩ := idx_facts2 ⟨(i 0).val / 4000, by rw [hN]; omega⟩
  intro a
  match a with
  | ⟨0, _⟩ => show win2_3.index _ (0 : Fin 2) * 4000 ≤ (i 0).val ∧ (i 0).val < win2_3.index _ (0 : Fin 2) * 4000 + 4000; rw [e6]; show (i 0).val / 4000 * 4000 ≤ (i 0).val ∧ (i 0).val < (i 0).val / 4000 * 4000 + 4000; omega
  | ⟨1, _⟩ => show win2_3.index _ (1 : Fin 2) * 128 ≤ (i 1).val ∧ (i 1).val < win2_3.index _ (1 : Fin 2) * 128 + 128; rw [e7]; omega

/-- The result array after the first region. -/
theorem final2 : (dat2 (F := Ideal) V c).arrAt 3 cfg2.N
    = scaled (V c (Pipeline.arrRef spec2 0)) (V c (Pipeline.arrRef spec2 1)) (V c (Pipeline.arrRef spec2 2)) :=
  (dat2 V c).arrAt_eq_of_cover 3 _ (fun t _ => flushed2_eq V c t) (cover2)

/-- The three arrays the first region reads, as it finds them: r, the scale row, the shift row. -/
abbrev paperIn0 : S100000x128.Idx → EReal := V c (Pipeline.arrRef spec2 0)
abbrev paperIn1 : S1x128.Idx → EReal := V c (Pipeline.arrRef spec2 1)
abbrev paperIn2 : S1x128.Idx → EReal := V c (Pipeline.arrRef spec2 2)

/-- The first region's result at row n, feature d: r (n, d) * scale (0, d) + shift (0, d). -/
theorem paper_out (n : Fin 100000) (d : Fin 128) :
    ((dat2 (F := Ideal) V c).arrAt 3 cfg2.N : S100000x128.Idx → EReal) (ix2 n d)
      = paperIn0 V c (ix2 n d) * paperIn1 V c (ix2 (0 : Fin 1) d) + paperIn2 V c (ix2 (0 : Fin 1) d) := by
  rw [final2]

end Cert.Sage.NormRegions

end
-- ==== Proof.NormRegionAuthor.lean ====
/-
  The second normalising region read as a value.

  The region reads an array r of 50000 rows and 128 features in 10 blocks of 5000 rows, and two rows of 128
  features, a scale and a shift, whole at every grid point. Point t computes, on block t of r, entry times the
  scale of the entry's feature plus the shift of the entry's feature, and writes the result as block t of the
  output. Block t holds rows 5000 t … 5000 t + 4999, so row n lies in block n / 5000: the 10 blocks cover the output,
  and it ends holding out (n, d) = r (n, d) * scale (0, d) + shift (0, d), whatever the three arrays held when the
  region was entered.
-/
import proofs.«116012_j76166950027377_2_alg».proof.Proof.Gen.KernelIdeal.Frame
import proofs.«116012_j76166950027377_2_alg».proof.Proof.LibRowBroadcast
import proofs.«116012_j76166950027377_2_alg».proof.Proof.NormBase
import Idealize.ShloMosaic.Lib.Pipeline.Value
import Idealize.ShloMosaic.Lib.ValueIdx

set_option maxRecDepth 16384

noncomputable section

namespace Cert.Sage.NormRegions

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-- One block's result at (p, q): the block's entry times the scale row's entry q plus the shift row's. -/
theorem pay3_apply (x0 : FVec Ideal S5000x128 .f32) (x1 x2 : FVec Ideal S1x128 .f32) (p : Fin 5000) (q : Fin 128) :
    k3_pay1 x0 x1 x2 (ix2 p q) = x0 (ix2 p q) * x1 (ix2 (0 : Fin 1) q) + x2 (ix2 (0 : Fin 1) q) := by
  unfold k3_pay1
  rw [addf_apply, mulf_apply, shapeCast_self, shapeCast_self, shapeCast_self,
    Cert.RowBroadcast.broadcastTo_1b_ab_apply, Cert.RowBroadcast.broadcastTo_1b_ab_apply]

/-- The block maps over the grid: point t takes block row t of r and of the result, and the one block of each row. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Block t of r at (p, q) is r at row 5000 t + p, feature q. -/
theorem blk3_r (t : Fin cfg3.N) (p : Fin 5000) (q : Fin 128) (n : Fin 50000) (hn : n.val = 5000 * t.val + p.val) :
    (iblk3 V c 0 t : FVec Ideal S5000x128 .f32) (ix2 p q)
      = (V c (Pipeline.arrRef spec3 0) : S50000x128.Idx → EReal) (ix2 n q) := by
  obtain ⟨e0, e1, -⟩ := idx_facts3 t
  unfold iblk3
  rw [View.read_apply]
  refine congrArg (V c (Pipeline.arrRef spec3 0) : S50000x128.Idx → EReal) ?_
  funext a; apply Fin.ext
  match a with
  | ⟨0, _⟩ => show win3_0.index t (0 : Fin 2) * 5000 + 1 * p.val = n.val; rw [e0, hn]; omega
  | ⟨1, _⟩ => show win3_0.index t (1 : Fin 2) * 128 + 1 * q.val = q.val; rw [e1]; omega

/-- The scale row's one block is the whole row. -/
theorem blk3_scale (t : Fin cfg3.N) (q : Fin 128) :
    (iblk3 V c 1 t : FVec Ideal S1x128 .f32) (ix2 (0 : Fin 1) q)
      = (V c (Pipeline.arrRef spec3 1) : S1x128.Idx → EReal) (ix2 (0 : Fin 1) q) := by
  obtain ⟨-, -, e2, e3, -⟩ := idx_facts3 t
  unfold iblk3
  rw [View.read_apply]
  refine congrArg (V c (Pipeline.arrRef spec3 1) : S1x128.Idx → EReal) ?_
  funext a; apply Fin.ext
  match a with
  | ⟨0, _⟩ => show win3_1.index t (0 : Fin 2) * 1 + 1 * 0 = 0; rw [e2]
  | ⟨1, _⟩ => show win3_1.index t (1 : Fin 2) * 128 + 1 * q.val = q.val; rw [e3]; omega

/-- The shift row's one block is the whole row. -/
theorem blk3_shift (t : Fin cfg3.N) (q : Fin 128) :
    (iblk3 V c 2 t : FVec Ideal S1x128 .f32) (ix2 (0 : Fin 1) q)
      = (V c (Pipeline.arrRef spec3 2) : S1x128.Idx → EReal) (ix2 (0 : Fin 1) q) := by
  obtain ⟨-, -, -, -, e4, e5, -⟩ := idx_facts3 t
  unfold iblk3
  rw [View.read_apply]
  refine congrArg (V c (Pipeline.arrRef spec3 2) : S1x128.Idx → EReal) ?_
  funext a; apply Fin.ext
  match a with
  | ⟨0, _⟩ => show win3_2.index t (0 : Fin 2) * 1 + 1 * 0 = 0; rw [e4]
  | ⟨1, _⟩ => show win3_2.index t (1 : Fin 2) * 128 + 1 * q.val = q.val; rw [e5]; omega

/-- What point t writes back is block t of the formula over the three arrays as the region finds them. -/
theorem flushed3_eq (t : Fin cfg3.N) :
    (dat3 (F := Ideal) V c).flushed 3 t = ((cfg3.win 3).blk t).view.read (Elt Ideal)
      (scaled (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨-, -, -, -, -, -, e6, e7⟩ := idx_facts3 t
  have hN : cfg3.N = 10 := N_3
  funext j
  obtain ⟨p, q, rfl⟩ : ∃ (p : Fin 5000) (q : Fin 128), j = ix2 p q := ⟨j 0, j 1, eq_ix2 j⟩
  have hlt : 5000 * t.val + p.val < 50000 := by have := t.isLt; have := p.isLt; omega
  refine (pay3_apply _ _ _ p q).trans ?_
  rw [blk3_r V c t p q ⟨5000 * t.val + p.val, hlt⟩ rfl, blk3_scale V c t q, blk3_shift V c t q]
  have hemb : ((cfg3.win 3).blk t).view.emb (ix2 p q) = (ix2 (⟨5000 * t.val + p.val, hlt⟩ : Fin 50000) q : S50000x128.Idx) := by
    funext a; apply Fin.ext
    match a with
    | ⟨0, _⟩ => show win3_3.index t (0 : Fin 2) * 5000 + 1 * p.val = 5000 * t.val + p.val; rw [e6]; omega
    | ⟨1, _⟩ => show win3_3.index t (1 : Fin 2) * 128 + 1 * q.val = q.val; rw [e7]; omega
  show _ = scaled (V c (Pipeline.arrRef spec3 0)) (V c (Pipeline.arrRef spec3 1)) (V c (Pipeline.arrRef spec3 2))
    (((cfg3.win 3).blk t).view.emb (ix2 p q))
  rw [hemb]

/-- An index of the result is in point t's block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v135).slice (win3_3.rect t)).set ↔ _
  rw [View.set_slice_whole, Rect.mem_set_unit]
  exact Iff.rfl

/-- Row n is in block n / 5000: the blocks cover the result. -/
theorem cover3 (i : S50000x128.Idx) :
    ∃ t : Fin cfg3.N, (cfg3.win 3).flush t = true ∧ i ∈ ((cfg3.win 3).blk t).view.set := by
  have hN : cfg3.N = 10 := N_3
  have hi0 : (i 0).val < 50000 := (i 0).isLt
  have hi1 : (i 1).val < 128 := (i 1).isLt
  refine ⟨⟨(i 0).val / 5000, by rw [hN]; omega⟩, flush3_3 _, ?_⟩
  rw [mem_blk3]
  obtain ⟨-, -, -, -, -, -, e6, e7⟩ := idx_facts3 ⟨(i 0).val / 5000, by rw [hN]; omega⟩
  intro a
  match a with
  | ⟨0, _⟩ => show win3_3.index _ (0 : Fin 2) * 5000 ≤ (i 0).val ∧ (i 0).val < win3_3.index _ (0 : Fin 2) * 5000 + 5000; rw [e6]; show (i 0).val / 5000 * 5000 ≤ (i 0).val ∧ (i 0).val < (i 0).val / 5000 * 5000 + 5000; omega
  | ⟨1, _⟩ => show win3_3.index _ (1 : Fin 2) * 128 ≤ (i 1).val ∧ (i 1).val < win3_3.index _ (1 : Fin 2) * 128 + 128; rw [e7]; omega

/-- The result array after the second region. -/
theorem final3 : (dat3 (F := Ideal) V c).arrAt 3 cfg3.N
    = scaled (V c (Pipeline.arrRef spec3 0)) (V c (Pipeline.arrRef spec3 1)) (V c (Pipeline.arrRef spec3 2)) :=
  (dat3 V c).arrAt_eq_of_cover 3 _ (fun t _ => flushed3_eq V c t) (cover3)

/-- The three arrays the second region reads, as it finds them: r, the scale row, the shift row. -/
abbrev authorIn0 : S50000x128.Idx → EReal := V c (Pipeline.arrRef spec3 0)
abbrev authorIn1 : S1x128.Idx → EReal := V c (Pipeline.arrRef spec3 1)
abbrev authorIn2 : S1x128.Idx → EReal := V c (Pipeline.arrRef spec3 2)

/-- The second region's result at row n, feature d: r (n, d) * scale (0, d) + shift (0, d). -/
theorem author_out (n : Fin 50000) (d : Fin 128) :
    ((dat3 (F := Ideal) V c).arrAt 3 cfg3.N : S50000x128.Idx → EReal) (ix2 n d)
      = authorIn0 V c (ix2 n d) * authorIn1 V c (ix2 (0 : Fin 1) d) + authorIn2 V c (ix2 (0 : Fin 1) d) := by
  rw [final3]

end Cert.Sage.NormRegions

end
-- ==== Proof.NormRegions.lean ====
/-
  The two normalising regions read as values: each leaves out (n, d) = r (n, d) * scale (0, d) + shift (0, d) in its
  output array, for the 100000-row array (`paper_out`) and for the 50000-row array (`author_out`).
-/
import proofs.«116012_j76166950027377_2_alg».proof.Proof.NormRegionPaper
import proofs.«116012_j76166950027377_2_alg».proof.Proof.NormRegionAuthor
-- ==== Proof.StatsRows.lean ====
/-
  The per-feature statistics of a batch normalisation, computed from per-tile partial sums, as rows of 128 entries.

  T tiles each hand over, per feature d, the sum P (t, 0, d) of the tile's activations and the sum Q (t, 0, d) of
  their squares. Adding over the tiles gives the feature's sum sP d and its sum of squares sQ d over all the nodes.
  With Nf the node count, the mean is sP / Nf, the variance max (sQ / Nf - mean * mean) 0, the scale is
  gamma * rsqrt (variance + eps) and the shift beta - mean * scale. Every quantity here is a row of shape [1, 128]
  built from whole-row operations; read at (0, d) it is the scalar formula at feature d. The sum over the tiles
  starts from the initial value 0, which adds nothing.
-/
import proofs.«116012_j76166950027377_2_alg».proof.Proof.Spec
import proofs.«116012_j76166950027377_2_alg».proof.Proof.LibRowCast
import Idealize.ShloMosaic.Lib.IdealHost
import Idealize.ShloMosaic.Lib.Pipeline.Value
import Idealize.ShloMosaic.Lib.ValueIdx
import Idealize.ShloMosaic.PureOps.Ideal.Laws

noncomputable section

namespace Cert.Sage.StatsStretch

open Idealize.ShloMosaic Idealize.ShloMosaic.ValueIdx

variable {T : ℕ}
  (hT : (⟨3, ![T, 1, 128]⟩ : Shape).ReducesTo [0] (⟨2, ![1, 128]⟩ : Shape))
  (h0 : 0 < (⟨0, ![]⟩ : Shape).numel)
  (hb : (⟨0, ![]⟩ : Shape).BroadcastsInDim (⟨2, ![1, 128]⟩ : Shape) (![] : Fin 0 → Fin 2))
  (hc : (⟨1, ![128]⟩ : Shape).ShapeCasts (⟨2, ![1, 128]⟩ : Shape))

/-! ## The rows -/

/-- The tiles' partial sums added up feature by feature, from the initial value 0. -/
def sumRow (P : FVec Ideal ⟨3, ![T, 1, 128]⟩ .f32) : FVec Ideal ⟨2, ![1, 128]⟩ .f32 :=
  Host.reduceAdd (F := Ideal) P (constant (F := Ideal) ⟨0, ![]⟩ .f32 0x00000000#32) hT h0

/-- One constant in every entry of a row. -/
def constRow (w : BitVec 32) : FVec Ideal ⟨2, ![1, 128]⟩ .f32 :=
  broadcastInDim ⟨2, ![1, 128]⟩ ![] hb (constant (F := Ideal) ⟨0, ![]⟩ .f32 w)

/-- A summed row divided by the node count. -/
def meanRow (nb : BitVec 32) (P : FVec Ideal ⟨3, ![T, 1, 128]⟩ .f32) : FVec Ideal ⟨2, ![1, 128]⟩ .f32 :=
  Host.divf (F := Ideal) (sumRow hT h0 P) (constRow hb nb)

/-- The reciprocal square root of the variance plus epsilon, the variance cut off below at 0. -/
def invRow (nb eb : BitVec 32) (P Q : FVec Ideal ⟨3, ![T, 1, 128]⟩ .f32) : FVec Ideal ⟨2, ![1, 128]⟩ .f32 :=
  Host.rsqrt (F := Ideal)
    (addf (maximumf (subf (meanRow hT h0 hb nb Q) (mulf (meanRow hT h0 hb nb P) (meanRow hT h0 hb nb P)))
        (constRow hb 0x00000000#32))
      (constRow hb eb))

/-- The scale: gamma, read as a row, times the reciprocal square root. -/
def scaleRow (nb eb : BitVec 32) (P Q : FVec Ideal ⟨3, ![T, 1, 128]⟩ .f32) (g : FVec Ideal ⟨1, ![128]⟩ .f32) :
    FVec Ideal ⟨2, ![1, 128]⟩ .f32 :=
  mulf (shapeCast ⟨2, ![1, 128]⟩ g hc) (invRow hT h0 hb nb eb P Q)

/-- The shift: beta, read as a row, minus the mean times the scale. -/
def shiftRow (nb eb : BitVec 32) (P Q : FVec Ideal ⟨3, ![T, 1, 128]⟩ .f32) (g be : FVec Ideal ⟨1, ![128]⟩ .f32) :
    FVec Ideal ⟨2, ![1, 128]⟩ .f32 :=
  subf (shapeCast ⟨2, ![1, 128]⟩ be hc) (mulf (meanRow hT h0 hb nb P) (scaleRow hT h0 hb hc nb eb P Q g))

/-! ## The rows at feature d -/

/-- Feature d of the summed row with tile k put back on the summed axis is the index (k, 0, d). -/
theorem lift_tile (hT' : (⟨3, ![T, 1, 128]⟩ : Shape).Reduces [0] (⟨2, ![1, 128]⟩ : Shape)) (d : Fin 128)
    (k : Fin ((⟨3, ![T, 1, 128]⟩ : Shape).size 0)) :
    hT'.lift (ix2 (0 : Fin 1) d) k = ix3 (⟨k.val, k.isLt⟩ : Fin T) (0 : Fin 1) d := by
  funext a; apply Fin.ext
  fin_cases a <;> rfl

/-- The summed row at feature d is the sum over the tiles. -/
theorem sumRow_apply (hT' : (⟨3, ![T, 1, 128]⟩ : Shape).Reduces [0] (⟨2, ![1, 128]⟩ : Shape))
    (P : FVec Ideal ⟨3, ![T, 1, 128]⟩ .f32) (d : Fin 128) :
    sumRow hT h0 P (ix2 (0 : Fin 1) d) = ∑ t : Fin T, P (ix3 t (0 : Fin 1) d) := by
  unfold sumRow
  rw [hostReduceAdd_apply, Ideal.hostReduceAdd_single hT hT', constant_apply, Ideal.ofBits_zero_f32, zero_add]
  exact congrArg (fun f => Finset.sum (Finset.univ : Finset (Fin T)) f)
    (funext fun k => congrArg P (lift_tile hT' d k))

/-- A constant row reads its constant everywhere. -/
theorem constRow_apply (w : BitVec 32) (i : (⟨2, ![1, 128]⟩ : Shape).Idx) :
    constRow hb w i = Ideal.ofBits .f32 w := by
  unfold constRow
  rw [broadcastInDim_scalar_apply, constant_apply]

/-- The mean row at feature d. -/
theorem meanRow_apply (hT' : (⟨3, ![T, 1, 128]⟩ : Shape).Reduces [0] (⟨2, ![1, 128]⟩ : Shape)) (nb : BitVec 32)
    (P : FVec Ideal ⟨3, ![T, 1, 128]⟩ .f32) (d : Fin 128) :
    meanRow hT h0 hb nb P (ix2 (0 : Fin 1) d)
      = Ideal.div (∑ t : Fin T, P (ix3 t (0 : Fin 1) d)) (Ideal.ofBits .f32 nb) := by
  unfold meanRow
  rw [hostDivf_apply, sumRow_apply hT h0 hT', constRow_apply]

/-- The scale row at feature d is the scale of the feature's sum and sum of squares. -/
theorem scaleRow_apply (hT' : (⟨3, ![T, 1, 128]⟩ : Shape).Reduces [0] (⟨2, ![1, 128]⟩ : Shape)) (nb eb : BitVec 32)
    (P Q : FVec Ideal ⟨3, ![T, 1, 128]⟩ .f32) (g : FVec Ideal ⟨1, ![128]⟩ .f32) (d : Fin 128) :
    scaleRow hT h0 hb hc nb eb P Q g (ix2 (0 : Fin 1) d)
      = scaleOf (Ideal.ofBits .f32 nb) (Ideal.ofBits .f32 eb) (fun d => ∑ t : Fin T, P (ix3 t (0 : Fin 1) d))
          (fun d => ∑ t : Fin T, Q (ix3 t (0 : Fin 1) d)) (fun d => g (ix1 d)) d := by
  unfold scaleRow invRow scaleOf
  rw [mulf_apply, Cert.RowCast.shapeCast_row_apply]
  show g (ix1 d) * Ideal.rsqrt _ = _
  rw [addf_apply, maximumf_apply, subf_apply, mulf_apply, meanRow_apply hT h0 hb hT', meanRow_apply hT h0 hb hT',
    constRow_apply, constRow_apply, Ideal.ofBits_zero_f32]

/-- The shift row at feature d is the shift of the feature's sum and sum of squares. -/
theorem shiftRow_apply (hT' : (⟨3, ![T, 1, 128]⟩ : Shape).Reduces [0] (⟨2, ![1, 128]⟩ : Shape)) (nb eb : BitVec 32)
    (P Q : FVec Ideal ⟨3, ![T, 1, 128]⟩ .f32) (g be : FVec Ideal ⟨1, ![128]⟩ .f32) (d : Fin 128) :
    shiftRow hT h0 hb hc nb eb P Q g be (ix2 (0 : Fin 1) d)
      = shiftOf (Ideal.ofBits .f32 nb) (Ideal.ofBits .f32 eb) (fun d => ∑ t : Fin T, P (ix3 t (0 : Fin 1) d))
          (fun d => ∑ t : Fin T, Q (ix3 t (0 : Fin 1) d)) (fun d => g (ix1 d)) (fun d => be (ix1 d)) d := by
  unfold shiftRow shiftOf
  rw [subf_apply, mulf_apply, Cert.RowCast.shapeCast_row_apply, meanRow_apply hT h0 hb hT',
    scaleRow_apply hT h0 hb hc hT']

end Cert.Sage.StatsStretch

end
-- ==== Proof.StatsStretch.lean ====
/-
  The host operations between the aggregation regions and the normalising regions, read at a feature.

  From each aggregation region come, per tile t and feature d, the tile's sum of activations and its sum of squared
  activations (25 tiles of the 100000-row array, 10 tiles of the 50000-row array). The stretch adds them over the
  tiles, divides by the node count to get the mean and the mean of squares, forms the variance
  max (mean of squares - mean * mean) 0, and from gamma and beta the two rows the normalising regions read:
  scale = gamma * rsqrt (variance + eps) and shift = beta - mean * scale. Each of the four rows, read at (0, d), is
  the specification's scale or shift at feature d of the two sums over the tiles. The stretch writes only its own
  48 intermediate and result buffers; every other buffer keeps its contents.
-/
import proofs.«116012_j76166950027377_2_alg».proof.Proof.Gen.KernelIdeal.Launch
import proofs.«116012_j76166950027377_2_alg».proof.Proof.StatsRows
import Idealize.ShloMosaic.Lib.StableHlo.Run

set_option maxRecDepth 16384

noncomputable section

namespace Cert.Sage.StatsStretch

open Idealize.ShloMosaic Idealize.ShloMosaic.TcCoe Idealize.ShloMosaic.ValueIdx Idealize.ShloMosaic.StableHlo
open Cert.KernelIdeal Cert.KernelIdeal.Gen

variable (W : Valuation τ sig (Elt Ideal))

/-! ## The four rows as the stretch computes them -/

set_option maxHeartbeats 2000000 in
/-- The 100000-row array's scale row: the operations that end in it, applied to the tiles' sums and gamma. -/
theorem scale_paper_row :
    (StableHlo.after (hostOps2 (F := Ideal)) W (Proc.devRef .tc main_v112) : S1x128.Idx → EReal)
      = scaleRow reducesTo_S25x1x128_S1x128_d0 h_S_ bcast_S_S1x128 shapeCasts_S128_S1x128 0x47C35000#32 0x3727C5AC#32
          (W (Proc.devRef .tc main_v96_1)) (W (Proc.devRef .tc main_v96_2)) (W (Proc.devRef .tc main_arg17)) := by
  dsimp only [hostOps2]
  after_results_simp
  rfl

set_option maxHeartbeats 2000000 in
/-- The 100000-row array's shift row. -/
theorem shift_paper_row :
    (StableHlo.after (hostOps2 (F := Ideal)) W (Proc.devRef .tc main_v115) : S1x128.Idx → EReal)
      = shiftRow reducesTo_S25x1x128_S1x128_d0 h_S_ bcast_S_S1x128 shapeCasts_S128_S1x128 0x47C35000#32 0x3727C5AC#32
          (W (Proc.devRef .tc main_v96_1)) (W (Proc.devRef .tc main_v96_2)) (W (Proc.devRef .tc main_arg17)) (W (Proc.devRef .tc main_arg18)) := by
  dsimp only [hostOps2]
  after_results_simp
  rfl

set_option maxHeartbeats 2000000 in
/-- The 50000-row array's scale row. -/
theorem scale_author_row :
    (StableHlo.after (hostOps2 (F := Ideal)) W (Proc.devRef .tc main_v130) : S1x128.Idx → EReal)
      = scaleRow reducesTo_S10x1x128_S1x128_d0 h_S_ bcast_S_S1x128 shapeCasts_S128_S1x128 0x47435000#32 0x3727C5AC#32
          (W (Proc.devRef .tc main_v97_1)) (W (Proc.devRef .tc main_v97_2)) (W (Proc.devRef .tc main_arg19)) := by
  dsimp only [hostOps2]
  after_results_simp
  rfl

set_option maxHeartbeats 2000000 in
/-- The 50000-row array's shift row. -/
theorem shift_author_row :
    (StableHlo.after (hostOps2 (F := Ideal)) W (Proc.devRef .tc main_v133) : S1x128.Idx → EReal)
      = shiftRow reducesTo_S10x1x128_S1x128_d0 h_S_ bcast_S_S1x128 shapeCasts_S128_S1x128 0x47435000#32 0x3727C5AC#32
          (W (Proc.devRef .tc main_v97_1)) (W (Proc.devRef .tc main_v97_2)) (W (Proc.devRef .tc main_arg19)) (W (Proc.devRef .tc main_arg20)) := by
  dsimp only [hostOps2]
  after_results_simp
  rfl

/-! ## The four rows at feature d -/

/-- The 100000-row array's scale at feature d: the scale of the sums over the 25 tiles, node count 1e5. -/
theorem scale_paper (d : Fin 128) :
    (StableHlo.after (hostOps2 (F := Ideal)) W (Proc.devRef .tc main_v112) : S1x128.Idx → EReal) (ix2 (0 : Fin 1) d)
      = Cert.Sage.scaleOf (Ideal.ofBits .f32 0x47C35000#32) (Ideal.ofBits .f32 0x3727C5AC#32)
          (fun d => ∑ t : Fin 25, (W (Proc.devRef .tc main_v96_1) : S25x1x128.Idx → EReal) (ix3 t (0 : Fin 1) d))
          (fun d => ∑ t : Fin 25, (W (Proc.devRef .tc main_v96_2) : S25x1x128.Idx → EReal) (ix3 t (0 : Fin 1) d))
          (fun d => (W (Proc.devRef .tc main_arg17) : S128.Idx → EReal) (ix1 d)) d := by
  rw [scale_paper_row]
  exact scaleRow_apply _ _ _ _ (by decide) _ _ _ _ _ d

/-- The 100000-row array's shift at feature d. -/
theorem shift_paper (d : Fin 128) :
    (StableHlo.after (hostOps2 (F := Ideal)) W (Proc.devRef .tc main_v115) : S1x128.Idx → EReal) (ix2 (0 : Fin 1) d)
      = Cert.Sage.shiftOf (Ideal.ofBits .f32 0x47C35000#32) (Ideal.ofBits .f32 0x3727C5AC#32)
          (fun d => ∑ t : Fin 25, (W (Proc.devRef .tc main_v96_1) : S25x1x128.Idx → EReal) (ix3 t (0 : Fin 1) d))
          (fun d => ∑ t : Fin 25, (W (Proc.devRef .tc main_v96_2) : S25x1x128.Idx → EReal) (ix3 t (0 : Fin 1) d))
          (fun d => (W (Proc.devRef .tc main_arg17) : S128.Idx → EReal) (ix1 d))
          (fun d => (W (Proc.devRef .tc main_arg18) : S128.Idx → EReal) (ix1 d)) d := by
  rw [shift_paper_row]
  exact shiftRow_apply _ _ _ _ (by decide) _ _ _ _ _ _ d

/-- The 50000-row array's scale at feature d: the scale of the sums over the 10 tiles, node count 5e4. -/
theorem scale_author (d : Fin 128) :
    (StableHlo.after (hostOps2 (F := Ideal)) W (Proc.devRef .tc main_v130) : S1x128.Idx → EReal) (ix2 (0 : Fin 1) d)
      = Cert.Sage.scaleOf (Ideal.ofBits .f32 0x47435000#32) (Ideal.ofBits .f32 0x3727C5AC#32)
          (fun d => ∑ t : Fin 10, (W (Proc.devRef .tc main_v97_1) : S10x1x128.Idx → EReal) (ix3 t (0 : Fin 1) d))
          (fun d => ∑ t : Fin 10, (W (Proc.devRef .tc main_v97_2) : S10x1x128.Idx → EReal) (ix3 t (0 : Fin 1) d))
          (fun d => (W (Proc.devRef .tc main_arg19) : S128.Idx → EReal) (ix1 d)) d := by
  rw [scale_author_row]
  exact scaleRow_apply _ _ _ _ (by decide) _ _ _ _ _ d

/-- The 50000-row array's shift at feature d. -/
theorem shift_author (d : Fin 128) :
    (StableHlo.after (hostOps2 (F := Ideal)) W (Proc.devRef .tc main_v133) : S1x128.Idx → EReal) (ix2 (0 : Fin 1) d)
      = Cert.Sage.shiftOf (Ideal.ofBits .f32 0x47435000#32) (Ideal.ofBits .f32 0x3727C5AC#32)
          (fun d => ∑ t : Fin 10, (W (Proc.devRef .tc main_v97_1) : S10x1x128.Idx → EReal) (ix3 t (0 : Fin 1) d))
          (fun d => ∑ t : Fin 10, (W (Proc.devRef .tc main_v97_2) : S10x1x128.Idx → EReal) (ix3 t (0 : Fin 1) d))
          (fun d => (W (Proc.devRef .tc main_arg19) : S128.Idx → EReal) (ix1 d))
          (fun d => (W (Proc.devRef .tc main_arg20) : S128.Idx → EReal) (ix1 d)) d := by
  rw [shift_author_row]
  exact shiftRow_apply _ _ _ _ (by decide) _ _ _ _ _ _ d

/-! ## What the stretch leaves alone -/

/-- The buffers the stretch writes: one per operation, its result. -/
def written : List (Ref sig .tc) :=
  [main_cst_31, main_v98, main_cst_32, main_v99, main_cst_33, main_v100, main_v101, main_cst_34,
   main_v102, main_v103, main_v104, main_v105, main_cst_35, main_v106, main_v107, main_cst_36,
   main_v108, main_v109, main_v110, main_v111, main_v112, main_v113, main_v114, main_v115,
   main_cst_37, main_v116, main_cst_38, main_v117, main_cst_39, main_v118, main_v119, main_cst_40,
   main_v120, main_v121, main_v122, main_v123, main_cst_41, main_v124, main_v125, main_cst_42,
   main_v126, main_v127, main_v128, main_v129, main_v130, main_v131, main_v132, main_v133]

/-- Every operation of the stretch writes one of them. -/
theorem writes_sub : (hostOps2 (F := Ideal) : List (HloOp τ sig (Elt Ideal))).Forall fun op =>
    op.writes ⊆ (written.map (Proc.devRef (τ := τ) .tc)).toFinset := by
  simp only [hostOps2, List.Forall, StableHlo.nullary_writes, StableHlo.unary_writes, StableHlo.binary_writes,
    StableHlo.reshape_writes, Finset.singleton_subset_iff, List.mem_toFinset]
  repeat' apply And.intro
  all_goals exact List.mem_map_of_mem (by decide)

/-- A buffer that is not one of the stretch's results holds after the stretch what it held before. -/
theorem kept (b : Ref sig .tc) (hb : b ∉ written) :
    StableHlo.after (hostOps2 (F := Ideal)) W (Proc.devRef .tc b) = W (Proc.devRef .tc b) :=
  StableHlo.after_of_writes_sub (hostOps2 (F := Ideal)) W writes_sub hb

end Cert.Sage.StatsStretch

end
-- ==== Proof.KernelPaper.lean ====
/-
  The kernel program's paper result, entry by entry.

  Region 0 leaves the paper activations `r` and, per tile of 4000 nodes, the column sums of `r` and of `r * r`. The
  second host stretch adds the 25 tiles' sums, which is the column sum over all 100000 nodes, and folds the batch
  normalisation into a scale row and a shift row; region 2 returns `r * scale + shift`. Followed boundary by boundary
  through the run, the result buffer's entry (n, d) is the folded normalisation of the activations `actP` of the
  arguments.
-/
import proofs.«116012_j76166950027377_2_alg».proof.Proof.KArgs
import proofs.«116012_j76166950027377_2_alg».proof.Proof.KernelActs
import proofs.«116012_j76166950027377_2_alg».proof.Proof.SpecCongr
import proofs.«116012_j76166950027377_2_alg».proof.Proof.HostReadsPaper
import proofs.«116012_j76166950027377_2_alg».proof.Proof.HostReadsWeights
import proofs.«116012_j76166950027377_2_alg».proof.Proof.HostReadsArgs
import proofs.«116012_j76166950027377_2_alg».proof.Proof.PaperRegion
import proofs.«116012_j76166950027377_2_alg».proof.Proof.NormRegions
import proofs.«116012_j76166950027377_2_alg».proof.Proof.StatsStretch
import proofs.«116012_j76166950027377_2_alg».proof.Proof.LibSumSplit

set_option maxRecDepth 16384

noncomputable section

namespace Cert.Sage.KernelSide

open Cert.KernelIdeal Cert.KernelIdeal.Gen
open Idealize.ShloMosaic Idealize.ShloMosaic.ValueIdx Idealize.ShloMosaic.TcCoe Idealize.SL.Sem
open Cert.Sage.HostAgg Cert.Sage.KernelActs Cert.Sage.KArgs

variable (m : (ℓ : Loc nD τ sig) → Buf (Elt Ideal) ℓ) (ρ : Dev nD → PrngReg) (c : Dev nD)

/-- The paper activations of the arguments. -/
abbrev rP : Fin 100000 → Fin 128 → EReal :=
  actP (xP m c) (xA m c) (cs m c) (cd m c) (ws m c) (wd m c) (WlC m c) (blC m c) (WrC m c) (WlW m c) (blW m c) (WrW m c)

/-- Region 0's activations, at the contents the first host stretch leaves, are the activations of the arguments. -/
theorem act0_eq : PaperRegion.act (V1 m ρ) c = rP m c := by
  have e0 : PaperRegion.a0 (V1 m ρ) c = sumCites (xP m c) (cs m c) (cd m c) := v14_eq m ρ c
  have e1 : PaperRegion.a1 (V1 m ρ) c = invColP (cntCites (cd m c)) := v28_eq m ρ c
  have e2 : PaperRegion.a2 (V1 m ρ) c = sumWrites (xA m c) (ws m c) (wd m c) := v43_eq m ρ c
  have e3 : PaperRegion.a3 (V1 m ρ) c = invColP (cntWrites (wd m c)) := v57_eq m ρ c
  have e4 : PaperRegion.a4 (V1 m ρ) c = xP m c := arg0_eq m ρ c
  have e5 : PaperRegion.a5 (V1 m ρ) c = transpose S128x128 [1, 0] (WlC m c) transposes_S128x128_S128x128_1_0 := v87_eq m ρ c
  have e6 : PaperRegion.a6 (V1 m ρ) c = transpose S128x128 [1, 0] (WlW m c) transposes_S128x128_S128x128_1_0 := v88_eq m ρ c
  have e7 : PaperRegion.a7 (V1 m ρ) c
      = transpose S128x128 [1, 0] (addf (F := Ideal) (s := S128x128) (φ := .f32) (WrC m c) (WrW m c)) transposes_S128x128_S128x128_1_0 :=
    v90_eq m ρ c
  have e8 : PaperRegion.a8 (V1 m ρ) c
      = shapeCast S1x128 (addf (F := Ideal) (s := S128) (φ := .f32) (blC m c) (blW m c)) shapeCasts_S128_S1x128 := v92_eq m ρ c
  funext n d
  exact actPaper_congr (fun n k => congrFun e0 _) (fun n => (congrFun e1 _).trans (invColP_apply _ n))
    (fun n k => congrFun e2 _) (fun n => (congrFun e3 _).trans (invColP_apply _ n)) (fun n k => congrFun e4 _)
    (fun k d => (congrFun e5 _).trans (transpose_apply128 _ k d)) (fun k d => (congrFun e6 _).trans (transpose_apply128 _ k d))
    (fun k d => (congrFun e7 _).trans (transpose_apply128 _ k d)) (fun d => (congrFun e8 _).trans (biasRow_apply _ d)) n d

/-- The 25 tiles' column sums add up to the column sum over all the paper nodes. -/
theorem colsum_eq (d : Fin 128) :
    ∑ t : Fin 25, PaperRegion.G10 (V1 m ρ) c (ix3 t (0 : Fin 1) d) = ∑ n, rP m c n d := by
  show ∑ t : Fin 25, ∑ r : Fin 4000, PaperRegion.act (V1 m ρ) c (Cert.PointDist.tileIdx (by norm_num : 25 * 4000 = 100000) t r) d = _
  rw [act0_eq m ρ c]
  exact (Cert.PointDist.sum_tiles (by norm_num : 25 * 4000 = 100000) (fun n => rP m c n d)).symm

theorem colsumsq_eq (d : Fin 128) :
    ∑ t : Fin 25, PaperRegion.G11 (V1 m ρ) c (ix3 t (0 : Fin 1) d) = ∑ n, rP m c n d * rP m c n d := by
  show ∑ t : Fin 25, ∑ r : Fin 4000, PaperRegion.act (V1 m ρ) c (Cert.PointDist.tileIdx (by norm_num : 25 * 4000 = 100000) t r) d
      * PaperRegion.act (V1 m ρ) c (Cert.PointDist.tileIdx (by norm_num : 25 * 4000 = 100000) t r) d = _
  rw [act0_eq m ρ c]
  exact (Cert.PointDist.sum_tiles (by norm_num : 25 * 4000 = 100000) (fun n => rP m c n d * rP m c n d)).symm

/-! ## The buffers the second host stretch reads, walked back to region 0 and to the launch -/

theorem w3_r : (W3 m ρ c (Proc.devRef .tc main_v96_0) : S100000x128.Idx → EReal) = PaperRegion.G9 (V1 m ρ) c :=
  ((W3_of_ne m ρ c main_v96_0 (by decide)).trans (W2_arr m ρ c 9)).trans (PaperRegion.final9 (V1 m ρ) c)
theorem w3_sum : (W3 m ρ c (Proc.devRef .tc main_v96_1) : S25x1x128.Idx → EReal) = PaperRegion.G10 (V1 m ρ) c :=
  ((W3_of_ne m ρ c main_v96_1 (by decide)).trans (W2_arr m ρ c 10)).trans (PaperRegion.final10 (V1 m ρ) c)
theorem w3_sumsq : (W3 m ρ c (Proc.devRef .tc main_v96_2) : S25x1x128.Idx → EReal) = PaperRegion.G11 (V1 m ρ) c :=
  ((W3_of_ne m ρ c main_v96_2 (by decide)).trans (W2_arr m ρ c 11)).trans (PaperRegion.final11 (V1 m ρ) c)
theorem w3_g : (W3 m ρ c (Proc.devRef .tc main_arg17) : S128.Idx → EReal) = gP m c :=
  ((W3_of_ne m ρ c main_arg17 (by decide)).trans (W2_of_ne m ρ c main_arg17 (by decide))).trans (arg17_eq m ρ c)
theorem w3_b : (W3 m ρ c (Proc.devRef .tc main_arg18) : S128.Idx → EReal) = bP m c :=
  ((W3_of_ne m ρ c main_arg18 (by decide)).trans (W2_of_ne m ρ c main_arg18 (by decide))).trans (arg18_eq m ρ c)

/-! ## The result -/

/-- Entry (n, d) of the paper result buffer at the last boundary. -/
theorem paper_result (n : Fin 100000) (d : Fin 128) :
    (W6 m ρ c (Proc.devRef .tc main_v134) : S100000x128.Idx → EReal) (ix2 n d)
      = normFolded Nf5 eps (rP m c) (fun d => gP m c (ix1 d)) (fun d => bP m c (ix1 d)) n d := by
  have hW : (W6 m ρ c (Proc.devRef .tc main_v134) : S100000x128.Idx → EReal) = (dat2 (F := Ideal) (V4 m ρ) c).arrAt 3 cfg2.N :=
    (W6_of_ne m ρ c main_v134 (by decide)).trans (W5_arr m ρ c 3)
  rw [hW, NormRegions.paper_out (V4 m ρ) c n d]
  -- the three inputs of region 2
  have i0 : NormRegions.paperIn0 (V4 m ρ) c (ix2 n d) = rP m c n d := by
    have : NormRegions.paperIn0 (V4 m ρ) c = PaperRegion.G9 (V1 m ρ) c :=
      (StatsStretch.kept (W3 m ρ c) main_v96_0 (by decide)).trans (w3_r m ρ c)
    rw [this]
    show PaperRegion.act (V1 m ρ) c n d = _
    rw [act0_eq m ρ c]
  have sP : ((fun d => ∑ t : Fin 25, (W3 m ρ c (Proc.devRef .tc main_v96_1) : S25x1x128.Idx → EReal) (ix3 t (0 : Fin 1) d)) : Fin 128 → EReal)
      = fun d => ∑ n, rP m c n d := funext fun d => by rw [w3_sum m ρ c]; exact colsum_eq m ρ c d
  have sQ : ((fun d => ∑ t : Fin 25, (W3 m ρ c (Proc.devRef .tc main_v96_2) : S25x1x128.Idx → EReal) (ix3 t (0 : Fin 1) d)) : Fin 128 → EReal)
      = fun d => ∑ n, rP m c n d * rP m c n d := funext fun d => by rw [w3_sumsq m ρ c]; exact colsumsq_eq m ρ c d
  have i1 : NormRegions.paperIn1 (V4 m ρ) c (ix2 (0 : Fin 1) d)
      = scaleOf Nf5 eps (fun d => ∑ n, rP m c n d) (fun d => ∑ n, rP m c n d * rP m c n d) (fun d => gP m c (ix1 d)) d := by
    rw [← sP, ← sQ, ← w3_g m ρ c]; exact StatsStretch.scale_paper (W3 m ρ c) d
  have i2 : NormRegions.paperIn2 (V4 m ρ) c (ix2 (0 : Fin 1) d)
      = shiftOf Nf5 eps (fun d => ∑ n, rP m c n d) (fun d => ∑ n, rP m c n d * rP m c n d) (fun d => gP m c (ix1 d))
          (fun d => bP m c (ix1 d)) d := by
    rw [← sP, ← sQ, ← w3_g m ρ c, ← w3_b m ρ c]; exact StatsStretch.shift_paper (W3 m ρ c) d
  rw [i0, i1, i2]
  rfl

end Cert.Sage.KernelSide

end
-- ==== Proof.HostReadsAuthor.lean ====
/-
  After the first host stretch the two aggregation buffers of the author nodes hold the neighbour sums and the
  reciprocal in-degree column of the relation that ends at an author.
-/
import proofs.«116012_j76166950027377_2_alg».proof.Proof.HostAgg

set_option maxRecDepth 16384

noncomputable section

namespace Cert.Sage.HostAgg

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local macro "read_stretch" : tactic =>
  `(tactic| (show StableHlo.after hostOps0 (W0 m ρ c) (Proc.devRef .tc _) = _
             dsimp only [hostOps0]
             after_results_simp
             rfl))

theorem v72_eq : (V1 m ρ c main_v72 : S50000x128.Idx → EReal)
    = sumWb (m ((c : Thread nD τ).loc main_arg0)) (m ((c : Thread nD τ).loc main_arg6)) (m ((c : Thread nD τ).loc main_arg7)) := by
  read_stretch

theorem v86_eq : (V1 m ρ c main_v86 : S50000x1.Idx → EReal) = invColA (cntWb (m ((c : Thread nD τ).loc main_arg7))) := by
  read_stretch

end Cert.Sage.HostAgg

end
-- ==== Proof.AuthorRegionPayload.lean ====
/-
  One tile of the author-node update, entry by entry.

  A tile is 5000 consecutive nodes. Its activation block is, at node p of the tile and feature q,
      max (∑ k, (S p k · i p) · A k q  +  ∑ k, x p k · C k q  +  b q) 0,
  the update of Spec.lean (actAuthor) over the tile's 5000 rows: the neighbour sum is scaled by its row's
  reciprocal divisor (a column of height 5000 repeated across the 128 features), the two products contract the 128
  input features, the bias row is repeated down the 5000 rows, and the ReLU is the maximum with 0. Changes of
  float format are the identity on the extended reals, and a product accumulated from zero is the plain sum.

  The tile's two reductions are the column sums of that block and of its entrywise square: at feature q the sum
  over the tile's 5000 rows, kept as a [1, 1, 128] array whose only free coordinate is q.
-/
import proofs.«116012_j76166950027377_2_alg».proof.Proof.Gen.KernelIdeal.Skeleton
import proofs.«116012_j76166950027377_2_alg».proof.Proof.Spec
import proofs.«116012_j76166950027377_2_alg».proof.Proof.LibDotRows
import proofs.«116012_j76166950027377_2_alg».proof.Proof.LibColSum
import proofs.«116012_j76166950027377_2_alg».proof.Proof.LibRowBroadcast
import Idealize.ShloMosaic.Lib.Pipeline.Value
import Idealize.ShloMosaic.Lib.ValueIdx
import Idealize.ShloMosaic.PureOps.Ideal.Laws

noncomputable section

namespace Cert.Sage.AuthorRegion

open Idealize.ShloMosaic Idealize.ShloMosaic.ValueIdx Cert.KernelIdeal Cert.KernelIdeal.Gen Cert.Hand

/-- A column [a, 1] repeated along the second axis to [a, b] reads, at (r, j), the column's entry r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- A [5000, 128] by [128, 128] product accumulated from zero, at (p, q): the sum over the 128 contracted
    features of left (p, k) times right (k, q). -/
theorem matmul_rows (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  dot_rows dot_S5000x128_S128x128_S5000x128_1_0_0_1_n_n S5000x128 S128x128 128

/-- The tile's activation block at (p, q) is the update of the tile's own rows. -/
theorem actBlock_apply (v0 : Vec Ideal S5000x128 .f32) (v2 : Vec Ideal S5000x1 .f32) (v7 : Vec Ideal S5000x128 .f32)
    (v9 v12 : Vec Ideal S128x128 .f32) (v18 : Vec Ideal S1x128 .f32) (p : Fin 5000) (q : Fin 128) :
    Gen.k1_pay1 (F := Ideal) v0 v2 v7 v9 v12 v18 (ix2 p q)
      = Cert.Sage.actAuthor (N := 5000) (fun n k => v0 (ix2 n k)) (fun n => v2 (ix2 n (0 : Fin 1)))
          (fun n k => v7 (ix2 n k)) (fun k d => v9 (ix2 k d)) (fun k d => v12 (ix2 k d))
          (fun d => v18 (ix2 (0 : Fin 1) d)) p q := by
  unfold Gen.k1_pay1 Cert.Sage.actAuthor
  dsimp only
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (Cert.RowBroadcast.broadcastTo_1b_ab_apply _ _ p q)
  refine (addf_apply _ _ (ix2 p q)).trans ?_
  refine congrArg₂ (· + ·) ?_ ((matmul_rows _ _ p q).trans rfl)
  refine (matmul_rows _ _ p q).trans (Finset.sum_congr rfl fun k _ => ?_)
  exact congrArg (· * v9 (ix2 k q)) (congrArg (v0 (ix2 p k) * ·) (broadcastTo_a1_ab_apply _ _ p k))

/-- The tile's column sums at feature q: the sum of the activation block's column q over the tile's 5000 rows. -/
theorem sumBlock_apply (v0 : Vec Ideal S5000x128 .f32) (v2 : Vec Ideal S5000x1 .f32) (v7 : Vec Ideal S5000x128 .f32)
    (v9 v12 : Vec Ideal S128x128 .f32) (v18 : Vec Ideal S1x128 .f32) (q : Fin 128) :
    Gen.k1_pay2 (F := Ideal) v0 v2 v7 v9 v12 v18 (ix3 (0 : Fin 1) (0 : Fin 1) q)
      = ∑ r : Fin 5000, Gen.k1_pay1 (F := Ideal) v0 v2 v7 v9 v12 v18 (ix2 r q) := by
  unfold Gen.k1_pay2
  dsimp only
  refine (shapeCast_apply _ shapeCasts_S1x128_S1x1x128 (ix3 (0 : Fin 1) (0 : Fin 1) q) (ix2 (0 : Fin 1) q) ?_).trans ?_
  · rw [Shape.rowMajor_val_two, Shape.rowMajor_val_three]; rfl
  refine (shapeCast_apply _ shapeCasts_S128_S1x128 (ix2 (0 : Fin 1) q) (ix1 q) ?_).trans ?_
  · rw [Shape.rowMajor_val_one, Shape.rowMajor_val_two]; exact (Nat.zero_add _).symm.trans (congrArg (· + q.val) (Nat.zero_mul _).symm)
  exact Cert.ColSum.multiReduction_add_col (Gen.k1_pay1 (F := Ideal) v0 v2 v7 v9 v12 v18) _ _ _ _ q

/-- The tile's column sums of squares at feature q. -/
theorem sumSqBlock_apply (v0 : Vec Ideal S5000x128 .f32) (v2 : Vec Ideal S5000x1 .f32) (v7 : Vec Ideal S5000x128 .f32)
    (v9 v12 : Vec Ideal S128x128 .f32) (v18 : Vec Ideal S1x128 .f32) (q : Fin 128) :
    Gen.k1_pay3 (F := Ideal) v0 v2 v7 v9 v12 v18 (ix3 (0 : Fin 1) (0 : Fin 1) q)
      = ∑ r : Fin 5000, Gen.k1_pay1 (F := Ideal) v0 v2 v7 v9 v12 v18 (ix2 r q)
          * Gen.k1_pay1 (F := Ideal) v0 v2 v7 v9 v12 v18 (ix2 r q) := by
  unfold Gen.k1_pay3
  dsimp only
  refine (shapeCast_apply _ shapeCasts_S1x128_S1x1x128 (ix3 (0 : Fin 1) (0 : Fin 1) q) (ix2 (0 : Fin 1) q) ?_).trans ?_
  · rw [Shape.rowMajor_val_two, Shape.rowMajor_val_three]; rfl
  refine (shapeCast_apply _ shapeCasts_S128_S1x128 (ix2 (0 : Fin 1) q) (ix1 q) ?_).trans ?_
  · rw [Shape.rowMajor_val_one, Shape.rowMajor_val_two]; exact (Nat.zero_add _).symm.trans (congrArg (· + q.val) (Nat.zero_mul _).symm)
  exact Cert.ColSum.multiReduction_add_col
    (mulf (Gen.k1_pay1 (F := Ideal) v0 v2 v7 v9 v12 v18) (Gen.k1_pay1 (F := Ideal) v0 v2 v7 v9 v12 v18)) _ _ _ _ q

end Cert.Sage.AuthorRegion

end
-- ==== Proof.AuthorRegionBlocks.lean ====
/-
  The author-node region's operands, tile by tile.

  The region walks 10 tiles of 5000 consecutive nodes. At tile t it reads rows 5000 t … 5000 t + 4999 of the
  neighbour sums, of their reciprocal divisors and of the node features, and the two 128 x 128 matrices and the
  bias row whole. So node n = 5000 t + p is row p of tile t (tile), a block read at row p is the array read at
  node n (blk0 … blk2), and the matrices and the bias are read where they stand (blk3 … blk5).

  Since the update of node n uses row n alone of every row-indexed operand, the update of a tile's own rows at
  row p is the update of the whole arrays at node 5000 t + p (act_tile), and that is what the tile's activation
  block holds at row p (blkAct_apply).
-/
import proofs.«116012_j76166950027377_2_alg».proof.Proof.Gen.KernelIdeal.Frame
import proofs.«116012_j76166950027377_2_alg».proof.Proof.AuthorRegionPayload
import proofs.«116012_j76166950027377_2_alg».proof.Proof.LibSumSplit
import Idealize.ShloMosaic.Lib.Pipeline.Value
import Idealize.ShloMosaic.Lib.ValueIdx

noncomputable section

namespace Cert.Sage.AuthorRegion

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## The six operands as the region finds them, as functions of an index -/

/-- The neighbour sums. -/
abbrev a0 : S50000x128.Idx → EReal := V c (Pipeline.arrRef spec1 0)
/-- The reciprocal divisors, one per node. -/
abbrev a1 : S50000x1.Idx → EReal := V c (Pipeline.arrRef spec1 1)
/-- The nodes' own features. -/
abbrev a2 : S50000x128.Idx → EReal := V c (Pipeline.arrRef spec1 2)
/-- The relation's matrix. -/
abbrev a3 : S128x128.Idx → EReal := V c (Pipeline.arrRef spec1 3)
/-- The root matrix. -/
abbrev a4 : S128x128.Idx → EReal := V c (Pipeline.arrRef spec1 4)
/-- The bias row. -/
abbrev a5 : S1x128.Idx → EReal := V c (Pipeline.arrRef spec1 5)

/-- The update of the whole arrays at node n and feature d. -/
abbrev act : Fin 50000 → Fin 128 → EReal :=
  Cert.Sage.actAuthor (fun n k => a0 V c (ix2 n k)) (fun n => a1 V c (ix2 n (0 : Fin 1))) (fun n k => a2 V c (ix2 n k))
    (fun k d => a3 V c (ix2 k d)) (fun k d => a4 V c (ix2 k d)) (fun d => a5 V c (ix2 (0 : Fin 1) d))

/-- Row r of tile t, as a node. -/
abbrev tile (t : Fin cfg1.N) (r : Fin 5000) : Fin 50000 :=
  Cert.PointDist.tileIdx (by norm_num : 10 * 5000 = 50000) (Fin.cast Gen.N_1 t) r

/-- Tile t's sum over its 5000 rows of the update at feature d. -/
abbrev tileSum (t : Fin 10) (d : Fin 128) : EReal :=
  ∑ r : Fin 5000, act V c (Cert.PointDist.tileIdx (by norm_num : 10 * 5000 = 50000) t r) d

/-- Tile t's sum over its 5000 rows of the squared update at feature d. -/
abbrev tileSumSq (t : Fin 10) (d : Fin 128) : EReal :=
  ∑ r : Fin 5000, act V c (Cert.PointDist.tileIdx (by norm_num : 10 * 5000 = 50000) t r) d
    * act V c (Cert.PointDist.tileIdx (by norm_num : 10 * 5000 = 50000) t r) d

/-! ## Which block each window holds at tile t (decided over the 10 tiles) -/

theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = t.val ∧ win1_6.index t (1 : Fin 2) = 0 :=
  (by decide +kernel : ∀ t : Fin grid1.N, _)
theorem idx7 : ∀ t : Fin cfg1.N, win1_7.index t (0 : Fin 3) = t.val ∧ win1_7.index t (1 : Fin 3) = 0 ∧ win1_7.index t (2 : Fin 3) = 0 :=
  (by decide +kernel : ∀ t : Fin grid1.N, _)
theorem idx8 : ∀ t : Fin cfg1.N, win1_8.index t (0 : Fin 3) = t.val ∧ win1_8.index t (1 : Fin 3) = 0 ∧ win1_8.index t (2 : Fin 3) = 0 :=
  (by decide +kernel : ∀ t : Fin grid1.N, _)

/-! ## A block read at a row is the array read at the tile's node -/

theorem blk0 (t : Fin cfg1.N) (r : Fin 5000) (k : Fin 128) :
    (Gen.iblk1 V c 0 t : Vec Ideal S5000x128 .f32) (ix2 r k) = a0 V c (ix2 (tile t r) k) := by
  obtain ⟨e0, e1⟩ := idx0 t
  unfold Gen.iblk1
  show a0 V c (((cfg1.win 0).blk t).view.emb (ix2 r k)) = _
  refine congrArg (a0 V c) (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

theorem blk1 (t : Fin cfg1.N) (r : Fin 5000) :
    (Gen.iblk1 V c 1 t : Vec Ideal S5000x1 .f32) (ix2 r (0 : Fin 1)) = a1 V c (ix2 (tile t r) (0 : Fin 1)) := by
  obtain ⟨e0, e1⟩ := idx1 t
  unfold Gen.iblk1
  show a1 V c (((cfg1.win 1).blk t).view.emb (ix2 r (0 : Fin 1))) = _
  refine congrArg (a1 V c) (funext fun a => Fin.ext ?_)
  match a with
  | ⟨0, _⟩ => show win1_1.index t (0 : Fin 2) * 5000 + 1 * r.val = t.val * 5000 + r.val; rw [e0]; omega
  | ⟨1, _⟩ => show win1_1.index t (1 : Fin 2) * 1 + 1 * 0 = 0; rw [e1]

theorem blk2 (t : Fin cfg1.N) (r : Fin 5000) (k : Fin 128) :
    (Gen.iblk1 V c 2 t : Vec Ideal S5000x128 .f32) (ix2 r k) = a2 V c (ix2 (tile t r) k) := by
  obtain ⟨e0, e1⟩ := idx2 t
  unfold Gen.iblk1
  show a2 V c (((cfg1.win 2).blk t).view.emb (ix2 r k)) = _
  refine congrArg (a2 V c) (funext fun a => Fin.ext ?_)
  match a with
  | ⟨0, _⟩ => show win1_2.index t (0 : Fin 2) * 5000 + 1 * r.val = t.val * 5000 + r.val; rw [e0]; omega
  | ⟨1, _⟩ => show win1_2.index t (1 : Fin 2) * 128 + 1 * k.val = k.val; rw [e1]; omega

theorem blk3 (t : Fin cfg1.N) (k d : Fin 128) :
    (Gen.iblk1 V c 3 t : Vec Ideal S128x128 .f32) (ix2 k d) = a3 V c (ix2 k d) := by
  obtain ⟨e0, e1⟩ := idx3 t
  unfold Gen.iblk1
  show a3 V c (((cfg1.win 3).blk t).view.emb (ix2 k d)) = _
  refine congrArg (a3 V c) (funext fun a => Fin.ext ?_)
  match a with
  | ⟨0, _⟩ => show win1_3.index t (0 : Fin 2) * 128 + 1 * k.val = k.val; rw [e0]; omega
  | ⟨1, _⟩ => show win1_3.index t (1 : Fin 2) * 128 + 1 * d.val = d.val; rw [e1]; omega

theorem blk4 (t : Fin cfg1.N) (k d : Fin 128) :
    (Gen.iblk1 V c 4 t : Vec Ideal S128x128 .f32) (ix2 k d) = a4 V c (ix2 k d) := by
  obtain ⟨e0, e1⟩ := idx4 t
  unfold Gen.iblk1
  show a4 V c (((cfg1.win 4).blk t).view.emb (ix2 k d)) = _
  refine congrArg (a4 V c) (funext fun a => Fin.ext ?_)
  match a with
  | ⟨0, _⟩ => show win1_4.index t (0 : Fin 2) * 128 + 1 * k.val = k.val; rw [e0]; omega
  | ⟨1, _⟩ => show win1_4.index t (1 : Fin 2) * 128 + 1 * d.val = d.val; rw [e1]; omega

theorem blk5 (t : Fin cfg1.N) (d : Fin 128) :
    (Gen.iblk1 V c 5 t : Vec Ideal S1x128 .f32) (ix2 (0 : Fin 1) d) = a5 V c (ix2 (0 : Fin 1) d) := by
  obtain ⟨e0, e1⟩ := idx5 t
  unfold Gen.iblk1
  show a5 V c (((cfg1.win 5).blk t).view.emb (ix2 (0 : Fin 1) d)) = _
  refine congrArg (a5 V c) (funext fun a => Fin.ext ?_)
  match a with
  | ⟨0, _⟩ => show win1_5.index t (0 : Fin 2) * 1 + 1 * 0 = 0; rw [e0]
  | ⟨1, _⟩ => show win1_5.index t (1 : Fin 2) * 128 + 1 * d.val = d.val; rw [e1]; omega

/-! ## The update of a tile's rows is the update of the arrays at the tile's nodes -/

/-- Tile t's activation block. -/
abbrev blkAct (t : Fin cfg1.N) : FVec Ideal S5000x128 .f32 :=
  Gen.k1_pay1 (F := Ideal) (Gen.iblk1 V c 0 t) (Gen.iblk1 V c 1 t) (Gen.iblk1 V c 2 t) (Gen.iblk1 V c 3 t)
    (Gen.iblk1 V c 4 t) (Gen.iblk1 V c 5 t)

/-- Row n alone of each row-indexed operand enters the update of node n, so the update of tile t's own rows at
    row r is the update of the arrays at node 5000 t + r. -/
theorem act_tile (t : Fin cfg1.N) (r : Fin 5000) (q : Fin 128) :
    Cert.Sage.actAuthor (N := 5000)
        (fun n k => (Gen.iblk1 V c 0 t : Vec Ideal S5000x128 .f32) (ix2 n k))
        (fun n => (Gen.iblk1 V c 1 t : Vec Ideal S5000x1 .f32) (ix2 n (0 : Fin 1)))
        (fun n k => (Gen.iblk1 V c 2 t : Vec Ideal S5000x128 .f32) (ix2 n k))
        (fun k d => (Gen.iblk1 V c 3 t : Vec Ideal S128x128 .f32) (ix2 k d))
        (fun k d => (Gen.iblk1 V c 4 t : Vec Ideal S128x128 .f32) (ix2 k d))
        (fun d => (Gen.iblk1 V c 5 t : Vec Ideal S1x128 .f32) (ix2 (0 : Fin 1) d)) r q
      = act V c (tile t r) q := by
  unfold Cert.Sage.actAuthor
  refine congrArg₂ max (congrArg₂ (· + ·) (congrArg₂ (· + ·) ?_ ?_) (blk5 V c t q)) rfl
  · exact Finset.sum_congr rfl fun k _ =>
      congrArg₂ (· * ·) (congrArg₂ (· * ·) (blk0 V c t r k) (blk1 V c t r)) (blk3 V c t k q)
  · exact Finset.sum_congr rfl fun k _ => congrArg₂ (· * ·) (blk2 V c t r k) (blk4 V c t k q)

/-- Tile t's activation block at row p is the update at node 5000 t + p. -/
theorem blkAct_apply (t : Fin cfg1.N) (p : Fin 5000) (q : Fin 128) : blkAct V c t (ix2 p q) = act V c (tile t p) q :=
  (actBlock_apply (Gen.iblk1 V c 0 t) (Gen.iblk1 V c 1 t) (Gen.iblk1 V c 2 t) (Gen.iblk1 V c 3 t)
    (Gen.iblk1 V c 4 t) (Gen.iblk1 V c 5 t) p q).trans (act_tile V c t p q)

end Cert.Sage.AuthorRegion

end
-- ==== Proof.AuthorRegion.lean ====
/-
  The author-node region as values.

  Tile t writes back three things: rows 5000 t … 5000 t + 4999 of the activations, and entry t of the two
  per-tile reductions. The 10 activation blocks are disjoint and fill the 50000 rows, so the activations end as
  the update at every node (act_eq); tile t alone writes entry t of each reduction, the sum over its 5000 rows of
  the activations (sum_eq) and of their squares (sumsq_eq). A node n lies in the block of tile n / 5000.
-/
import proofs.«116012_j76166950027377_2_alg».proof.Proof.AuthorRegionBlocks

noncomputable section

namespace Cert.Sage.AuthorRegion

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## What each tile writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- The activations as one function of the index. -/
abbrev G6 : S50000x128.Idx → EReal := fun i => act V c (i 0) (i 1)
/-- The per-tile sums as one function of the index. -/
abbrev G7 : S10x1x128.Idx → EReal := fun i => tileSum V c (i 0) (i 2)
/-- The per-tile sums of squares as one function of the index. -/
abbrev G8 : S10x1x128.Idx → EReal := fun i => tileSumSq V c (i 0) (i 2)

/-- Tile t writes rows 5000 t … 5000 t + 4999 of the activations. -/
theorem flushed6_eq (t : Fin cfg1.N) :
    (Gen.dat1 V c).flushed 6 t = ((cfg1.win 6).blk t).view.read (Elt Ideal) (G6 V c) := by
  show (cfg1.win 6).cut (grid1.coords t) ((Gen.dat1 V c).after 6 t) = _
  rw [Gen.after1_6]
  unfold Gen.out1_6
  rw [View.canon_unit_zero hz2]
  simp only [View.ld_unit_zero (S := S5000x128) hz2, View.ld_unit_zero (S := S5000x1) hz2,
    View.ld_unit_zero (S := S128x128) hz2, View.ld_unit_zero (S := S1x128) hz2]
  funext j
  obtain ⟨p, q, rfl⟩ : ∃ (p : Fin 5000) (q : Fin 128), j = ix2 p q := ⟨j 0, j 1, eq_ix2 j⟩
  show blkAct V c t (ix2 p q) = G6 V c (((cfg1.win 6).blk t).view.emb (ix2 p q))
  refine (blkAct_apply V c t p q).trans ?_
  obtain ⟨e0, e1⟩ := idx6 t
  refine congrArg₂ (act V c) (Fin.ext ?_) (Fin.ext ?_)
  · show t.val * 5000 + p.val = win1_6.index t (0 : Fin 2) * 5000 + 1 * p.val; rw [e0]; omega
  · show q.val = win1_6.index t (1 : Fin 2) * 128 + 1 * q.val; rw [e1]; omega

/-- Tile t writes entry t of the per-tile sums. -/
theorem flushed7_eq (t : Fin cfg1.N) :
    (Gen.dat1 V c).flushed 7 t = ((cfg1.win 7).blk t).view.read (Elt Ideal) (G7 V c) := by
  show (cfg1.win 7).cut (grid1.coords t) ((Gen.dat1 V c).after 7 t) = _
  rw [Gen.after1_7]
  unfold Gen.out1_7
  rw [View.canon_unit_zero hz3]
  simp only [View.ld_unit_zero (S := S5000x128) hz2, View.ld_unit_zero (S := S5000x1) hz2,
    View.ld_unit_zero (S := S128x128) hz2, View.ld_unit_zero (S := S1x128) hz2]
  funext j
  obtain ⟨u, w, q, rfl⟩ : ∃ (u w : Fin 1) (q : Fin 128), j = ix3 u w q := ⟨j 0, j 1, j 2, eq_ix3 j⟩
  obtain rfl : u = 0 := Subsingleton.elim _ _
  obtain rfl : w = 0 := Subsingleton.elim _ _
  show Gen.k1_pay2 (F := Ideal) (Gen.iblk1 V c 0 t) (Gen.iblk1 V c 1 t) (Gen.iblk1 V c 2 t) (Gen.iblk1 V c 3 t)
        (Gen.iblk1 V c 4 t) (Gen.iblk1 V c 5 t) (ix3 (0 : Fin 1) (0 : Fin 1) q)
      = G7 V c (((cfg1.win 7).blk t).view.emb (ix3 (0 : Fin 1) (0 : Fin 1) q))
  refine (sumBlock_apply (Gen.iblk1 V c 0 t) (Gen.iblk1 V c 1 t) (Gen.iblk1 V c 2 t) (Gen.iblk1 V c 3 t)
    (Gen.iblk1 V c 4 t) (Gen.iblk1 V c 5 t) q).trans ?_
  refine (Finset.sum_congr rfl fun r _ => blkAct_apply V c t r q).trans ?_
  obtain ⟨e0, e1, e2⟩ := idx7 t
  refine congrArg₂ (tileSum V c) (Fin.ext ?_) (Fin.ext ?_)
  · show t.val = win1_7.index t (0 : Fin 3) * 1 + 1 * 0; rw [e0]; omega
  · show q.val = win1_7.index t (2 : Fin 3) * 128 + 1 * q.val; rw [e2]; omega

/-- Tile t writes entry t of the per-tile sums of squares. -/
theorem flushed8_eq (t : Fin cfg1.N) :
    (Gen.dat1 V c).flushed 8 t = ((cfg1.win 8).blk t).view.read (Elt Ideal) (G8 V c) := by
  show (cfg1.win 8).cut (grid1.coords t) ((Gen.dat1 V c).after 8 t) = _
  rw [Gen.after1_8]
  unfold Gen.out1_8
  rw [View.canon_unit_zero hz3]
  simp only [View.ld_unit_zero (S := S5000x128) hz2, View.ld_unit_zero (S := S5000x1) hz2,
    View.ld_unit_zero (S := S128x128) hz2, View.ld_unit_zero (S := S1x128) hz2]
  funext j
  obtain ⟨u, w, q, rfl⟩ : ∃ (u w : Fin 1) (q : Fin 128), j = ix3 u w q := ⟨j 0, j 1, j 2, eq_ix3 j⟩
  obtain rfl : u = 0 := Subsingleton.elim _ _
  obtain rfl : w = 0 := Subsingleton.elim _ _
  show Gen.k1_pay3 (F := Ideal) (Gen.iblk1 V c 0 t) (Gen.iblk1 V c 1 t) (Gen.iblk1 V c 2 t) (Gen.iblk1 V c 3 t)
        (Gen.iblk1 V c 4 t) (Gen.iblk1 V c 5 t) (ix3 (0 : Fin 1) (0 : Fin 1) q)
      = G8 V c (((cfg1.win 8).blk t).view.emb (ix3 (0 : Fin 1) (0 : Fin 1) q))
  refine (sumSqBlock_apply (Gen.iblk1 V c 0 t) (Gen.iblk1 V c 1 t) (Gen.iblk1 V c 2 t) (Gen.iblk1 V c 3 t)
    (Gen.iblk1 V c 4 t) (Gen.iblk1 V c 5 t) q).trans ?_
  refine (Finset.sum_congr rfl fun r _ => congrArg₂ (· * ·) (blkAct_apply V c t r q) (blkAct_apply V c t r q)).trans ?_
  obtain ⟨e0, e1, e2⟩ := idx8 t
  refine congrArg₂ (tileSumSq V c) (Fin.ext ?_) (Fin.ext ?_)
  · show t.val = win1_8.index t (0 : Fin 3) * 1 + 1 * 0; rw [e0]; omega
  · show q.val = win1_8.index t (2 : Fin 3) * 128 + 1 * q.val; rw [e2]; omega

/-! ## The blocks fill the arrays -/

theorem mem_blk6 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v97_0).slice (win1_6.rect t)).set ↔ _
  rw [View.set_slice_whole, Rect.mem_set_unit]
  exact Iff.rfl

theorem mem_blk7 (t : Fin cfg1.N) (i : S10x1x128.Idx) :
    i ∈ ((cfg1.win 7).blk t).view.set ↔ ∀ a : Fin 3, win1_7.index t a * S1x1x128.size a ≤ (i a).val
      ∧ (i a).val < win1_7.index t a * S1x1x128.size a + S1x1x128.size a := by
  show i ∈ ((View.whole main_v97_1).slice (win1_7.rect t)).set ↔ _
  rw [View.set_slice_whole, Rect.mem_set_unit]
  exact Iff.rfl

theorem mem_blk8 (t : Fin cfg1.N) (i : S10x1x128.Idx) :
    i ∈ ((cfg1.win 8).blk t).view.set ↔ ∀ a : Fin 3, win1_8.index t a * S1x1x128.size a ≤ (i a).val
      ∧ (i a).val < win1_8.index t a * S1x1x128.size a + S1x1x128.size a := by
  show i ∈ ((View.whole main_v97_2).slice (win1_8.rect t)).set ↔ _
  rw [View.set_slice_whole, Rect.mem_set_unit]
  exact Iff.rfl

/-- Node n lies in the block of tile n / 5000. -/
theorem cover6 (i : S50000x128.Idx) :
    ∃ t : Fin cfg1.N, (cfg1.win 6).flush t = true ∧ i ∈ ((cfg1.win 6).blk t).view.set := by
  have hN : cfg1.N = 10 := Gen.N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨e0, e1⟩ := idx6 t
  refine ⟨t, Gen.flush1_6 t, (mem_blk6 t i).2 fun a => ?_⟩
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- Entry t of the per-tile sums lies in tile t's block. -/
theorem cover7 (i : S10x1x128.Idx) :
    ∃ t : Fin cfg1.N, (cfg1.win 7).flush t = true ∧ i ∈ ((cfg1.win 7).blk t).view.set := by
  have hN : cfg1.N = 10 := Gen.N_1
  have hi0 : (i 0).val < 10 := (i 0).isLt
  have hi1 : (i 1).val < 1 := (i 1).isLt
  have hi2 : (i 2).val < 128 := (i 2).isLt
  obtain ⟨t, ht⟩ : ∃ t : Fin cfg1.N, t.val = (i 0).val := ⟨⟨(i 0).val, by rw [hN]; exact hi0⟩, rfl⟩
  obtain ⟨e0, e1, e2⟩ := idx7 t
  refine ⟨t, Gen.flush1_7 t, (mem_blk7 t i).2 fun a => ?_⟩
  match a with
  | ⟨0, _⟩ =>
    show win1_7.index t (0 : Fin 3) * 1 ≤ (i 0).val ∧ (i 0).val < win1_7.index t (0 : Fin 3) * 1 + 1
    rw [e0, ht]; omega
  | ⟨1, _⟩ =>
    show win1_7.index t (1 : Fin 3) * 1 ≤ (i 1).val ∧ (i 1).val < win1_7.index t (1 : Fin 3) * 1 + 1
    rw [e1]; omega
  | ⟨2, _⟩ =>
    show win1_7.index t (2 : Fin 3) * 128 ≤ (i 2).val ∧ (i 2).val < win1_7.index t (2 : Fin 3) * 128 + 128
    rw [e2]; omega

/-- Entry t of the per-tile sums of squares lies in tile t's block. -/
theorem cover8 (i : S10x1x128.Idx) :
    ∃ t : Fin cfg1.N, (cfg1.win 8).flush t = true ∧ i ∈ ((cfg1.win 8).blk t).view.set := by
  have hN : cfg1.N = 10 := Gen.N_1
  have hi0 : (i 0).val < 10 := (i 0).isLt
  have hi1 : (i 1).val < 1 := (i 1).isLt
  have hi2 : (i 2).val < 128 := (i 2).isLt
  obtain ⟨t, ht⟩ : ∃ t : Fin cfg1.N, t.val = (i 0).val := ⟨⟨(i 0).val, by rw [hN]; exact hi0⟩, rfl⟩
  obtain ⟨e0, e1, e2⟩ := idx8 t
  refine ⟨t, Gen.flush1_8 t, (mem_blk8 t i).2 fun a => ?_⟩
  match a with
  | ⟨0, _⟩ =>
    show win1_8.index t (0 : Fin 3) * 1 ≤ (i 0).val ∧ (i 0).val < win1_8.index t (0 : Fin 3) * 1 + 1
    rw [e0, ht]; omega
  | ⟨1, _⟩ =>
    show win1_8.index t (1 : Fin 3) * 1 ≤ (i 1).val ∧ (i 1).val < win1_8.index t (1 : Fin 3) * 1 + 1
    rw [e1]; omega
  | ⟨2, _⟩ =>
    show win1_8.index t (2 : Fin 3) * 128 ≤ (i 2).val ∧ (i 2).val < win1_8.index t (2 : Fin 3) * 128 + 128
    rw [e2]; omega

/-! ## The three arrays after the region -/

theorem final6 : (Gen.dat1 V c).arrAt 6 cfg1.N = G6 V c :=
  (Gen.dat1 V c).arrAt_eq_of_cover 6 (G6 V c) (fun t _ => flushed6_eq V c t) (cover6)

theorem final7 : (Gen.dat1 V c).arrAt 7 cfg1.N = G7 V c :=
  (Gen.dat1 V c).arrAt_eq_of_cover 7 (G7 V c) (fun t _ => flushed7_eq V c t) (cover7)

theorem final8 : (Gen.dat1 V c).arrAt 8 cfg1.N = G8 V c :=
  (Gen.dat1 V c).arrAt_eq_of_cover 8 (G8 V c) (fun t _ => flushed8_eq V c t) (cover8)

/-- The activations end as the update at every node. -/
theorem act_eq (n : Fin 50000) (d : Fin 128) :
    ((Gen.dat1 (F := Ideal) V c).arrAt 6 cfg1.N : S50000x128.Idx → EReal) (ix2 n d) = act V c n d :=
  congrFun (final6 V c) (ix2 n d)

/-- Entry t of the per-tile sums ends as the sum of the update over tile t's 5000 nodes. -/
theorem sum_eq (t : Fin 10) (d : Fin 128) :
    ((Gen.dat1 (F := Ideal) V c).arrAt 7 cfg1.N : S10x1x128.Idx → EReal) (ix3 t (0 : Fin 1) d)
      = ∑ i : Fin 5000, act V c (Cert.PointDist.tileIdx (by norm_num : 10 * 5000 = 50000) t i) d :=
  congrFun (final7 V c) (ix3 t (0 : Fin 1) d)

/-- Entry t of the per-tile sums of squares ends as the sum of the squared update over tile t's 5000 nodes. -/
theorem sumsq_eq (t : Fin 10) (d : Fin 128) :
    ((Gen.dat1 (F := Ideal) V c).arrAt 8 cfg1.N : S10x1x128.Idx → EReal) (ix3 t (0 : Fin 1) d)
      = ∑ i : Fin 5000, act V c (Cert.PointDist.tileIdx (by norm_num : 10 * 5000 = 50000) t i) d
          * act V c (Cert.PointDist.tileIdx (by norm_num : 10 * 5000 = 50000) t i) d :=
  congrFun (final8 V c) (ix3 t (0 : Fin 1) d)

end Cert.Sage.AuthorRegion

end
-- ==== Proof.KernelAuthor.lean ====
/-
  The kernel program's author result, entry by entry.

  Region 1 leaves the author activations `r` and, per tile of 5000 nodes, the column sums of `r` and of `r * r`; it runs
  after region 0, which touches none of its inputs. The second host stretch adds the 10 tiles' sums, which is the column
  sum over all 50000 nodes, and folds the batch normalisation into a scale row and a shift row; region 3, after region 2,
  returns `r * scale + shift`. Followed boundary by boundary through the run, the result buffer's entry (n, d) is the
  folded normalisation of the activations `actA` of the arguments.
-/
import proofs.«116012_j76166950027377_2_alg».proof.Proof.KArgs
import proofs.«116012_j76166950027377_2_alg».proof.Proof.KernelActs
import proofs.«116012_j76166950027377_2_alg».proof.Proof.SpecCongr
import proofs.«116012_j76166950027377_2_alg».proof.Proof.HostReadsAuthor
import proofs.«116012_j76166950027377_2_alg».proof.Proof.HostReadsWeights
import proofs.«116012_j76166950027377_2_alg».proof.Proof.HostReadsArgs
import proofs.«116012_j76166950027377_2_alg».proof.Proof.AuthorRegion
import proofs.«116012_j76166950027377_2_alg».proof.Proof.NormRegions
import proofs.«116012_j76166950027377_2_alg».proof.Proof.StatsStretch
import proofs.«116012_j76166950027377_2_alg».proof.Proof.LibSumSplit

set_option maxRecDepth 16384

noncomputable section

namespace Cert.Sage.KernelSide

open Cert.KernelIdeal Cert.KernelIdeal.Gen
open Idealize.ShloMosaic Idealize.ShloMosaic.ValueIdx Idealize.ShloMosaic.TcCoe Idealize.SL.Sem
open Cert.Sage.HostAgg Cert.Sage.KernelActs Cert.Sage.KArgs Idealize.ShloMosaic.StableHlo

variable (m : (ℓ : Loc nD τ sig) → Buf (Elt Ideal) ℓ) (ρ : Dev nD → PrngReg) (c : Dev nD)

/-- The author activations of the arguments. -/
abbrev rA : Fin 50000 → Fin 128 → EReal := actA (xP m c) (xA m c) (bs m c) (bd m c) (WlB m c) (blB m c) (WrB m c)

/-- Region 1's activations, at the contents it finds (the first host stretch's, region 0 having written none of them),
    are the activations of the arguments. -/
theorem act1_eq : AuthorRegion.act (V2 m ρ) c = rA m c := by
  have e0 : AuthorRegion.a0 (V2 m ρ) c = sumWb (xP m c) (bs m c) (bd m c) :=
    (W2_of_ne m ρ c main_v72 (by decide)).trans (v72_eq m ρ c)
  have e1 : AuthorRegion.a1 (V2 m ρ) c = invColA (cntWb (bd m c)) := (W2_of_ne m ρ c main_v86 (by decide)).trans (v86_eq m ρ c)
  have e2 : AuthorRegion.a2 (V2 m ρ) c = xA m c := (W2_of_ne m ρ c main_arg1 (by decide)).trans (arg1_eq m ρ c)
  have e3 : AuthorRegion.a3 (V2 m ρ) c = transpose S128x128 [1, 0] (WlB m c) transposes_S128x128_S128x128_1_0 :=
    (W2_of_ne m ρ c main_v93 (by decide)).trans (v93_eq m ρ c)
  have e4 : AuthorRegion.a4 (V2 m ρ) c = transpose S128x128 [1, 0] (WrB m c) transposes_S128x128_S128x128_1_0 :=
    (W2_of_ne m ρ c main_v94 (by decide)).trans (v94_eq m ρ c)
  have e5 : AuthorRegion.a5 (V2 m ρ) c = shapeCast S1x128 (blB m c) shapeCasts_S128_S1x128 :=
    (W2_of_ne m ρ c main_v95 (by decide)).trans (v95_eq m ρ c)
  funext n d
  exact actAuthor_congr (fun n k => congrFun e0 _) (fun n => (congrFun e1 _).trans (invColA_apply _ n)) (fun n k => congrFun e2 _)
    (fun k d => (congrFun e3 _).trans (transpose_apply128 _ k d)) (fun k d => (congrFun e4 _).trans (transpose_apply128 _ k d))
    (fun d => (congrFun e5 _).trans (biasRow_apply _ d)) n d

/-- The 10 tiles' column sums add up to the column sum over all the author nodes. -/
theorem colsumA_eq (d : Fin 128) :
    ∑ t : Fin 10, AuthorRegion.G7 (V2 m ρ) c (ix3 t (0 : Fin 1) d) = ∑ n, rA m c n d := by
  show ∑ t : Fin 10, ∑ r : Fin 5000, AuthorRegion.act (V2 m ρ) c (Cert.PointDist.tileIdx (by norm_num : 10 * 5000 = 50000) t r) d = _
  rw [act1_eq m ρ c]
  exact (Cert.PointDist.sum_tiles (by norm_num : 10 * 5000 = 50000) (fun n => rA m c n d)).symm

theorem colsumsqA_eq (d : Fin 128) :
    ∑ t : Fin 10, AuthorRegion.G8 (V2 m ρ) c (ix3 t (0 : Fin 1) d) = ∑ n, rA m c n d * rA m c n d := by
  show ∑ t : Fin 10, ∑ r : Fin 5000, AuthorRegion.act (V2 m ρ) c (Cert.PointDist.tileIdx (by norm_num : 10 * 5000 = 50000) t r) d
      * AuthorRegion.act (V2 m ρ) c (Cert.PointDist.tileIdx (by norm_num : 10 * 5000 = 50000) t r) d = _
  rw [act1_eq m ρ c]
  exact (Cert.PointDist.sum_tiles (by norm_num : 10 * 5000 = 50000) (fun n => rA m c n d * rA m c n d)).symm

/-! ## The buffers the second host stretch reads, walked back to region 1 and to the launch -/

theorem w3_rA : (W3 m ρ c (Proc.devRef .tc main_v97_0) : S50000x128.Idx → EReal) = AuthorRegion.G6 (V2 m ρ) c :=
  (W3_arr m ρ c 6).trans (AuthorRegion.final6 (V2 m ρ) c)
theorem w3_sumA : (W3 m ρ c (Proc.devRef .tc main_v97_1) : S10x1x128.Idx → EReal) = AuthorRegion.G7 (V2 m ρ) c :=
  (W3_arr m ρ c 7).trans (AuthorRegion.final7 (V2 m ρ) c)
theorem w3_sumsqA : (W3 m ρ c (Proc.devRef .tc main_v97_2) : S10x1x128.Idx → EReal) = AuthorRegion.G8 (V2 m ρ) c :=
  (W3_arr m ρ c 8).trans (AuthorRegion.final8 (V2 m ρ) c)
theorem w3_gA : (W3 m ρ c (Proc.devRef .tc main_arg19) : S128.Idx → EReal) = gA m c :=
  ((W3_of_ne m ρ c main_arg19 (by decide)).trans (W2_of_ne m ρ c main_arg19 (by decide))).trans (arg19_eq m ρ c)
theorem w3_bA : (W3 m ρ c (Proc.devRef .tc main_arg20) : S128.Idx → EReal) = bA m c :=
  ((W3_of_ne m ρ c main_arg20 (by decide)).trans (W2_of_ne m ρ c main_arg20 (by decide))).trans (arg20_eq m ρ c)

/-! ## The result -/

/-- Entry (n, d) of the author result buffer at the last boundary. -/
theorem author_result (n : Fin 50000) (d : Fin 128) :
    (W6 m ρ c (Proc.devRef .tc main_v135) : S50000x128.Idx → EReal) (ix2 n d)
      = normFolded Nf4 eps (rA m c) (fun d => gA m c (ix1 d)) (fun d => bA m c (ix1 d)) n d := by
  have hW : (W6 m ρ c (Proc.devRef .tc main_v135) : S50000x128.Idx → EReal) = (dat3 (F := Ideal) (V5 m ρ) c).arrAt 3 cfg3.N :=
    W6_arr m ρ c 3
  rw [hW, NormRegions.author_out (V5 m ρ) c n d]
  have i0 : NormRegions.authorIn0 (V5 m ρ) c (ix2 n d) = rA m c n d := by
    have : NormRegions.authorIn0 (V5 m ρ) c = AuthorRegion.G6 (V2 m ρ) c :=
      ((W5_of_ne m ρ c main_v97_0 (by decide)).trans (StatsStretch.kept (W3 m ρ c) main_v97_0 (by decide))).trans (w3_rA m ρ c)
    rw [this]
    show AuthorRegion.act (V2 m ρ) c n d = _
    rw [act1_eq m ρ c]
  have sP : ((fun d => ∑ t : Fin 10, (W3 m ρ c (Proc.devRef .tc main_v97_1) : S10x1x128.Idx → EReal) (ix3 t (0 : Fin 1) d)) : Fin 128 → EReal)
      = fun d => ∑ n, rA m c n d := funext fun d => by rw [w3_sumA m ρ c]; exact colsumA_eq m ρ c d
  have sQ : ((fun d => ∑ t : Fin 10, (W3 m ρ c (Proc.devRef .tc main_v97_2) : S10x1x128.Idx → EReal) (ix3 t (0 : Fin 1) d)) : Fin 128 → EReal)
      = fun d => ∑ n, rA m c n d * rA m c n d := funext fun d => by rw [w3_sumsqA m ρ c]; exact colsumsqA_eq m ρ c d
  have i1 : NormRegions.authorIn1 (V5 m ρ) c (ix2 (0 : Fin 1) d)
      = scaleOf Nf4 eps (fun d => ∑ n, rA m c n d) (fun d => ∑ n, rA m c n d * rA m c n d) (fun d => gA m c (ix1 d)) d := by
    have : NormRegions.authorIn1 (V5 m ρ) c = (StableHlo.after hostOps2 (W3 m ρ c) (Proc.devRef .tc main_v130) : S1x128.Idx → EReal) :=
      W5_of_ne m ρ c main_v130 (by decide)
    rw [this, ← sP, ← sQ, ← w3_gA m ρ c]; exact StatsStretch.scale_author (W3 m ρ c) d
  have i2 : NormRegions.authorIn2 (V5 m ρ) c (ix2 (0 : Fin 1) d)
      = shiftOf Nf4 eps (fun d => ∑ n, rA m c n d) (fun d => ∑ n, rA m c n d * rA m c n d) (fun d => gA m c (ix1 d))
          (fun d => bA m c (ix1 d)) d := by
    have : NormRegions.authorIn2 (V5 m ρ) c = (StableHlo.after hostOps2 (W3 m ρ c) (Proc.devRef .tc main_v133) : S1x128.Idx → EReal) :=
      W5_of_ne m ρ c main_v133 (by decide)
    rw [this, ← sP, ← sQ, ← w3_gA m ρ c, ← w3_bA m ρ c]; exact StatsStretch.shift_author (W3 m ρ c) d
  rw [i0, i1, i2]
  rfl

end Cert.Sage.KernelSide

end
-- ==== Proof.RefWords.lean ====
/-
  The float words the reference program's arithmetic names, as extended reals. They are never evaluated: the same
  word stands on both sides of every equation that mentions one.
-/
import Idealize.ShloMosaic.PureOps.Ideal

noncomputable section

namespace Cert.Sage.RefSide

open Idealize.ShloMosaic

/-- The word of the float 1, the lower bound of every divisor. -/
abbrev one : EReal := Ideal.ofBits .f32 0x3F800000#32

/-- The word of the float 100000, the number of paper nodes. -/
abbrev Nf5 : EReal := Ideal.ofBits .f32 0x47C35000#32

/-- The word of the float 50000, the number of author nodes. -/
abbrev Nf4 : EReal := Ideal.ofBits .f32 0x47435000#32

/-- The word of the float nearest 1e-5, added to the variance. -/
abbrev eps : EReal := Ideal.ofBits .f32 0x3727C5AC#32

end Cert.Sage.RefSide

end
-- ==== Proof.RefPaper.lean ====
/-
  The reference program's update of the paper nodes, read entry by entry.

  For a paper node n and an output feature d the reference adds two relations' terms. For one relation it divides
  the neighbour sum S (n, k) by the divisor max (count n) 1, contracts the quotient over the input feature k with the
  transposed weight, that is with W (d, k), adds the bias at d, and adds the node's own features contracted with the
  transposed root weight. The sum of the two relations' terms is cut off below at 0. The neighbour sums and the
  counts are the program's own scatter stages and are left as they stand.
-/
import proofs.«116012_j76166950027377_2_alg».proof.Proof.Gen.ReferenceIdeal.Read
import proofs.«116012_j76166950027377_2_alg».proof.Proof.Spec
import proofs.«116012_j76166950027377_2_alg».proof.Proof.RefWords

noncomputable section

namespace Cert.Sage.RefSide

open Cert.ReferenceIdeal Cert.ReferenceIdeal.Read Idealize.ShloMosaic Idealize.ShloMosaic.ValueIdx

variable (x_paper : (⟨S100000x128, .f32⟩ : BufTy).Contents (Elt Ideal)) (x_author : (⟨S50000x128, .f32⟩ : BufTy).Contents (Elt Ideal))
  (cites_src cites_dst : (⟨S800000, .i32⟩ : BufTy).Contents (Elt Ideal)) (writes_src writes_dst : (⟨S500000, .i32⟩ : BufTy).Contents (Elt Ideal))
  (Wl_cites : (⟨S128x128, .f32⟩ : BufTy).Contents (Elt Ideal)) (bl_cites : (⟨S128, .f32⟩ : BufTy).Contents (Elt Ideal)) (Wr_cites Wl_writes : (⟨S128x128, .f32⟩ : BufTy).Contents (Elt Ideal))
  (bl_writes : (⟨S128, .f32⟩ : BufTy).Contents (Elt Ideal)) (Wr_writes : (⟨S128x128, .f32⟩ : BufTy).Contents (Elt Ideal))

/-! ### The relation `cites` -/

/-- The entry (n, k) of the divisor, a length-100000 vector laid along the rows, is the divisor of node n. -/
theorem divisor_idx_cites (n : Fin 100000) (k : Fin 128) : idx_main_v16 (idx_main_v17 (ix2 n k)) = ix1 n :=
  funext fun a => match a with | ⟨0, _⟩ => rfl

/-- The entry (n, d) of the bias, a length-128 vector laid along the columns, is the bias of feature d. -/
theorem bias_idx_cites (n : Fin 100000) (d : Fin 128) : idx_main_v21 (idx_main_v22 (ix2 n d)) = ix1 d :=
  funext fun a => match a with | ⟨0, _⟩ => rfl

/-- The contraction for the entry (n, d) reads its left operand at (n, k). -/
theorem left_idx_cites (n : Fin 100000) (d k : Fin 128) : lidx_main_v20 (ix2 n d) k = ix2 n k :=
  funext fun a => match a with | ⟨0, _⟩ => rfl | ⟨1, _⟩ => rfl

/-- The contraction for the entry (n, d) reads the transposed weight at (k, d), that is the weight at (d, k). -/
theorem right_idx_cites (n : Fin 100000) (d k : Fin 128) : idx_main_v19 (ridx_main_v20 (ix2 n d) k) = ix2 d k :=
  funext fun a => match a with | ⟨0, _⟩ => rfl | ⟨1, _⟩ => rfl

theorem self_left_idx_cites (n : Fin 100000) (d k : Fin 128) : lidx_main_v25 (ix2 n d) k = ix2 n k :=
  funext fun a => match a with | ⟨0, _⟩ => rfl | ⟨1, _⟩ => rfl

theorem self_right_idx_cites (n : Fin 100000) (d k : Fin 128) : idx_main_v24 (ridx_main_v25 (ix2 n d) k) = ix2 d k :=
  funext fun a => match a with | ⟨0, _⟩ => rfl | ⟨1, _⟩ => rfl

/-- The neighbour mean through its matrix: the neighbour sum at (n, k) over the divisor of n, times the weight at (d, k),
    summed over the input feature k. -/
theorem mean_dot_cites (n : Fin 100000) (d : Fin 128) :
    val_main_v20 (F := Ideal) x_paper cites_src cites_dst Wl_cites (ix2 n d)
      = ∑ k : Fin 128, Ideal.div (val_main_v9 (F := Ideal) x_paper cites_src cites_dst (ix2 n k)) (max (val_main_v13 (F := Ideal) cites_dst (ix1 n)) one)
          * Wl_cites (ix2 d k) := by
  rw [val_main_v20_apply]
  refine Finset.sum_congr rfl fun k _ => ?_
  rw [left_idx_cites, val_main_v18_apply, val_main_v17_apply, val_main_v16_apply, val_main_v15_apply, val_main_v14_apply,
    val_main_cst_3_apply, val_main_v19_apply, divisor_idx_cites, right_idx_cites]
  rfl

/-- The bias at (n, d) is the bias of feature d. -/
theorem bias_cites (n : Fin 100000) (d : Fin 128) : val_main_v22 (F := Ideal) bl_cites (ix2 n d) = bl_cites (ix1 d) := by
  rw [val_main_v22_apply, val_main_v21_apply, bias_idx_cites]

/-- The node's own features through the root matrix. -/
theorem self_dot_cites (n : Fin 100000) (d : Fin 128) :
    val_main_v25 (F := Ideal) x_paper Wr_cites (ix2 n d) = ∑ k : Fin 128, x_paper (ix2 n k) * Wr_cites (ix2 d k) := by
  rw [val_main_v25_apply]
  refine Finset.sum_congr rfl fun k _ => ?_
  rw [self_left_idx_cites, val_main_v24_apply, self_right_idx_cites]

/-! ### The relation `writes` -/

/-- The entry (n, k) of the divisor, a length-100000 vector laid along the rows, is the divisor of node n. -/
theorem divisor_idx_writes (n : Fin 100000) (k : Fin 128) : idx_main_v43 (idx_main_v44 (ix2 n k)) = ix1 n :=
  funext fun a => match a with | ⟨0, _⟩ => rfl

/-- The entry (n, d) of the bias, a length-128 vector laid along the columns, is the bias of feature d. -/
theorem bias_idx_writes (n : Fin 100000) (d : Fin 128) : idx_main_v48 (idx_main_v49 (ix2 n d)) = ix1 d :=
  funext fun a => match a with | ⟨0, _⟩ => rfl

/-- The contraction for the entry (n, d) reads its left operand at (n, k). -/
theorem left_idx_writes (n : Fin 100000) (d k : Fin 128) : lidx_main_v47 (ix2 n d) k = ix2 n k :=
  funext fun a => match a with | ⟨0, _⟩ => rfl | ⟨1, _⟩ => rfl

/-- The contraction for the entry (n, d) reads the transposed weight at (k, d), that is the weight at (d, k). -/
theorem right_idx_writes (n : Fin 100000) (d k : Fin 128) : idx_main_v46 (ridx_main_v47 (ix2 n d) k) = ix2 d k :=
  funext fun a => match a with | ⟨0, _⟩ => rfl | ⟨1, _⟩ => rfl

theorem self_left_idx_writes (n : Fin 100000) (d k : Fin 128) : lidx_main_v52 (ix2 n d) k = ix2 n k :=
  funext fun a => match a with | ⟨0, _⟩ => rfl | ⟨1, _⟩ => rfl

theorem self_right_idx_writes (n : Fin 100000) (d k : Fin 128) : idx_main_v51 (ridx_main_v52 (ix2 n d) k) = ix2 d k :=
  funext fun a => match a with | ⟨0, _⟩ => rfl | ⟨1, _⟩ => rfl

/-- The neighbour mean through its matrix: the neighbour sum at (n, k) over the divisor of n, times the weight at (d, k),
    summed over the input feature k. -/
theorem mean_dot_writes (n : Fin 100000) (d : Fin 128) :
    val_main_v47 (F := Ideal) x_author writes_src writes_dst Wl_writes (ix2 n d)
      = ∑ k : Fin 128, Ideal.div (val_main_v36 (F := Ideal) x_author writes_src writes_dst (ix2 n k)) (max (val_main_v40 (F := Ideal) writes_dst (ix1 n)) one)
          * Wl_writes (ix2 d k) := by
  rw [val_main_v47_apply]
  refine Finset.sum_congr rfl fun k _ => ?_
  rw [left_idx_writes, val_main_v45_apply, val_main_v44_apply, val_main_v43_apply, val_main_v42_apply, val_main_v41_apply,
    val_main_cst_9_apply, val_main_v46_apply, divisor_idx_writes, right_idx_writes]
  rfl

/-- The bias at (n, d) is the bias of feature d. -/
theorem bias_writes (n : Fin 100000) (d : Fin 128) : val_main_v49 (F := Ideal) bl_writes (ix2 n d) = bl_writes (ix1 d) := by
  rw [val_main_v49_apply, val_main_v48_apply, bias_idx_writes]

/-- The node's own features through the root matrix. -/
theorem self_dot_writes (n : Fin 100000) (d : Fin 128) :
    val_main_v52 (F := Ideal) x_paper Wr_writes (ix2 n d) = ∑ k : Fin 128, x_paper (ix2 n k) * Wr_writes (ix2 d k) := by
  rw [val_main_v52_apply]
  refine Finset.sum_congr rfl fun k _ => ?_
  rw [self_left_idx_writes, val_main_v51_apply, self_right_idx_writes]

/-- The activation of the paper nodes at (n, d): both relations' terms, each the neighbour mean through its matrix plus
    its bias plus the node's own features through its root matrix, added and cut off below at 0. -/
theorem paper_act (n : Fin 100000) (d : Fin 128) :
    val_main_v82 (F := Ideal) x_paper x_author cites_src cites_dst writes_src writes_dst Wl_cites bl_cites Wr_cites Wl_writes bl_writes Wr_writes (ix2 n d)
      = Cert.Sage.actPaperSplit (N := 100000)
          (fun n k => val_main_v9 (F := Ideal) x_paper cites_src cites_dst (ix2 n k))
          (fun n => max (val_main_v13 (F := Ideal) cites_dst (ix1 n) : EReal) one)
          (fun n k => val_main_v36 (F := Ideal) x_author writes_src writes_dst (ix2 n k))
          (fun n => max (val_main_v40 (F := Ideal) writes_dst (ix1 n) : EReal) one)
          (fun n k => x_paper (ix2 n k)) (fun k d => Wl_cites (ix2 d k)) (fun d => bl_cites (ix1 d)) (fun k d => Wr_cites (ix2 d k))
          (fun k d => Wl_writes (ix2 d k)) (fun d => bl_writes (ix1 d)) (fun k d => Wr_writes (ix2 d k)) n d := by
  rw [val_main_v82_apply, val_main_v54_apply, val_main_v26_apply, val_main_v23_apply, val_main_v53_apply, val_main_v50_apply,
    mean_dot_cites, bias_cites, self_dot_cites, mean_dot_writes, bias_writes, self_dot_writes,
    val_main_call0_v0_apply, val_main_call0_cst_apply, Ideal.ofBits_def, Ideal.ofBits_zero_f32]
  rfl

end Cert.Sage.RefSide

end
-- ==== Proof.RefPaperNorm.lean ====
/-
  The reference program's normalisation of the paper nodes, read entry by entry.

  Per feature d the mean is the sum of the activations over the 100000 nodes divided by the node count, the variance
  the sum of the squared deviations from that mean divided by the node count, and the result at (n, d) is
  gamma d * (r (n, d) - mean d) * rsqrt (variance d + eps) + beta d, with r the activation. Both sums start from the
  word of 0, which is the extended real 0, so they are the plain sums.
-/
import proofs.«116012_j76166950027377_2_alg».proof.Proof.Gen.ReferenceIdeal.Read
import proofs.«116012_j76166950027377_2_alg».proof.Proof.Spec
import proofs.«116012_j76166950027377_2_alg».proof.Proof.RefWords

noncomputable section

namespace Cert.Sage.RefSide

open Cert.ReferenceIdeal Cert.ReferenceIdeal.Read Idealize.ShloMosaic Idealize.ShloMosaic.ValueIdx

variable (x_paper : (⟨S100000x128, .f32⟩ : BufTy).Contents (Elt Ideal)) (x_author : (⟨S50000x128, .f32⟩ : BufTy).Contents (Elt Ideal))
  (cites_src cites_dst : (⟨S800000, .i32⟩ : BufTy).Contents (Elt Ideal)) (writes_src writes_dst : (⟨S500000, .i32⟩ : BufTy).Contents (Elt Ideal))
  (Wl_cites : (⟨S128x128, .f32⟩ : BufTy).Contents (Elt Ideal)) (bl_cites : (⟨S128, .f32⟩ : BufTy).Contents (Elt Ideal)) (Wr_cites Wl_writes : (⟨S128x128, .f32⟩ : BufTy).Contents (Elt Ideal))
  (bl_writes : (⟨S128, .f32⟩ : BufTy).Contents (Elt Ideal)) (Wr_writes : (⟨S128x128, .f32⟩ : BufTy).Contents (Elt Ideal)) (gamma_paper beta_paper : (⟨S128, .f32⟩ : BufTy).Contents (Elt Ideal))

/-! ## The normalisation of the paper nodes -/

/-- The sum over the nodes for feature d reads the activations at (k, d). -/
theorem col_sum_idx_paper (d : Fin 128) (k : Fin 100000) : idx_main_v83 (ix1 d) k = ix2 k d :=
  funext fun a => match a with | ⟨0, _⟩ => rfl | ⟨1, _⟩ => rfl

theorem col_sum_idx_paper' (d : Fin 128) (k : Fin 100000) : idx_main_v90 (ix1 d) k = ix2 k d :=
  funext fun a => match a with | ⟨0, _⟩ => rfl | ⟨1, _⟩ => rfl

/-- The entry (n, d) of a per-feature vector laid along the columns is the vector at d. -/
theorem feat_idx_paper_mean (n : Fin 100000) (d : Fin 128) : idx_main_v86 (idx_main_v87 (ix2 n d)) = ix1 d :=
  funext fun a => match a with | ⟨0, _⟩ => rfl
theorem feat_idx_paper_mean' (n : Fin 100000) (d : Fin 128) : idx_main_v93 (idx_main_v94 (ix2 n d)) = ix1 d :=
  funext fun a => match a with | ⟨0, _⟩ => rfl
theorem feat_idx_paper_gamma (n : Fin 100000) (d : Fin 128) : idx_main_v96 (idx_main_v97 (ix2 n d)) = ix1 d :=
  funext fun a => match a with | ⟨0, _⟩ => rfl
theorem feat_idx_paper_scale (n : Fin 100000) (d : Fin 128) : idx_main_v102 (idx_main_v103 (ix2 n d)) = ix1 d :=
  funext fun a => match a with | ⟨0, _⟩ => rfl
theorem feat_idx_paper_beta (n : Fin 100000) (d : Fin 128) : idx_main_v105 (idx_main_v106 (ix2 n d)) = ix1 d :=
  funext fun a => match a with | ⟨0, _⟩ => rfl

/-- The mean of feature d: the sum of the activations over the nodes, started at 0, over the node count. -/
theorem mean_paper (d : Fin 128) :
    val_main_v85 (F := Ideal) x_paper x_author cites_src cites_dst writes_src writes_dst Wl_cites bl_cites Wr_cites Wl_writes bl_writes Wr_writes (ix1 d) = Cert.Sage.meanOf (N := 100000) Nf5 (fun n d => val_main_v82 (F := Ideal) x_paper x_author cites_src cites_dst writes_src writes_dst Wl_cites bl_cites Wr_cites Wl_writes bl_writes Wr_writes (ix2 n d)) d := by
  rw [val_main_v85_apply, val_main_v83_apply, val_main_v84_apply, val_main_cst_17_apply, val_main_cst_16_apply,
    Ideal.ofBits_def, Ideal.ofBits_def, Ideal.ofBits_zero_f32, zero_add]
  simp only [col_sum_idx_paper]
  rfl

/-- The deviation of the entry (n, d) from the mean of feature d (the copy that is squared). -/
theorem dev_paper (n : Fin 100000) (d : Fin 128) :
    val_main_v88 (F := Ideal) x_paper x_author cites_src cites_dst writes_src writes_dst Wl_cites bl_cites Wr_cites Wl_writes bl_writes Wr_writes (ix2 n d)
      = val_main_v82 (F := Ideal) x_paper x_author cites_src cites_dst writes_src writes_dst Wl_cites bl_cites Wr_cites Wl_writes bl_writes Wr_writes (ix2 n d) - Cert.Sage.meanOf (N := 100000) Nf5 (fun n d => val_main_v82 (F := Ideal) x_paper x_author cites_src cites_dst writes_src writes_dst Wl_cites bl_cites Wr_cites Wl_writes bl_writes Wr_writes (ix2 n d)) d := by
  rw [val_main_v88_apply, val_main_v87_apply, val_main_v86_apply, feat_idx_paper_mean, mean_paper]
  rfl

/-- The deviation of the entry (n, d) from the mean of feature d (the copy that is scaled). -/
theorem dev_paper' (n : Fin 100000) (d : Fin 128) :
    val_main_v95 (F := Ideal) x_paper x_author cites_src cites_dst writes_src writes_dst Wl_cites bl_cites Wr_cites Wl_writes bl_writes Wr_writes (ix2 n d)
      = val_main_v82 (F := Ideal) x_paper x_author cites_src cites_dst writes_src writes_dst Wl_cites bl_cites Wr_cites Wl_writes bl_writes Wr_writes (ix2 n d) - Cert.Sage.meanOf (N := 100000) Nf5 (fun n d => val_main_v82 (F := Ideal) x_paper x_author cites_src cites_dst writes_src writes_dst Wl_cites bl_cites Wr_cites Wl_writes bl_writes Wr_writes (ix2 n d)) d := by
  rw [val_main_v95_apply, val_main_v94_apply, val_main_v93_apply, feat_idx_paper_mean', mean_paper]
  rfl

/-- The variance of feature d: the sum of the squared deviations over the nodes, started at 0, over the node count. -/
theorem var_paper (d : Fin 128) :
    val_main_v92 (F := Ideal) x_paper x_author cites_src cites_dst writes_src writes_dst Wl_cites bl_cites Wr_cites Wl_writes bl_writes Wr_writes (ix1 d)
      = Ideal.div (∑ n : Fin 100000, (val_main_v82 (F := Ideal) x_paper x_author cites_src cites_dst writes_src writes_dst Wl_cites bl_cites Wr_cites Wl_writes bl_writes Wr_writes (ix2 n d) - Cert.Sage.meanOf (N := 100000) Nf5 (fun n d => val_main_v82 (F := Ideal) x_paper x_author cites_src cites_dst writes_src writes_dst Wl_cites bl_cites Wr_cites Wl_writes bl_writes Wr_writes (ix2 n d)) d)
          * (val_main_v82 (F := Ideal) x_paper x_author cites_src cites_dst writes_src writes_dst Wl_cites bl_cites Wr_cites Wl_writes bl_writes Wr_writes (ix2 n d) - Cert.Sage.meanOf (N := 100000) Nf5 (fun n d => val_main_v82 (F := Ideal) x_paper x_author cites_src cites_dst writes_src writes_dst Wl_cites bl_cites Wr_cites Wl_writes bl_writes Wr_writes (ix2 n d)) d)) Nf5 := by
  rw [val_main_v92_apply, val_main_v90_apply, val_main_v91_apply, val_main_cst_19_apply, val_main_cst_18_apply,
    Ideal.ofBits_def, Ideal.ofBits_def, Ideal.ofBits_zero_f32, zero_add, Ideal.hostDivf_def]
  refine congrArg (fun s => Ideal.div s Nf5) (Finset.sum_congr rfl fun k _ => ?_)
  rw [col_sum_idx_paper', val_main_v89_apply, dev_paper]
  rfl

/-- The paper nodes' result at (n, d): the scale gamma d times the deviation, times the reciprocal square root of the
    variance plus eps, plus the shift beta d. -/
theorem paper_out (n : Fin 100000) (d : Fin 128) :
    val_main_v107 (F := Ideal) x_paper x_author cites_src cites_dst writes_src writes_dst Wl_cites bl_cites Wr_cites Wl_writes bl_writes Wr_writes gamma_paper beta_paper (ix2 n d)
      = Cert.Sage.normCentred (N := 100000) Nf5 eps (fun n d => val_main_v82 (F := Ideal) x_paper x_author cites_src cites_dst writes_src writes_dst Wl_cites bl_cites Wr_cites Wl_writes bl_writes Wr_writes (ix2 n d))
          (fun d => gamma_paper (ix1 d)) (fun d => beta_paper (ix1 d)) n d := by
  rw [val_main_v107_apply, val_main_v104_apply, val_main_v98_apply, val_main_v97_apply, val_main_v96_apply, feat_idx_paper_gamma,
    dev_paper', val_main_v103_apply, val_main_v102_apply, feat_idx_paper_scale, val_main_v101_apply, val_main_v100_apply, var_paper,
    val_main_v99_apply, val_main_cst_20_apply, val_main_v106_apply, val_main_v105_apply, feat_idx_paper_beta]
  rfl

end Cert.Sage.RefSide

end
-- ==== Proof.RefAuthor.lean ====
/-
  The reference program's update of the author nodes, read entry by entry.

  One relation ends at an author node. For an author node n and an output feature d the reference divides the
  neighbour sum S (n, k) by the divisor max (count n) 1, contracts the quotient over the input feature k with the
  transposed weight, that is with W (d, k), adds the bias at d, adds the node's own features contracted with the
  transposed root weight, and cuts the sum off below at 0. The neighbour sums and the counts are the program's own
  scatter stages and are left as they stand.
-/
import proofs.«116012_j76166950027377_2_alg».proof.Proof.Gen.ReferenceIdeal.Read
import proofs.«116012_j76166950027377_2_alg».proof.Proof.Spec
import proofs.«116012_j76166950027377_2_alg».proof.Proof.RefWords

noncomputable section

namespace Cert.Sage.RefSide

open Cert.ReferenceIdeal Cert.ReferenceIdeal.Read Idealize.ShloMosaic Idealize.ShloMosaic.ValueIdx

variable (x_paper : (⟨S100000x128, .f32⟩ : BufTy).Contents (Elt Ideal)) (x_author : (⟨S50000x128, .f32⟩ : BufTy).Contents (Elt Ideal))
  (wb_src wb_dst : (⟨S500000, .i32⟩ : BufTy).Contents (Elt Ideal))
  (Wl_wb : (⟨S128x128, .f32⟩ : BufTy).Contents (Elt Ideal)) (bl_wb : (⟨S128, .f32⟩ : BufTy).Contents (Elt Ideal)) (Wr_wb : (⟨S128x128, .f32⟩ : BufTy).Contents (Elt Ideal))
  (gamma_author beta_author : (⟨S128, .f32⟩ : BufTy).Contents (Elt Ideal))

/-! ## The update of the author nodes -/

/-! ### The relation `wb` -/

/-- The entry (n, k) of the divisor, a length-50000 vector laid along the rows, is the divisor of node n. -/
theorem divisor_idx_wb (n : Fin 50000) (k : Fin 128) : idx_main_v71 (idx_main_v72 (ix2 n k)) = ix1 n :=
  funext fun a => match a with | ⟨0, _⟩ => rfl

/-- The entry (n, d) of the bias, a length-128 vector laid along the columns, is the bias of feature d. -/
theorem bias_idx_wb (n : Fin 50000) (d : Fin 128) : idx_main_v76 (idx_main_v77 (ix2 n d)) = ix1 d :=
  funext fun a => match a with | ⟨0, _⟩ => rfl

/-- The contraction for the entry (n, d) reads its left operand at (n, k). -/
theorem left_idx_wb (n : Fin 50000) (d k : Fin 128) : lidx_main_v75 (ix2 n d) k = ix2 n k :=
  funext fun a => match a with | ⟨0, _⟩ => rfl | ⟨1, _⟩ => rfl

/-- The contraction for the entry (n, d) reads the transposed weight at (k, d), that is the weight at (d, k). -/
theorem right_idx_wb (n : Fin 50000) (d k : Fin 128) : idx_main_v74 (ridx_main_v75 (ix2 n d) k) = ix2 d k :=
  funext fun a => match a with | ⟨0, _⟩ => rfl | ⟨1, _⟩ => rfl

theorem self_left_idx_wb (n : Fin 50000) (d k : Fin 128) : lidx_main_v80 (ix2 n d) k = ix2 n k :=
  funext fun a => match a with | ⟨0, _⟩ => rfl | ⟨1, _⟩ => rfl

theorem self_right_idx_wb (n : Fin 50000) (d k : Fin 128) : idx_main_v79 (ridx_main_v80 (ix2 n d) k) = ix2 d k :=
  funext fun a => match a with | ⟨0, _⟩ => rfl | ⟨1, _⟩ => rfl

/-- The neighbour mean through its matrix: the neighbour sum at (n, k) over the divisor of n, times the weight at (d, k),
    summed over the input feature k. -/
theorem mean_dot_wb (n : Fin 50000) (d : Fin 128) :
    val_main_v75 (F := Ideal) x_paper wb_src wb_dst Wl_wb (ix2 n d)
      = ∑ k : Fin 128, Ideal.div (val_main_v64 (F := Ideal) x_paper wb_src wb_dst (ix2 n k)) (max (val_main_v68 (F := Ideal) wb_dst (ix1 n)) one)
          * Wl_wb (ix2 d k) := by
  rw [val_main_v75_apply]
  refine Finset.sum_congr rfl fun k _ => ?_
  rw [left_idx_wb, val_main_v73_apply, val_main_v72_apply, val_main_v71_apply, val_main_v70_apply, val_main_v69_apply,
    val_main_cst_15_apply, val_main_v74_apply, divisor_idx_wb, right_idx_wb]
  rfl

/-- The bias at (n, d) is the bias of feature d. -/
theorem bias_wb (n : Fin 50000) (d : Fin 128) : val_main_v77 (F := Ideal) bl_wb (ix2 n d) = bl_wb (ix1 d) := by
  rw [val_main_v77_apply, val_main_v76_apply, bias_idx_wb]

/-- The node's own features through the root matrix. -/
theorem self_dot_wb (n : Fin 50000) (d : Fin 128) :
    val_main_v80 (F := Ideal) x_author Wr_wb (ix2 n d) = ∑ k : Fin 128, x_author (ix2 n k) * Wr_wb (ix2 d k) := by
  rw [val_main_v80_apply]
  refine Finset.sum_congr rfl fun k _ => ?_
  rw [self_left_idx_wb, val_main_v79_apply, self_right_idx_wb]

/-- The activation of the author nodes at (n, d): the neighbour mean through its matrix plus the bias plus the node's own
    features through the root matrix, cut off below at 0. -/
theorem author_act (n : Fin 50000) (d : Fin 128) :
    val_main_v108 (F := Ideal) x_paper x_author wb_src wb_dst Wl_wb bl_wb Wr_wb (ix2 n d)
      = Cert.Sage.actAuthorSplit (N := 50000)
          (fun n k => val_main_v64 (F := Ideal) x_paper wb_src wb_dst (ix2 n k))
          (fun n => max (val_main_v68 (F := Ideal) wb_dst (ix1 n) : EReal) one)
          (fun n k => x_author (ix2 n k)) (fun k d => Wl_wb (ix2 d k)) (fun d => bl_wb (ix1 d)) (fun k d => Wr_wb (ix2 d k)) n d := by
  rw [val_main_v108_apply, val_main_v81_apply, val_main_v78_apply, mean_dot_wb, bias_wb, self_dot_wb,
    val_main_call1_v0_apply, val_main_call1_cst_apply, Ideal.ofBits_def, Ideal.ofBits_zero_f32]
  rfl

end Cert.Sage.RefSide

end
-- ==== Proof.RefAuthorNorm.lean ====
/-
  The reference program's normalisation of the author nodes, read entry by entry.

  Per feature d the mean is the sum of the activations over the 50000 nodes divided by the node count, the variance
  the sum of the squared deviations from that mean divided by the node count, and the result at (n, d) is
  gamma d * (r (n, d) - mean d) * rsqrt (variance d + eps) + beta d, with r the activation. Both sums start from the
  word of 0, which is the extended real 0, so they are the plain sums.
-/
import proofs.«116012_j76166950027377_2_alg».proof.Proof.Gen.ReferenceIdeal.Read
import proofs.«116012_j76166950027377_2_alg».proof.Proof.Spec
import proofs.«116012_j76166950027377_2_alg».proof.Proof.RefWords

noncomputable section

namespace Cert.Sage.RefSide

open Cert.ReferenceIdeal Cert.ReferenceIdeal.Read Idealize.ShloMosaic Idealize.ShloMosaic.ValueIdx

variable (x_paper : (⟨S100000x128, .f32⟩ : BufTy).Contents (Elt Ideal)) (x_author : (⟨S50000x128, .f32⟩ : BufTy).Contents (Elt Ideal))
  (wb_src wb_dst : (⟨S500000, .i32⟩ : BufTy).Contents (Elt Ideal))
  (Wl_wb : (⟨S128x128, .f32⟩ : BufTy).Contents (Elt Ideal)) (bl_wb : (⟨S128, .f32⟩ : BufTy).Contents (Elt Ideal)) (Wr_wb : (⟨S128x128, .f32⟩ : BufTy).Contents (Elt Ideal))
  (gamma_author beta_author : (⟨S128, .f32⟩ : BufTy).Contents (Elt Ideal))

/-! ## The normalisation of the author nodes -/

/-- The sum over the nodes for feature d reads the activations at (k, d). -/
theorem col_sum_idx_author (d : Fin 128) (k : Fin 50000) : idx_main_v109 (ix1 d) k = ix2 k d :=
  funext fun a => match a with | ⟨0, _⟩ => rfl | ⟨1, _⟩ => rfl

theorem col_sum_idx_author' (d : Fin 128) (k : Fin 50000) : idx_main_v116 (ix1 d) k = ix2 k d :=
  funext fun a => match a with | ⟨0, _⟩ => rfl | ⟨1, _⟩ => rfl

/-- The entry (n, d) of a per-feature vector laid along the columns is the vector at d. -/
theorem feat_idx_author_mean (n : Fin 50000) (d : Fin 128) : idx_main_v112 (idx_main_v113 (ix2 n d)) = ix1 d :=
  funext fun a => match a with | ⟨0, _⟩ => rfl
theorem feat_idx_author_mean' (n : Fin 50000) (d : Fin 128) : idx_main_v119 (idx_main_v120 (ix2 n d)) = ix1 d :=
  funext fun a => match a with | ⟨0, _⟩ => rfl
theorem feat_idx_author_gamma (n : Fin 50000) (d : Fin 128) : idx_main_v122 (idx_main_v123 (ix2 n d)) = ix1 d :=
  funext fun a => match a with | ⟨0, _⟩ => rfl
theorem feat_idx_author_scale (n : Fin 50000) (d : Fin 128) : idx_main_v128 (idx_main_v129 (ix2 n d)) = ix1 d :=
  funext fun a => match a with | ⟨0, _⟩ => rfl
theorem feat_idx_author_beta (n : Fin 50000) (d : Fin 128) : idx_main_v131 (idx_main_v132 (ix2 n d)) = ix1 d :=
  funext fun a => match a with | ⟨0, _⟩ => rfl

/-- The mean of feature d: the sum of the activations over the nodes, started at 0, over the node count. -/
theorem mean_author (d : Fin 128) :
    val_main_v111 (F := Ideal) x_paper x_author wb_src wb_dst Wl_wb bl_wb Wr_wb (ix1 d) = Cert.Sage.meanOf (N := 50000) Nf4 (fun n d => val_main_v108 (F := Ideal) x_paper x_author wb_src wb_dst Wl_wb bl_wb Wr_wb (ix2 n d)) d := by
  rw [val_main_v111_apply, val_main_v109_apply, val_main_v110_apply, val_main_cst_22_apply, val_main_cst_21_apply,
    Ideal.ofBits_def, Ideal.ofBits_def, Ideal.ofBits_zero_f32, zero_add]
  simp only [col_sum_idx_author]
  rfl

/-- The deviation of the entry (n, d) from the mean of feature d (the copy that is squared). -/
theorem dev_author (n : Fin 50000) (d : Fin 128) :
    val_main_v114 (F := Ideal) x_paper x_author wb_src wb_dst Wl_wb bl_wb Wr_wb (ix2 n d)
      = val_main_v108 (F := Ideal) x_paper x_author wb_src wb_dst Wl_wb bl_wb Wr_wb (ix2 n d) - Cert.Sage.meanOf (N := 50000) Nf4 (fun n d => val_main_v108 (F := Ideal) x_paper x_author wb_src wb_dst Wl_wb bl_wb Wr_wb (ix2 n d)) d := by
  rw [val_main_v114_apply, val_main_v113_apply, val_main_v112_apply, feat_idx_author_mean, mean_author]
  rfl

/-- The deviation of the entry (n, d) from the mean of feature d (the copy that is scaled). -/
theorem dev_author' (n : Fin 50000) (d : Fin 128) :
    val_main_v121 (F := Ideal) x_paper x_author wb_src wb_dst Wl_wb bl_wb Wr_wb (ix2 n d)
      = val_main_v108 (F := Ideal) x_paper x_author wb_src wb_dst Wl_wb bl_wb Wr_wb (ix2 n d) - Cert.Sage.meanOf (N := 50000) Nf4 (fun n d => val_main_v108 (F := Ideal) x_paper x_author wb_src wb_dst Wl_wb bl_wb Wr_wb (ix2 n d)) d := by
  rw [val_main_v121_apply, val_main_v120_apply, val_main_v119_apply, feat_idx_author_mean', mean_author]
  rfl

/-- The variance of feature d: the sum of the squared deviations over the nodes, started at 0, over the node count. -/
theorem var_author (d : Fin 128) :
    val_main_v118 (F := Ideal) x_paper x_author wb_src wb_dst Wl_wb bl_wb Wr_wb (ix1 d)
      = Ideal.div (∑ n : Fin 50000, (val_main_v108 (F := Ideal) x_paper x_author wb_src wb_dst Wl_wb bl_wb Wr_wb (ix2 n d) - Cert.Sage.meanOf (N := 50000) Nf4 (fun n d => val_main_v108 (F := Ideal) x_paper x_author wb_src wb_dst Wl_wb bl_wb Wr_wb (ix2 n d)) d)
          * (val_main_v108 (F := Ideal) x_paper x_author wb_src wb_dst Wl_wb bl_wb Wr_wb (ix2 n d) - Cert.Sage.meanOf (N := 50000) Nf4 (fun n d => val_main_v108 (F := Ideal) x_paper x_author wb_src wb_dst Wl_wb bl_wb Wr_wb (ix2 n d)) d)) Nf4 := by
  rw [val_main_v118_apply, val_main_v116_apply, val_main_v117_apply, val_main_cst_24_apply, val_main_cst_23_apply,
    Ideal.ofBits_def, Ideal.ofBits_def, Ideal.ofBits_zero_f32, zero_add, Ideal.hostDivf_def]
  refine congrArg (fun s => Ideal.div s Nf4) (Finset.sum_congr rfl fun k _ => ?_)
  rw [col_sum_idx_author', val_main_v115_apply, dev_author]
  rfl

/-- The author nodes' result at (n, d): the scale gamma d times the deviation, times the reciprocal square root of the
    variance plus eps, plus the shift beta d. -/
theorem author_out (n : Fin 50000) (d : Fin 128) :
    val_main_v133 (F := Ideal) x_paper x_author wb_src wb_dst Wl_wb bl_wb Wr_wb gamma_author beta_author (ix2 n d)
      = Cert.Sage.normCentred (N := 50000) Nf4 eps (fun n d => val_main_v108 (F := Ideal) x_paper x_author wb_src wb_dst Wl_wb bl_wb Wr_wb (ix2 n d))
          (fun d => gamma_author (ix1 d)) (fun d => beta_author (ix1 d)) n d := by
  rw [val_main_v133_apply, val_main_v130_apply, val_main_v124_apply, val_main_v123_apply, val_main_v122_apply, feat_idx_author_gamma,
    dev_author', val_main_v129_apply, val_main_v128_apply, feat_idx_author_scale, val_main_v127_apply, val_main_v126_apply, var_author,
    val_main_v125_apply, val_main_cst_25_apply, val_main_v132_apply, val_main_v131_apply, feat_idx_author_beta]
  rfl

end Cert.Sage.RefSide

end
-- ==== Proof.RefSide.lean ====
/-
  The reference side in one import: the activations of the paper and the author nodes and their normalisations, each
  read at an entry (`paper_act`, `paper_out`, `author_act`, `author_out`).
-/
import proofs.«116012_j76166950027377_2_alg».proof.Proof.RefPaper
import proofs.«116012_j76166950027377_2_alg».proof.Proof.RefPaperNorm
import proofs.«116012_j76166950027377_2_alg».proof.Proof.RefAuthor
import proofs.«116012_j76166950027377_2_alg».proof.Proof.RefAuthorNorm
-- ==== Proof.AggJoin.lean ====
/-
  The two programs aggregate the same neighbour sums and in-degrees.

  One program shifts negative destination numbers up by the node count before its accumulating scatters and the other
  hands the destination numbers to the scatters as they are. On destination numbers none of which is negative the shift
  is the identity, and then the two programs' scatters are one term, relation by relation.
-/
import proofs.«116012_j76166950027377_2_alg».proof.Proof.HostAgg
import proofs.«116012_j76166950027377_2_alg».proof.Proof.AggFacts
import proofs.«116012_j76166950027377_2_alg».proof.Proof.Gen.ReferenceIdeal.Read

noncomputable section

namespace Cert.Sage.AggJoin

open Idealize.ShloMosaic Cert.Sage.HostAgg Cert.KernelIdeal.Facts₀

theorem wrapCol8_eq (N : BitVec 32) (dst : IVec Cert.KernelIdeal.S800000 32) (h : ∀ e, IntOp.cmpi .slt (dst e) 0#32 = 0#1) :
    wrapCol8 N dst = broadcastInDim Cert.KernelIdeal.S800000x1 ![0] bcast_S800000_S800000x1_0 dst := by
  unfold wrapCol8
  exact congrArg (broadcastInDim _ _ _) (select_wrap_eq _ _ _ (fun _ => rfl) h)

theorem wrapCol5_eq (N : BitVec 32) (dst : IVec Cert.KernelIdeal.S500000 32) (h : ∀ e, IntOp.cmpi .slt (dst e) 0#32 = 0#1) :
    wrapCol5 N dst = broadcastInDim Cert.KernelIdeal.S500000x1 ![0] bcast_S500000_S500000x1_0 dst := by
  unfold wrapCol5
  exact congrArg (broadcastInDim _ _ _) (select_wrap_eq _ _ _ (fun _ => rfl) h)

theorem sumCites_eq (x : FVec Ideal Cert.KernelIdeal.S100000x128 .f32) (src dst : IVec Cert.KernelIdeal.S800000 32)
    (h : ∀ e, IntOp.cmpi .slt (dst e) 0#32 = 0#1) :
    sumCites x src dst = Cert.ReferenceIdeal.Read.val_main_v9 (F := Ideal) x src dst := by
  unfold sumCites; rw [wrapCol8_eq _ dst h]; rfl

theorem cntCites_eq (dst : IVec Cert.KernelIdeal.S800000 32) (h : ∀ e, IntOp.cmpi .slt (dst e) 0#32 = 0#1) :
    cntCites dst = Cert.ReferenceIdeal.Read.val_main_v13 (F := Ideal) dst := by
  unfold cntCites; rw [wrapCol8_eq _ dst h]; rfl

theorem sumWrites_eq (x : FVec Ideal Cert.KernelIdeal.S50000x128 .f32) (src dst : IVec Cert.KernelIdeal.S500000 32)
    (h : ∀ e, IntOp.cmpi .slt (dst e) 0#32 = 0#1) :
    sumWrites x src dst = Cert.ReferenceIdeal.Read.val_main_v36 (F := Ideal) x src dst := by
  unfold sumWrites; rw [wrapCol5_eq _ dst h]; rfl

theorem cntWrites_eq (dst : IVec Cert.KernelIdeal.S500000 32) (h : ∀ e, IntOp.cmpi .slt (dst e) 0#32 = 0#1) :
    cntWrites dst = Cert.ReferenceIdeal.Read.val_main_v40 (F := Ideal) dst := by
  unfold cntWrites; rw [wrapCol5_eq _ dst h]; rfl

theorem sumWb_eq (x : FVec Ideal Cert.KernelIdeal.S100000x128 .f32) (src dst : IVec Cert.KernelIdeal.S500000 32)
    (h : ∀ e, IntOp.cmpi .slt (dst e) 0#32 = 0#1) :
    sumWb x src dst = Cert.ReferenceIdeal.Read.val_main_v64 (F := Ideal) x src dst := by
  unfold sumWb; rw [wrapCol5_eq _ dst h]; rfl

theorem cntWb_eq (dst : IVec Cert.KernelIdeal.S500000 32) (h : ∀ e, IntOp.cmpi .slt (dst e) 0#32 = 0#1) :
    cntWb dst = Cert.ReferenceIdeal.Read.val_main_v68 (F := Ideal) dst := by
  unfold cntWb; rw [wrapCol5_eq _ dst h]; rfl

end Cert.Sage.AggJoin

end
-- ==== Proof.PreFacts.lean ====
/-
  The precondition read back, element by element.

  The precondition is one bit: the conjunction of eighteen "for all elements" tests, fifteen of the form |x| < +∞ over
  the float arrays and three of the form idx ≥ 0 (signed) over the destination index arrays. Each "for all" is a
  reduction by "and" of an array of bits into a single bit, started from 1; it is 1 only if every bit reduced into it
  is 1. So when the whole conjunction is 1, every float entry satisfies max x (-x) < +∞, which on the extended reals
  says x is neither +∞ nor -∞ (hence a real), and every destination index is at least 0 read signed, which is the
  same as the signed test "idx < 0" being false.
-/
import proofs.«116012_j76166950027377_2_alg».proof.Defs
import Idealize.ShloMosaic.Lib.ReduceAll
import Idealize.ShloMosaic.Lib.ValueIdx
import Idealize.ShloMosaic.PureOps.Ideal

noncomputable section

namespace Cert.Sage.PreFacts

open Idealize.ShloMosaic Idealize.SL.Sem Cert.Pre_finite_inputs

/-- The shape with no axes has one index. -/
instance : Subsingleton S_.Idx := ⟨fun a b => funext fun d => d.elim0⟩

/-! ## One element -/

/-- An extended real whose absolute value max x (-x) is strictly below +∞ is neither infinity: at either infinity the
    absolute value is +∞ itself. -/
theorem finite_of_abs_lt (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  induction x using EReal.rec with
  | bot => exact absurd h (by simp [Ideal.cmp])
  | coe r => exact ⟨EReal.coe_ne_top r, EReal.coe_ne_bot r⟩
  | top => exact absurd h (by simp [Ideal.cmp])

/-- A one-bit word that is not 1 is 0. -/
theorem bit_eq_zero : ∀ c : BitVec 1, ¬c = 1#1 → c = 0#1 := by decide

/-- A 32-bit word that tests "at least 0" read signed does not test "below 0". -/
theorem not_slt_of_sge (w : BitVec 32) (h : IntOp.cmpi .sge w 0#32 = 1#1) : IntOp.cmpi .slt w 0#32 = 0#1 :=
  bit_eq_zero _ fun h' => by
    have h1 := IntOp.cmpi_slt.1 h'
    have h2 := IntOp.cmpi_sge.1 h
    omega

/-- The same fact as an inequality of integers. -/
theorem toInt_nonneg_of_sge (w : BitVec 32) (h : IntOp.cmpi .sge w 0#32 = 1#1) : 0 ≤ w.toInt := by
  have h2 := IntOp.cmpi_sge.1 h
  rwa [show (0#32 : BitVec 32).toInt = 0 from rfl] at h2

/-- A word whose signed test "below 0" is false is at least 0 read signed. -/
theorem toInt_nonneg_of_slt_zero (w : BitVec 32) (h : IntOp.cmpi .slt w 0#32 = 0#1) : 0 ≤ w.toInt := by
  by_contra hn
  have h1 : IntOp.cmpi .slt w 0#32 = 1#1 :=
    IntOp.cmpi_slt.2 (by rw [show (0#32 : BitVec 32).toInt = 0 from rfl]; omega)
  rw [h] at h1
  exact absurd h1 (by decide)

/-- Such a word has its top bit clear: read signed or unsigned it is the same number, below 2^31. -/
theorem toInt_eq_toNat_of_slt_zero (w : BitVec 32) (h : IntOp.cmpi .slt w 0#32 = 0#1) :
    w.toInt = (w.toNat : Int) ∧ w.toNat < 2 ^ 31 := by
  have h0 := toInt_nonneg_of_slt_zero w h
  have hlt : 2 * w.toNat < 2 ^ 32 := BitVec.toInt_pos_iff.1 h0
  exact ⟨BitVec.toInt_eq_toNat_of_lt hlt, by omega⟩

/-! ## One array -/

section Arrays
variable {s : Shape} {axes : List (Fin s.rank)}

/-- "all (|a| < +∞)" is 1: every entry of a is neither infinity. -/
theorem float_all (a : FVec Ideal s .f32) (hb : S_.BroadcastsInDim s (![] : Fin 0 → Fin s.rank))
    (hr : s.ReducesTo axes S_) (hu : 0 < S_.numel) (init : IVec S_ 1) (j : S_.Idx)
    (e : Host.reduce IntOp.andi
          (cmpf .olt (Host.absf a) (broadcastInDim s ![] hb (constant (F := Ideal) S_ .f32 0x7F800000#32))) init hr hu j = 1#1) :
    ∀ i, a i ≠ ⊤ ∧ a i ≠ ⊥ :=
  fun i => finite_of_abs_lt (a i) (Host.reduce_andi_all _ init hr hu j e i)

/-- "all (a ≥ 0)" is 1: at every entry the signed test "below 0" is false. -/
theorem int_all (a : IVec s 32) (hb : S_.BroadcastsInDim s (![] : Fin 0 → Fin s.rank))
    (hr : s.ReducesTo axes S_) (hu : 0 < S_.numel) (init : IVec S_ 1) (j : S_.Idx)
    (e : Host.reduce IntOp.andi
          (cmpi .sge a (broadcastInDim s ![] hb (constantI S_ 32 0#32))) init hr hu j = 1#1) :
    ∀ i, IntOp.cmpi .slt (a i) 0#32 = 0#1 :=
  fun i => not_slt_of_sge (a i) (Host.reduce_andi_all _ init hr hu j e i)

/-- The same with the entries read as integers. -/
theorem int_all_toInt (a : IVec s 32) (hb : S_.BroadcastsInDim s (![] : Fin 0 → Fin s.rank))
    (hr : s.ReducesTo axes S_) (hu : 0 < S_.numel) (init : IVec S_ 1) (j : S_.Idx)
    (e : Host.reduce IntOp.andi
          (cmpi .sge a (broadcastInDim s ![] hb (constantI S_ 32 0#32))) init hr hu j = 1#1) :
    ∀ i, 0 ≤ (a i).toInt :=
  fun i => toInt_nonneg_of_sge (a i) (Host.reduce_andi_all _ init hr hu j e i)

/-- Where no entry is below 0, choosing "alt where a < 0, else a" gives back a. -/
theorem select_slt_zero (a alt : IVec s 32) (hb : S_.BroadcastsInDim s (![] : Fin 0 → Fin s.rank))
    (h : ∀ i, IntOp.cmpi .slt (a i) 0#32 = 0#1) :
    select (cmpi .slt a (broadcastInDim s ![] hb (constantI S_ 32 0#32))) alt a = a := by
  funext i
  show Scalar.select (IntOp.cmpi .slt (a i) 0#32) (alt i) (a i) = a i
  rw [h i]
  exact if_neg (by decide)

end Arrays

/-! ## The whole precondition -/

section Whole
variable [Cert.Pre_finite_inputs.Facts]

/-- What the precondition says of the arrays: every float entry is neither infinity (the fifteen float arrays, in
    argument order), and no destination index is below 0 read signed. -/
abbrev Decoded
    (x_paper : FVec Ideal S100000x128 .f32) (x_author : FVec Ideal S50000x128 .f32)
    (cites_dst : IVec S800000 32) (writes_dst : IVec S500000 32) (wb_dst : IVec S500000 32)
    (Wl_cites : FVec Ideal S128x128 .f32) (bl_cites : FVec Ideal S128 .f32) (Wr_cites : FVec Ideal S128x128 .f32)
    (Wl_writes : FVec Ideal S128x128 .f32) (bl_writes : FVec Ideal S128 .f32) (Wr_writes : FVec Ideal S128x128 .f32)
    (Wl_wb : FVec Ideal S128x128 .f32) (bl_wb : FVec Ideal S128 .f32) (Wr_wb : FVec Ideal S128x128 .f32)
    (gamma_paper beta_paper gamma_author beta_author : FVec Ideal S128 .f32) : Prop :=
  (∀ i, x_paper i ≠ ⊤ ∧ x_paper i ≠ ⊥) ∧ (∀ i, x_author i ≠ ⊤ ∧ x_author i ≠ ⊥)
  ∧ (∀ i, Wl_cites i ≠ ⊤ ∧ Wl_cites i ≠ ⊥) ∧ (∀ i, bl_cites i ≠ ⊤ ∧ bl_cites i ≠ ⊥) ∧ (∀ i, Wr_cites i ≠ ⊤ ∧ Wr_cites i ≠ ⊥)
  ∧ (∀ i, Wl_writes i ≠ ⊤ ∧ Wl_writes i ≠ ⊥) ∧ (∀ i, bl_writes i ≠ ⊤ ∧ bl_writes i ≠ ⊥) ∧ (∀ i, Wr_writes i ≠ ⊤ ∧ Wr_writes i ≠ ⊥)
  ∧ (∀ i, Wl_wb i ≠ ⊤ ∧ Wl_wb i ≠ ⊥) ∧ (∀ i, bl_wb i ≠ ⊤ ∧ bl_wb i ≠ ⊥) ∧ (∀ i, Wr_wb i ≠ ⊤ ∧ Wr_wb i ≠ ⊥)
  ∧ (∀ i, gamma_paper i ≠ ⊤ ∧ gamma_paper i ≠ ⊥) ∧ (∀ i, beta_paper i ≠ ⊤ ∧ beta_paper i ≠ ⊥)
  ∧ (∀ i, gamma_author i ≠ ⊤ ∧ gamma_author i ≠ ⊥) ∧ (∀ i, beta_author i ≠ ⊤ ∧ beta_author i ≠ ⊥)
  ∧ (∀ e, IntOp.cmpi .slt (cites_dst e) 0#32 = 0#1) ∧ (∀ e, IntOp.cmpi .slt (writes_dst e) 0#32 = 0#1)
  ∧ (∀ e, IntOp.cmpi .slt (wb_dst e) 0#32 = 0#1)

/-- The precondition, all ones, gives the facts above. The conjunction is nested to the left in the order the tests
    are made: the fifteen float arrays in argument order, then the three destination index arrays. -/
theorem decode
    (x_paper : FVec Ideal S100000x128 .f32) (x_author : FVec Ideal S50000x128 .f32)
    (cites_src cites_dst : IVec S800000 32) (writes_src writes_dst wb_src wb_dst : IVec S500000 32)
    (Wl_cites : FVec Ideal S128x128 .f32) (bl_cites : FVec Ideal S128 .f32) (Wr_cites : FVec Ideal S128x128 .f32)
    (Wl_writes : FVec Ideal S128x128 .f32) (bl_writes : FVec Ideal S128 .f32) (Wr_writes : FVec Ideal S128x128 .f32)
    (Wl_wb : FVec Ideal S128x128 .f32) (bl_wb : FVec Ideal S128 .f32) (Wr_wb : FVec Ideal S128x128 .f32)
    (gamma_paper beta_paper gamma_author beta_author : FVec Ideal S128 .f32)
    (h : Cert.Pre_finite_inputs.fn (F := Ideal) x_paper x_author cites_src cites_dst writes_src writes_dst wb_src wb_dst
          Wl_cites bl_cites Wr_cites Wl_writes bl_writes Wr_writes Wl_wb bl_wb Wr_wb
          gamma_paper beta_paper gamma_author beta_author = (fun _ => 1#1)) :
    Decoded x_paper x_author cites_dst writes_dst wb_dst Wl_cites bl_cites Wr_cites Wl_writes bl_writes Wr_writes
      Wl_wb bl_wb Wr_wb gamma_paper beta_paper gamma_author beta_author := by
  have e := congrFun h ValueIdx.ix0
  dsimp only [fn, fn_part1, fn_part2, fn_part3, fn_part4, fn_part5, andi] at e
  simp only [IntOp.andi_eq_one] at e
  obtain ⟨⟨⟨⟨⟨⟨⟨⟨⟨⟨⟨⟨⟨⟨⟨⟨⟨h0, h1⟩, h8⟩, h9⟩, h10⟩, h11⟩, h12⟩, h13⟩, h14⟩, h15⟩, h16⟩, h17⟩, h18⟩, h19⟩, h20⟩, h3⟩, h5⟩, h7⟩ := e
  exact ⟨float_all _ _ _ _ _ _ h0, float_all _ _ _ _ _ _ h1, float_all _ _ _ _ _ _ h8, float_all _ _ _ _ _ _ h9,
    float_all _ _ _ _ _ _ h10, float_all _ _ _ _ _ _ h11, float_all _ _ _ _ _ _ h12, float_all _ _ _ _ _ _ h13,
    float_all _ _ _ _ _ _ h14, float_all _ _ _ _ _ _ h15, float_all _ _ _ _ _ _ h16, float_all _ _ _ _ _ _ h17,
    float_all _ _ _ _ _ _ h18, float_all _ _ _ _ _ _ h19, float_all _ _ _ _ _ _ h20,
    int_all _ _ _ _ _ _ h3, int_all _ _ _ _ _ _ h5, int_all _ _ _ _ _ _ h7⟩

/-- The integer form of the last three facts: each destination index is at least 0 read signed. -/
theorem decode_toInt
    (x_paper : FVec Ideal S100000x128 .f32) (x_author : FVec Ideal S50000x128 .f32)
    (cites_src cites_dst : IVec S800000 32) (writes_src writes_dst wb_src wb_dst : IVec S500000 32)
    (Wl_cites : FVec Ideal S128x128 .f32) (bl_cites : FVec Ideal S128 .f32) (Wr_cites : FVec Ideal S128x128 .f32)
    (Wl_writes : FVec Ideal S128x128 .f32) (bl_writes : FVec Ideal S128 .f32) (Wr_writes : FVec Ideal S128x128 .f32)
    (Wl_wb : FVec Ideal S128x128 .f32) (bl_wb : FVec Ideal S128 .f32) (Wr_wb : FVec Ideal S128x128 .f32)
    (gamma_paper beta_paper gamma_author beta_author : FVec Ideal S128 .f32)
    (h : Cert.Pre_finite_inputs.fn (F := Ideal) x_paper x_author cites_src cites_dst writes_src writes_dst wb_src wb_dst
          Wl_cites bl_cites Wr_cites Wl_writes bl_writes Wr_writes Wl_wb bl_wb Wr_wb
          gamma_paper beta_paper gamma_author beta_author = (fun _ => 1#1)) :
    (∀ e, 0 ≤ (cites_dst e).toInt) ∧ (∀ e, 0 ≤ (writes_dst e).toInt) ∧ (∀ e, 0 ≤ (wb_dst e).toInt) := by
  obtain ⟨-, -, -, -, -, -, -, -, -, -, -, -, -, -, -, hc, hw, hb⟩ :=
    decode x_paper x_author cites_src cites_dst writes_src writes_dst wb_src wb_dst Wl_cites bl_cites Wr_cites
      Wl_writes bl_writes Wr_writes Wl_wb bl_wb Wr_wb gamma_paper beta_paper gamma_author beta_author h
  exact ⟨fun e => toInt_nonneg_of_slt_zero _ (hc e), fun e => toInt_nonneg_of_slt_zero _ (hw e),
    fun e => toInt_nonneg_of_slt_zero _ (hb e)⟩

/-! ## The precondition of a memory

The two idealized programs take their precondition of the argument arrays a memory holds on each device: the same
facts hold of those arrays. -/

/-- From the idealized kernel's precondition: the facts about its argument arrays on device c. -/
theorem of_pre_kernel
    (m : (ℓ : Loc Cert.KernelIdeal.nD Cert.KernelIdeal.τ Cert.KernelIdeal.sig) → Buf (Elt Ideal) ℓ)
    (h : Cert.Pre_KernelIdeal m) (c : Dev Cert.KernelIdeal.nD) :
    Decoded
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20)) :=
  decode _ _ _ _ _ _ _ _ _ _ _ _ _ _ _ _ _ _ _ _ _ (h c)

/-- From the idealized reference's precondition: the facts about its argument arrays on device c. -/
theorem of_pre_reference
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Decoded
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13))
      (m ((c.tc : Thread Cert.ReferenceIdeal.nD Cert.ReferenceIdeal.τ).loc Cert.ReferenceIdeal.main_arg14))
      (m ((c.tc : Thread Cert.ReferenceIdeal.nD Cert.ReferenceIdeal.τ).loc Cert.ReferenceIdeal.main_arg15))
      (m ((c.tc : Thread Cert.ReferenceIdeal.nD Cert.ReferenceIdeal.τ).loc Cert.ReferenceIdeal.main_arg16))
      (m ((c.tc : Thread Cert.ReferenceIdeal.nD Cert.ReferenceIdeal.τ).loc Cert.ReferenceIdeal.main_arg17))
      (m ((c.tc : Thread Cert.ReferenceIdeal.nD Cert.ReferenceIdeal.τ).loc Cert.ReferenceIdeal.main_arg18))
      (m ((c.tc : Thread Cert.ReferenceIdeal.nD Cert.ReferenceIdeal.τ).loc Cert.ReferenceIdeal.main_arg19))
      (m ((c.tc : Thread Cert.ReferenceIdeal.nD Cert.ReferenceIdeal.τ).loc Cert.ReferenceIdeal.main_arg20)) :=
  decode _ _ _ _ _ _ _ _ _ _ _ _ _ _ _ _ _ _ _ _ _ (h c)

end Whole

end Cert.Sage.PreFacts

end
-- ==== Proof.Results.lean ====
/-
  The two programs' results agree.

  Array by array: the reference's normalised stage is the centred normalisation of its activations; its activations are
  the split arrangement of the update over its own scatters, which are the kernel program's scatters because no
  destination number is negative; the split arrangement is the kernel program's arrangement because the features and the
  root matrices are real; every activation is real, the node count's word is the number of rows and the epsilon's word is
  a positive real, so the centred normalisation is the folded one. Then, memory by memory: the kernel program's result
  buffer holds the folded normalisation of the activations of its arguments, the reference's result is its last stage of
  its arguments, and the two programs' arguments agree.
-/
import proofs.«116012_j76166950027377_2_alg».proof.Proof.KernelPaper
import proofs.«116012_j76166950027377_2_alg».proof.Proof.KernelAuthor
import proofs.«116012_j76166950027377_2_alg».proof.Proof.RefSide
import proofs.«116012_j76166950027377_2_alg».proof.Proof.AggJoin
import proofs.«116012_j76166950027377_2_alg».proof.Proof.PreFacts
import proofs.«116012_j76166950027377_2_alg».proof.Proof.Gen.Pre_finite_inputs

set_option maxRecDepth 16384

noncomputable section

namespace Cert.Sage.Results

open Idealize.ShloMosaic Idealize.ShloMosaic.ValueIdx Idealize.ShloMosaic.TcCoe Idealize.SL.Sem
open Cert.Sage.KernelActs Cert.Sage.KArgs Cert.Sage.AggJoin

/-! ## Array by array -/

section Arrays

variable (xP : FVec Ideal Cert.KernelIdeal.S100000x128 .f32) (xA : FVec Ideal Cert.KernelIdeal.S50000x128 .f32)
  (cs cd : IVec Cert.KernelIdeal.S800000 32) (ws wd bs bd : IVec Cert.KernelIdeal.S500000 32)
  (WlC : FVec Ideal Cert.KernelIdeal.S128x128 .f32) (blC : FVec Ideal Cert.KernelIdeal.S128 .f32)
  (WrC WlW : FVec Ideal Cert.KernelIdeal.S128x128 .f32) (blW : FVec Ideal Cert.KernelIdeal.S128 .f32)
  (WrW WlB : FVec Ideal Cert.KernelIdeal.S128x128 .f32) (blB : FVec Ideal Cert.KernelIdeal.S128 .f32)
  (WrB : FVec Ideal Cert.KernelIdeal.S128x128 .f32) (g be : FVec Ideal Cert.KernelIdeal.S128 .f32)

theorem paper_arrays (hxP : ∀ i, IsReal (xP i)) (hxA : ∀ i, IsReal (xA i)) (hWlC : ∀ i, IsReal (WlC i)) (hblC : ∀ i, IsReal (blC i))
    (hWrC : ∀ i, IsReal (WrC i)) (hWlW : ∀ i, IsReal (WlW i)) (hblW : ∀ i, IsReal (blW i)) (hWrW : ∀ i, IsReal (WrW i))
    (hg : ∀ i, IsReal (g i)) (hbe : ∀ i, IsReal (be i))
    (hcd : ∀ e, IntOp.cmpi .slt (cd e) 0#32 = 0#1) (hwd : ∀ e, IntOp.cmpi .slt (wd e) 0#32 = 0#1) (n : Fin 100000) (d : Fin 128) :
    normFolded Nf5 eps (actP xP xA cs cd ws wd WlC blC WrC WlW blW WrW) (fun d => g (ix1 d)) (fun d => be (ix1 d)) n d
      = Cert.ReferenceIdeal.Read.val_main_v107 (F := Ideal) xP xA cs cd ws wd WlC blC WrC WlW blW WrW g be (ix2 n d) := by
  rw [Cert.Sage.RefSide.paper_out xP xA cs cd ws wd WlC blC WrC WlW blW WrW g be n d]
  have hRR : (fun n d => Cert.ReferenceIdeal.Read.val_main_v82 (F := Ideal) xP xA cs cd ws wd WlC blC WrC WlW blW WrW (ix2 n d))
      = actPSplit xP xA cs cd ws wd WlC blC WrC WlW blW WrW := by
    funext n d
    rw [Cert.Sage.RefSide.paper_act xP xA cs cd ws wd WlC blC WrC WlW blW WrW n d]
    unfold actPSplit
    rw [sumCites_eq xP cs cd hcd, cntCites_eq cd hcd, sumWrites_eq xA ws wd hwd, cntWrites_eq wd hwd]
  rw [hRR]
  have hK : actP xP xA cs cd ws wd WlC blC WrC WlW blW WrW = actPSplit xP xA cs cd ws wd WlC blC WrC WlW blW WrW :=
    funext fun n => funext fun d => actP_eq_split xP xA cs cd ws wd WlC blC WrC WlW blW WrW hxP hWrC hWrW n d
  rw [hK]
  obtain ⟨e, he, heps⟩ := Cert.Sage.Consts.ofBits_eps
  show normFolded (Ideal.ofBits .f32 0x47C35000#32) (Ideal.ofBits .f32 0x3727C5AC#32) _ _ _ n d = normCentred
    (Ideal.ofBits .f32 0x47C35000#32) (Ideal.ofBits .f32 0x3727C5AC#32) _ _ _ n d
  rw [Cert.Sage.Consts.ofBits_1e5, heps]
  exact normFolded_eq_centred (N := 100000) 100000 e (by norm_num) (by norm_num) he _ _ _
    (actPSplit_real xP xA cs cd ws wd WlC blC WrC WlW blW WrW hxP hxA hWlC hblC hWrC hWlW hblW hWrW) (fun d => hg _) (fun d => hbe _) n d

theorem author_arrays (hxP : ∀ i, IsReal (xP i)) (hxA : ∀ i, IsReal (xA i)) (hWlB : ∀ i, IsReal (WlB i)) (hblB : ∀ i, IsReal (blB i))
    (hWrB : ∀ i, IsReal (WrB i)) (hg : ∀ i, IsReal (g i)) (hbe : ∀ i, IsReal (be i))
    (hbd : ∀ e, IntOp.cmpi .slt (bd e) 0#32 = 0#1) (n : Fin 50000) (d : Fin 128) :
    normFolded Nf4 eps (actA xP xA bs bd WlB blB WrB) (fun d => g (ix1 d)) (fun d => be (ix1 d)) n d
      = Cert.ReferenceIdeal.Read.val_main_v133 (F := Ideal) xP xA bs bd WlB blB WrB g be (ix2 n d) := by
  rw [Cert.Sage.RefSide.author_out xP xA bs bd WlB blB WrB g be n d]
  have hRR : (fun n d => Cert.ReferenceIdeal.Read.val_main_v108 (F := Ideal) xP xA bs bd WlB blB WrB (ix2 n d))
      = actASplit xP xA bs bd WlB blB WrB := by
    funext n d
    rw [Cert.Sage.RefSide.author_act xP xA bs bd WlB blB WrB n d]
    unfold actASplit
    rw [sumWb_eq xP bs bd hbd, cntWb_eq bd hbd]
  rw [hRR]
  have hK : actA xP xA bs bd WlB blB WrB = actASplit xP xA bs bd WlB blB WrB :=
    funext fun n => funext fun d => actA_eq_split xP xA bs bd WlB blB WrB n d
  rw [hK]
  obtain ⟨e, he, heps⟩ := Cert.Sage.Consts.ofBits_eps
  show normFolded (Ideal.ofBits .f32 0x47435000#32) (Ideal.ofBits .f32 0x3727C5AC#32) _ _ _ n d = normCentred
    (Ideal.ofBits .f32 0x47435000#32) (Ideal.ofBits .f32 0x3727C5AC#32) _ _ _ n d
  rw [Cert.Sage.Consts.ofBits_5e4, heps]
  exact normFolded_eq_centred (N := 50000) 50000 e (by norm_num) (by norm_num) he _ _ _
    (actASplit_real xP xA bs bd WlB blB WrB hxP hxA hWlB hblB hWrB) (fun d => hg _) (fun d => hbe _) n d

end Arrays

/-! ## Memory by memory -/

section Memories

open Cert.KernelIdeal.Gen

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's paper result is the kernel program's paper result buffer at the last boundary. -/
theorem paper (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Value.res_main_v107 m' c = W6 m ρ c (Proc.devRef .tc Cert.KernelIdeal.main_v134) := by
  obtain ⟨hxp, hxa, hWlc, hblc, hWrc, hWlw, hblw, hWrw, hWlb, hblb, hWrb, hgp, hbp, hga, hba, hcd, hwd, hbd⟩ :=
    Cert.Sage.PreFacts.of_pre_kernel m hpre c
  rw [Cert.ReferenceIdeal.Read.val_main_v107_eq m' c, h0, h1, h2, h3, h4, h5, h8, h9, h10, h11, h12, h13, h17, h18]
  funext i
  obtain ⟨n, d, rfl⟩ : ∃ (n : Fin 100000) (d : Fin 128), i = ix2 n d := ⟨i 0, i 1, eq_ix2 i⟩
  refine (paper_arrays _ _ _ _ _ _ _ _ _ _ _ _ _ _ (fun i => isReal_iff.2 (hxp i)) (fun i => isReal_iff.2 (hxa i))
    (fun i => isReal_iff.2 (hWlc i)) (fun i => isReal_iff.2 (hblc i)) (fun i => isReal_iff.2 (hWrc i))
    (fun i => isReal_iff.2 (hWlw i)) (fun i => isReal_iff.2 (hblw i)) (fun i => isReal_iff.2 (hWrw i))
    (fun i => isReal_iff.2 (hgp i)) (fun i => isReal_iff.2 (hbp i)) hcd hwd n d).symm.trans ?_
  exact (Cert.Sage.KernelSide.paper_result m ρ c n d).symm

/-- The reference's author result is the kernel program's author result buffer at the last boundary. -/
theorem author (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.Value.res_main_v133 m' c = W6 m ρ c (Proc.devRef .tc Cert.KernelIdeal.main_v135) := by
  obtain ⟨hxp, hxa, hWlc, hblc, hWrc, hWlw, hblw, hWrw, hWlb, hblb, hWrb, hgp, hbp, hga, hba, hcd, hwd, hbd⟩ :=
    Cert.Sage.PreFacts.of_pre_kernel m hpre c
  rw [Cert.ReferenceIdeal.Read.val_main_v133_eq m' c, h0, h1, h6, h7, h14, h15, h16, h19, h20]
  funext i
  obtain ⟨n, d, rfl⟩ : ∃ (n : Fin 50000) (d : Fin 128), i = ix2 n d := ⟨i 0, i 1, eq_ix2 i⟩
  refine (author_arrays _ _ _ _ _ _ _ _ _ (fun i => isReal_iff.2 (hxp i)) (fun i => isReal_iff.2 (hxa i))
    (fun i => isReal_iff.2 (hWlb i)) (fun i => isReal_iff.2 (hblb i)) (fun i => isReal_iff.2 (hWrb i))
    (fun i => isReal_iff.2 (hga i)) (fun i => isReal_iff.2 (hba i)) hbd n d).symm.trans ?_
  exact (Cert.Sage.KernelSide.author_result m ρ c n d).symm

end Memories

end Cert.Sage.Results

end
-- ==== Proof.lean ====
/-
  A heterogeneous mean-aggregation layer (three relations between paper and author nodes, each with its own pair of
  128 x 128 matrices and a bias), followed by ReLU and a batch normalisation over the nodes of each type: the kernel
  program — host gathers and accumulating scatters, then four kernel regions: the paper nodes' update with its per-tile
  column sums, the author nodes' update with its per-tile column sums, and one normalisation per node type — against the
  plain reference.

  Both programs are read over the extended reals. Under the precondition (every float input finite; every destination
  node number not negative) the two programs end with equal results:
    • a destination number that is not negative is not shifted by the program that shifts negative ones, so both
      programs scatter the same rows to the same nodes and count the same in-degrees;
    • multiplying a neighbour sum by the reciprocal of a nonzero in-degree is dividing by it; a real feature times the sum
      of two real matrix entries is the sum of the products; so the two programs' activations are one array, and every
      entry of it is real because every input is;
    • a column sum taken tile by tile and then over the tiles is the column sum; the mean of the squares minus the squared
      mean is the mean of the squared deviations, not negative, so the cut-off at 0 is inert; and the normalisation folded
      into one scale and one shift per feature is the normalisation written with the deviations.
  The kernel program's and its idealisation's frames are the generated ones; the reference's frame is its generated run with
  the results dropped; the idealisation rewrote nothing, so it preserves the kernel program trivially.
-/
import proofs.«116012_j76166950027377_2_alg».proof.Defs
import proofs.«116012_j76166950027377_2_alg».proof.Proof.Gen.Kernel
import proofs.«116012_j76166950027377_2_alg».proof.Proof.Gen.Kernel.Skeleton
import proofs.«116012_j76166950027377_2_alg».proof.Proof.Gen.Kernel.Launch
import proofs.«116012_j76166950027377_2_alg».proof.Proof.Gen.Kernel.Points
import proofs.«116012_j76166950027377_2_alg».proof.Proof.Gen.Kernel.Frame
import proofs.«116012_j76166950027377_2_alg».proof.Proof.Gen.KernelIdeal
import proofs.«116012_j76166950027377_2_alg».proof.Proof.Gen.KernelIdeal.Skeleton
import proofs.«116012_j76166950027377_2_alg».proof.Proof.Gen.KernelIdeal.Launch
import proofs.«116012_j76166950027377_2_alg».proof.Proof.Gen.KernelIdeal.Points
import proofs.«116012_j76166950027377_2_alg».proof.Proof.Gen.KernelIdeal.Frame
import proofs.«116012_j76166950027377_2_alg».proof.Proof.Gen.ReferenceIdeal
import proofs.«116012_j76166950027377_2_alg».proof.Proof.Gen.Pre_finite_inputs
import proofs.«116012_j76166950027377_2_alg».proof.Proof.Gen.ReferenceIdeal.Run
import proofs.«116012_j76166950027377_2_alg».proof.Proof.Gen.ReferenceIdeal.Read
import proofs.«116012_j76166950027377_2_alg».proof.Proof.KernelRun
import proofs.«116012_j76166950027377_2_alg».proof.Proof.Results
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealisation rewrote nothing. -/
theorem preserves : Cert.preserves_Kernel_KernelIdeal := trivial

/-- Both programs end, the kernel program's two result buffers at the last boundary's contents and the reference's at its
    composed stages; the two agree entry by entry (`Results.paper`, `Results.author`). -/
theorem algebraic : Cert.algebraic_KernelIdeal_ReferenceIdeal := by
  intro m ρ m' ρ' hpre hagree
  refine ⟨fun c => Cert.KernelIdeal.Gen.W6 m ρ c (Proc.devRef .tc Cert.KernelIdeal.main_v134),
    fun c => Cert.KernelIdeal.Gen.W6 m ρ c (Proc.devRef .tc Cert.KernelIdeal.main_v135),
    Cert.Sage.KernelRun.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, _, _, h8, h9, h10, h11, h12, h13, _, _, _, h17, h18, _, _⟩ := hagree c
    exact Cert.Sage.Results.paper m ρ m' c hpre h0 h1 h2 h3 h4 h5 h8 h9 h10 h11 h12 h13 h17 h18
  · obtain ⟨h0, h1, _, _, _, _, h6, h7, _, _, _, _, _, _, h14, h15, h16, _, _, h19, h20⟩ := hagree c
    exact Cert.Sage.Results.author m ρ m' c hpre h0 h1 h6 h7 h14 h15 h16 h19 h20

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
